-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16 : Shape := ⟨2, ![512, 16]⟩
abbrev S16 : Shape := ⟨1, ![16]⟩
abbrev S1 : Shape := ⟨1, ![1]⟩
abbrev S_ : Shape := ⟨0, ![]⟩

class Facts : Prop where
  bcast_S_S512x16 : S_.BroadcastsInDim S512x16 (![] : Fin 0 → Fin S512x16.rank)
  reducesTo_S512x16_S_d0_1 : S512x16.ReducesTo [0, 1] S_
  h_S_ : 0 < S_.numel
  bcast_S_S16 : S_.BroadcastsInDim S16 (![] : Fin 0 → Fin S16.rank)
  reducesTo_S16_S_d0 : S16.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S512x16 .f32) (main_arg1 : FVec F S512x16 .f32) (main_arg2 : FVec F S16 .f32) (main_arg3 : FVec F S1 .f32) : IVec S_ 1 :=
  let main_v0 : FVec F S512x16 .f32 := Host.absf main_arg0
  let main_cst : FVec F S_ .f32 := constant S_ .f32 0x7F800000#32
  let main_v1 : FVec F S512x16 .f32 := broadcastInDim S512x16 ![] bcast_S_S512x16 main_cst
  let main_v2 : IVec S512x16 1 := cmpf .olt main_v0 main_v1
  let main_c : IVec S_ 1 := constantI S_ 1 1#1
  let main_v3 : IVec S_ 1 := (fun x v => Host.reduce IntOp.andi x v reducesTo_S512x16_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S512x16 : Shape := ⟨2, ![512, 16]⟩
abbrev S16 : Shape := ⟨1, ![16]⟩
abbrev S1 : Shape := ⟨1, ![1]⟩
abbrev S_ : Shape := ⟨0, ![]⟩
abbrev S1x16 : Shape := ⟨2, ![1, 16]⟩
abbrev S1x1 : Shape := ⟨2, ![1, 1]⟩
abbrev S16x512 : Shape := ⟨2, ![16, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S8192x512 : Shape := ⟨2, ![8192, 512]⟩
abbrev S16x1 : Shape := ⟨2, ![16, 1]⟩
abbrev S8192x8192 : Shape := ⟨2, ![8192, 8192]⟩

abbrev nBuf : Space → Nat
  | .hbm => 40
  | .vmem => 22
  | .smem => 0
  | _ => 0

abbrev bufTy : (tb : Table) → Fin (tcTables nBuf tb) → BufTy
  | .hbm, ⟨0, _⟩ => ⟨S512x16, .f32⟩
  | .hbm, ⟨1, _⟩ => ⟨S512x16, .f32⟩
  | .hbm, ⟨2, _⟩ => ⟨S16, .f32⟩
  | .hbm, ⟨3, _⟩ => ⟨S1, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .i1⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S1, .i1⟩
  | .hbm, ⟨24, _⟩ => ⟨S1, .f32⟩
  | .hbm, ⟨25, _⟩ => ⟨S1, .f32⟩
  | .hbm, ⟨26, _⟩ => ⟨S1, .f32⟩
  | .hbm, ⟨27, _⟩ => ⟨S1, .f32⟩
  | .hbm, ⟨28, _⟩ => ⟨S1, .f32⟩
  | .hbm, ⟨29, _⟩ => ⟨S1, .f32⟩
  | .hbm, ⟨30, _⟩ => ⟨S1, .f32⟩
  | .hbm, ⟨31, _⟩ => ⟨S1, .f32⟩
  | .hbm, ⟨32, _⟩ => ⟨S1x16, .f32⟩
  | .hbm, ⟨33, _⟩ => ⟨S1x1, .f32⟩
  | .hbm, ⟨34, _⟩ => ⟨S16x512, .f32⟩
  | .hbm, ⟨35, _⟩ => ⟨S16x512, .f32⟩
  | .hbm, ⟨36, _⟩ => ⟨S512x512, .f32⟩
  | .hbm, ⟨37, _⟩ => ⟨S512x512, .f32⟩
  | .hbm, ⟨38, _⟩ => ⟨S8192x512, .f32⟩
  | .hbm, ⟨39, _⟩ => ⟨S8192x8192, .f32⟩
  | .local _ .vmem, ⟨0, _⟩ => ⟨S512x16, .f32⟩
  | .local _ .vmem, ⟨1, _⟩ => ⟨S512x16, .f32⟩
  | .local _ .vmem, ⟨2, _⟩ => ⟨S1x16, .f32⟩
  | .local _ .vmem, ⟨3, _⟩ => ⟨S1x1, .f32⟩
  | .local _ .vmem, ⟨4, _⟩ => ⟨S512x512, .f32⟩
  | .local _ .vmem, ⟨5, _⟩ => ⟨S512x16, .f32⟩
  | .local _ .vmem, ⟨6, _⟩ => ⟨S512x16, .f32⟩
  | .local _ .vmem, ⟨7, _⟩ => ⟨S1x16, .f32⟩
  | .local _ .vmem, ⟨8, _⟩ => ⟨S1x1, .f32⟩
  | .local _ .vmem, ⟨9, _⟩ => ⟨S512x512, .f32⟩
  | .local _ .vmem, ⟨10, _⟩ => ⟨S512x16, .f32⟩
  | .local _ .vmem, ⟨11, _⟩ => ⟨S16x512, .f32⟩
  | .local _ .vmem, ⟨12, _⟩ => ⟨S1x16, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x16, .f32⟩
  | .local _ .vmem, ⟨17, _⟩ => ⟨S16x512, .f32⟩
  | .local _ .vmem, ⟨18, _⟩ => ⟨S1x16, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_call1_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg4_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem4_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem4_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S16x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![16, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S512x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S16x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

class Facts₀ : Prop where
  bcast_S_S16 : S_.BroadcastsInDim S16 (![] : Fin 0 → Fin S16.rank)
  bcast_S_S1 : S_.BroadcastsInDim S1 (![] : Fin 0 → Fin S1.rank)
  shapeCasts_S16_S1x16 : S16.ShapeCasts S1x16
  shapeCasts_S1_S1x1 : S1.ShapeCasts S1x1
  transposes_S512x16_S16x512_1_0 : S512x16.Transposes [1, 0] S16x512
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x16_S512x16_0_0 : ∀ a, (![0, 0] : Fin 2 → Nat) a + S512x16.size a ≤ S512x16.size a
  h_S512x16 : 0 < S512x16.numel
  broadcasts_S1x16_S512x16 : S1x16.Broadcasts S512x16
  reduces_S512x16_S512 : S512x16.Reduces [1] S512
  shapeCasts_S512_S512x1 : S512.ShapeCasts S512x1
  transposes_S512x16_p1_0_S16x512 : S512x16.Transposes [1, 0] S16x512
  broadcasts_S512x1_S512x512 : S512x1.Broadcasts S512x512
  transposes_S512x1_p1_0_S1x512 : S512x1.Transposes [1, 0] S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  iota_S1x16_d1_w32 : S1x16.Iotas .tc 32 [1]
  natLt_1_32 : 1 < 32
  iota_S16x1_d0_w32 : S16x1.Iotas .tc 32 [0]
  inb_S16x512_S16x512_0_0 : ∀ a, (![0, 0] : Fin 2 → Nat) a + S16x512.size a ≤ S16x512.size a
  h_S16x512 : 0 < S16x512.numel
  shapeCasts_S16x512_S16x512 : S16x512.ShapeCasts S16x512
  reduces_S1x16_S1 : S1x16.Reduces [1] S1
  broadcasts_S1x1_S512x512 : S1x1.Broadcasts S512x512
  shapeCasts_S512x512_S512x512 : S512x512.ShapeCasts S512x512
  dot_S512x16_S16x512_S512x512_1_0_0_1_n_n_wf : DotDims.WF S512x16 S16x512 S512x512 [1] [0] [0] [1] [] []
  dot_S512x16_S16x1_S512x1_1_0_0_1_n_n_wf : DotDims.WF S512x16 S16x1 S512x1 [1] [0] [0] [1] [] []
  dot_S1x16_S16x512_S1x512_1_0_0_1_n_n_wf : DotDims.WF S1x16 S16x512 S1x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S512x16.size a
  hwx0_0 : ∀ i : grid0.Coords, EltTy.bits .f32 = 32 ∨ (Rect.block (s := S512x16) S512x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x16.size a ≤ S512x16.size a
  hwx1_0 : ∀ i : grid1.Coords, EltTy.bits .f32 = 32 ∨ (Rect.block (s := S512x16) S512x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x16.size a ≤ S512x16.size a
  hwx1_1 : ∀ i : grid1.Coords, EltTy.bits .f32 = 32 ∨ (Rect.block (s := S512x16) S512x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x16.size a ≤ S512x16.size a
  hwx2_0 : ∀ i : grid2.Coords, EltTy.bits .f32 = 32 ∨ (Rect.block (s := S512x16) S512x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x512.size a ≤ S16x512.size a
  hwx2_1 : ∀ i : grid2.Coords, EltTy.bits .f32 = 32 ∨ (Rect.block (s := S16x512) S16x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S8192x512.size a
  hwx2_4 : ∀ i : grid2.Coords, EltTy.bits .f32 = 32 ∨ (Rect.block (s := S8192x512) S512x512.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x16.size a ≤ S512x16.size a
  hwx3_0 : ∀ i : grid3.Coords, EltTy.bits .f32 = 32 ∨ (Rect.block (s := S512x16) S512x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x512.size a ≤ S16x512.size a
  hwx3_1 : ∀ i : grid3.Coords, EltTy.bits .f32 = 32 ∨ (Rect.block (s := S16x512) S16x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .f32 = 32 ∨ (Rect.block (s := S512x512) S512x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S8192x8192.size a
  hwx3_4 : ∀ i : grid3.Coords, EltTy.bits .f32 = 32 ∨ (Rect.block (s := S8192x8192) S512x512.size (cc3_transform_4 i) (hinb3_4 i)).WholeWords (EltTy.packing .f32)

variable [Facts₀]

def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf
def dot_S512x16_S16x1_S512x1_1_0_0_1_n_n : DotDims S512x16 S16x1 S512x1 where
  lhsContracting := [1]
  rhsContracting := [0]
  lhsNonContracting := [0]
  rhsNonContracting := [1]
  lhsBatch := []
  rhsBatch := []
  wf := dot_S512x16_S16x1_S512x1_1_0_0_1_n_n_wf
def dot_S1x16_S16x512_S1x512_1_0_0_1_n_n : DotDims S1x16 S16x512 S1x512 where
  lhsContracting := [1]
  rhsContracting := [0]
  lhsNonContracting := [0]
  rhsNonContracting := [1]
  lhsBatch := []
  rhsBatch := []
  wf := dot_S1x16_S16x512_S1x512_1_0_0_1_n_n_wf

abbrev win0_0 : Pipeline.Window sig grid0 :=
  Pipeline.Window.ofSpec (Memref.whole main_arg0) S512x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x512.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S512x16.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v5) S16x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S512x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg0) S512x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v4) S16x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v9) S512x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S512x16 : Shape := ⟨2, ![512, 16]⟩
abbrev S16 : Shape := ⟨1, ![16]⟩
abbrev S1 : Shape := ⟨1, ![1]⟩
abbrev S_ : Shape := ⟨0, ![]⟩
abbrev S1x16 : Shape := ⟨2, ![1, 16]⟩
abbrev S512 : Shape := ⟨1, ![512]⟩
abbrev S512x1 : Shape := ⟨2, ![512, 1]⟩
abbrev S16x512 : Shape := ⟨2, ![16, 512]⟩
abbrev S512x512 : Shape := ⟨2, ![512, 512]⟩
abbrev S1x512 : Shape := ⟨2, ![1, 512]⟩
abbrev S512x1x16 : Shape := ⟨3, ![512, 1, 16]⟩
abbrev S1x512x16 : Shape := ⟨3, ![1, 512, 16]⟩
abbrev S512x512x16 : Shape := ⟨3, ![512, 512, 16]⟩
abbrev S1x1x16 : Shape := ⟨3, ![1, 1, 16]⟩
abbrev S512x512x1 : Shape := ⟨3, ![512, 512, 1]⟩
abbrev S16x512x512 : Shape := ⟨3, ![16, 512, 512]⟩
abbrev S8192x512 : Shape := ⟨2, ![8192, 512]⟩
abbrev S16x16 : Shape := ⟨2, ![16, 16]⟩
abbrev S16x1 : Shape := ⟨2, ![16, 1]⟩
abbrev S512x512x1x1 : Shape := ⟨4, ![512, 512, 1, 1]⟩
abbrev S1x1x16x16 : Shape := ⟨4, ![1, 1, 16, 16]⟩
abbrev S512x512x16x1 : Shape := ⟨4, ![512, 512, 16, 1]⟩
abbrev S512x512x1x16 : Shape := ⟨4, ![512, 512, 1, 16]⟩
abbrev S512x512x16x16 : Shape := ⟨4, ![512, 512, 16, 16]⟩
abbrev S16x512x16x512 : Shape := ⟨4, ![16, 512, 16, 512]⟩
abbrev S8192x8192 : Shape := ⟨2, ![8192, 8192]⟩

abbrev nBuf : Space → Nat
  | .hbm => 144
  | .vmem => 0
  | .smem => 0
  | _ => 0

abbrev hbmTy0_0 (i : Nat) : BufTy := match i % 128 with
  | 0 => ⟨S512x16, .f32⟩
  | 1 => ⟨S512x16, .f32⟩
  | 2 => ⟨S16, .f32⟩
  | 3 => ⟨S1, .f32⟩
  | 4 => ⟨S_, .f32⟩
  | 5 => ⟨S16, .f32⟩
  | 6 => ⟨S16, .f32⟩
  | 7 => ⟨S16, .f32⟩
  | 8 => ⟨S16, .f32⟩
  | 9 => ⟨S16, .i1⟩
  | 10 => ⟨S16, .f32⟩
  | 11 => ⟨S16, .f32⟩
  | 12 => ⟨S16, .f32⟩
  | 13 => ⟨S16, .f32⟩
  | 14 => ⟨S16, .f32⟩
  | 15 => ⟨S16, .f32⟩
  | 16 => ⟨S16, .f32⟩
  | 17 => ⟨S16, .f32⟩
  | 18 => ⟨S_, .f32⟩
  | 19 => ⟨S1, .f32⟩
  | 20 => ⟨S1, .f32⟩
  | 21 => ⟨S1, .f32⟩
  | 22 => ⟨S1, .f32⟩
  | 23 => ⟨S1, .i1⟩
  | 24 => ⟨S1, .f32⟩
  | 25 => ⟨S1, .f32⟩
  | 26 => ⟨S1, .f32⟩
  | 27 => ⟨S1, .f32⟩
  | 28 => ⟨S1, .f32⟩
  | 29 => ⟨S1, .f32⟩
  | 30 => ⟨S1, .f32⟩
  | 31 => ⟨S1, .f32⟩
  | 32 => ⟨S_, .f32⟩
  | 33 => ⟨S1x16, .f32⟩
  | 34 => ⟨S512x16, .f32⟩
  | 35 => ⟨S512x16, .f32⟩
  | 36 => ⟨S1x16, .f32⟩
  | 37 => ⟨S512x16, .f32⟩
  | 38 => ⟨S512x16, .f32⟩
  | 39 => ⟨S512x16, .f32⟩
  | 40 => ⟨S_, .f32⟩
  | 41 => ⟨S512, .f32⟩
  | 42 => ⟨S512x1, .f32⟩
  | 43 => ⟨S_, .f32⟩
  | 44 => ⟨S512x16, .f32⟩
  | 45 => ⟨S512x16, .f32⟩
  | 46 => ⟨S16x512, .f32⟩
  | 47 => ⟨S512x512, .f32⟩
  | 48 => ⟨S512x512, .f32⟩
  | 49 => ⟨S512x512, .f32⟩
  | 50 => ⟨S512x16, .f32⟩
  | 51 => ⟨S_, .f32⟩
  | 52 => ⟨S512, .f32⟩
  | 53 => ⟨S1x512, .f32⟩
  | 54 => ⟨S512x512, .f32⟩
  | 55 => ⟨S512x512, .f32⟩
  | 56 => ⟨S_, .f32⟩
  | 57 => ⟨S512x512, .f32⟩
  | 58 => ⟨S512x512, .f32⟩
  | 59 => ⟨S512x512, .f32⟩
  | 60 => ⟨S512x512, .f32⟩
  | 61 => ⟨S512x512, .f32⟩
  | 62 => ⟨S512x1x16, .f32⟩
  | 63 => ⟨S1x512x16, .f32⟩
  | 64 => ⟨S512x512x16, .f32⟩
  | 65 => ⟨S512x512x16, .f32⟩
  | 66 => ⟨S512x512x16, .f32⟩
  | 67 => ⟨S16, .f32⟩
  | 68 => ⟨S1x1x16, .f32⟩
  | 69 => ⟨S512x512x16, .f32⟩
  | 70 => ⟨S512x512x16, .f32⟩
  | 71 => ⟨S_, .f32⟩
  | 72 => ⟨S512x512x16, .f32⟩
  | 73 => ⟨S512x512x16, .f32⟩
  | 74 => ⟨S512x512x1, .f32⟩
  | 75 => ⟨S512x512x16, .f32⟩
  | 76 => ⟨S512x512x16, .f32⟩
  | 77 => ⟨S16x512x512, .f32⟩
  | 78 => ⟨S8192x512, .f32⟩
  | 79 => ⟨S512x16, .f32⟩
  | 80 => ⟨S_, .f32⟩
  | 81 => ⟨S512, .f32⟩
  | 82 => ⟨S512x1, .f32⟩
  | 83 => ⟨S_, .f32⟩
  | 84 => ⟨S512x16, .f32⟩
  | 85 => ⟨S512x16, .f32⟩
  | 86 => ⟨S16x512, .f32⟩
  | 87 => ⟨S512x512, .f32⟩
  | 88 => ⟨S512x512, .f32⟩
  | 89 => ⟨S512x512, .f32⟩
  | 90 => ⟨S512x16, .f32⟩
  | 91 => ⟨S_, .f32⟩
  | 92 => ⟨S512, .f32⟩
  | 93 => ⟨S1x512, .f32⟩
  | 94 => ⟨S512x512, .f32⟩
  | 95 => ⟨S512x512, .f32⟩
  | 96 => ⟨S_, .f32⟩
  | 97 => ⟨S512x512, .f32⟩
  | 98 => ⟨S512x512, .f32⟩
  | 99 => ⟨S512x512, .f32⟩
  | 100 => ⟨S512x512, .f32⟩
  | 101 => ⟨S512x512, .f32⟩
  | 102 => ⟨S512x1x16, .f32⟩
  | 103 => ⟨S1x512x16, .f32⟩
  | 104 => ⟨S512x512x16, .f32⟩
  | 105 => ⟨S512x512x16, .f32⟩
  | 106 => ⟨S512x512x16, .f32⟩
  | 107 => ⟨S16, .f32⟩
  | 108 => ⟨S1x1x16, .f32⟩
  | 109 => ⟨S512x512x16, .f32⟩
  | 110 => ⟨S512x512x16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16x16, .i32⟩
  | 118 => ⟨S16x16, .i32⟩
  | 119 => ⟨S_, .i32⟩
  | 120 => ⟨S16x16, .i32⟩
  | 121 => ⟨S16x16, .i32⟩
  | 122 => ⟨S16x16, .i1⟩
  | 123 => ⟨S16x1, .f32⟩
  | 124 => ⟨S_, .f32⟩
  | 125 => ⟨S16x16, .f32⟩
  | 126 => ⟨S16x16, .f32⟩
  | 127 => ⟨S16x16, .f32⟩
  | _ => ⟨S512x16, .f32⟩

abbrev hbmTy0_1 (i : Nat) : BufTy := match i % 128 with
  | 0 => ⟨S512x512x1x1, .f32⟩
  | 1 => ⟨S1x1x16x16, .f32⟩
  | 2 => ⟨S512x512x16x1, .f32⟩
  | 3 => ⟨S_, .f32⟩
  | 4 => ⟨S512x512x16x1, .f32⟩
  | 5 => ⟨S512x512x16x1, .f32⟩
  | 6 => ⟨S512x512x1x16, .f32⟩
  | 7 => ⟨S512x512x16x16, .f32⟩
  | 8 => ⟨S512x512x16x16, .f32⟩
  | 9 => ⟨S512x512x16x16, .f32⟩
  | 10 => ⟨S512x512x16x16, .f32⟩
  | 11 => ⟨S512x512x16x16, .f32⟩
  | 12 => ⟨S512x512x16x16, .f32⟩
  | 13 => ⟨S512x512x16x16, .f32⟩
  | 14 => ⟨S16x512x16x512, .f32⟩
  | 15 => ⟨S8192x8192, .f32⟩
  | _ => ⟨S512x16, .f32⟩

abbrev hbmTy (i : Nat) : BufTy := match i / 128 with
  | 0 => hbmTy0_0 i
  | 1 => hbmTy0_1 i
  | _ => ⟨S512x16, .f32⟩

abbrev bufTy : (tb : Table) → Fin (tcTables nBuf tb) → BufTy
  | .hbm, ⟨i, _⟩ => hbmTy i
  | _, _ => ⟨S512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_call1_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_v10 : Ref sig .tc := ⟨.hbm, 41, rfl⟩
abbrev main_v11 : Ref sig .tc := ⟨.hbm, 42, rfl⟩
abbrev main_cst_0 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_1 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_2 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_3 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_4 : Ref sig .tc := ⟨.hbm, 80, rfl⟩
abbrev main_v45 : Ref sig .tc := ⟨.hbm, 81, rfl⟩
abbrev main_v46 : Ref sig .tc := ⟨.hbm, 82, rfl⟩
abbrev main_cst_5 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_6 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_7 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_8 : Ref sig .tc := ⟨.hbm, 112, rfl⟩
abbrev main_v73 : Ref sig .tc := ⟨.hbm, 113, rfl⟩
abbrev main_v74 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_c : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_cst_0 : Ref sig .tc := ⟨.hbm, 124, rfl⟩
abbrev main_call2_call0_v0 : Ref sig .tc := ⟨.hbm, 125, rfl⟩
abbrev main_call2_call0_v1 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_9 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S_S1 : S_.BroadcastsInDim S1 (![] : Fin 0 → Fin S1.rank)
  shapeCasts_S1_S_ : S1.ShapeCasts S_
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  reducesTo_S512x16_S512_d1 : S512x16.ReducesTo [1] S512
  h_S_ : 0 < S_.numel
  bcast_S512_S512x1_0 : S512.BroadcastsInDim S512x1 (![0] : Fin 1 → Fin S512x1.rank)
  bcast_S_S512x16 : S_.BroadcastsInDim S512x16 (![] : Fin 0 → Fin S512x16.rank)
  transposes_S512x16_S16x512_1_0 : S512x16.Transposes [1, 0] S16x512
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S512x16_S512x1x16_0_2 : S512x16.BroadcastsInDim S512x1x16 (![0, 2] : Fin 2 → Fin S512x1x16.rank)
  bcast_S512x16_S1x512x16_1_2 : S512x16.BroadcastsInDim S1x512x16 (![1, 2] : Fin 2 → Fin S1x512x16.rank)
  bcast_S512x1x16_S512x512x16_0_1_2 : S512x1x16.BroadcastsInDim S512x512x16 (![0, 1, 2] : Fin 3 → Fin S512x512x16.rank)
  bcast_S1x512x16_S512x512x16_0_1_2 : S1x512x16.BroadcastsInDim S512x512x16 (![0, 1, 2] : Fin 3 → Fin S512x512x16.rank)
  bcast_S16_S1x1x16_2 : S16.BroadcastsInDim S1x1x16 (![2] : Fin 1 → Fin S1x1x16.rank)
  bcast_S1x1x16_S512x512x16_0_1_2 : S1x1x16.BroadcastsInDim S512x512x16 (![0, 1, 2] : Fin 3 → Fin S512x512x16.rank)
  bcast_S_S512x512x16 : S_.BroadcastsInDim S512x512x16 (![] : Fin 0 → Fin S512x512x16.rank)
  bcast_S512x512_S512x512x1_0_1 : S512x512.BroadcastsInDim S512x512x1 (![0, 1] : Fin 2 → Fin S512x512x1.rank)
  bcast_S512x512x1_S512x512x16_0_1_2 : S512x512x1.BroadcastsInDim S512x512x16 (![0, 1, 2] : Fin 3 → Fin S512x512x16.rank)
  transposes_S512x512x16_S16x512x512_2_0_1 : S512x512x16.Transposes [2, 0, 1] S16x512x512
  shapeCasts_S16x512x512_S8192x512 : S16x512x512.ShapeCasts S8192x512
  pads_S16_S16_000 : S16.Pads (![0] : Fin 1 → Nat) ![0] ![0] S16
  bcast_S_S16x16 : S_.BroadcastsInDim S16x16 (![] : Fin 0 → Fin S16x16.rank)
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  bcast_S512x512_S512x512x1x1_0_1 : S512x512.BroadcastsInDim S512x512x1x1 (![0, 1] : Fin 2 → Fin S512x512x1x1.rank)
  bcast_S16x16_S1x1x16x16_2_3 : S16x16.BroadcastsInDim S1x1x16x16 (![2, 3] : Fin 2 → Fin S1x1x16x16.rank)
  bcast_S512x512x16_S512x512x16x1_0_1_2 : S512x512x16.BroadcastsInDim S512x512x16x1 (![0, 1, 2] : Fin 3 → Fin S512x512x16x1.rank)
  bcast_S_S512x512x16x1 : S_.BroadcastsInDim S512x512x16x1 (![] : Fin 0 → Fin S512x512x16x1.rank)
  bcast_S512x512x16_S512x512x1x16_0_1_3 : S512x512x16.BroadcastsInDim S512x512x1x16 (![0, 1, 3] : Fin 3 → Fin S512x512x1x16.rank)
  bcast_S512x512x16x1_S512x512x16x16_0_1_2_3 : S512x512x16x1.BroadcastsInDim S512x512x16x16 (![0, 1, 2, 3] : Fin 4 → Fin S512x512x16x16.rank)
  bcast_S512x512x1x16_S512x512x16x16_0_1_2_3 : S512x512x1x16.BroadcastsInDim S512x512x16x16 (![0, 1, 2, 3] : Fin 4 → Fin S512x512x16x16.rank)
  bcast_S1x1x16x16_S512x512x16x16_0_1_2_3 : S1x1x16x16.BroadcastsInDim S512x512x16x16 (![0, 1, 2, 3] : Fin 4 → Fin S512x512x16x16.rank)
  bcast_S512x512x1x1_S512x512x16x16_0_1_2_3 : S512x512x1x1.BroadcastsInDim S512x512x16x16 (![0, 1, 2, 3] : Fin 4 → Fin S512x512x16x16.rank)
  transposes_S512x512x16x16_S16x512x16x512_2_0_3_1 : S512x512x16x16.Transposes [2, 0, 3, 1] S16x512x16x512
  shapeCasts_S16x512x16x512_S8192x8192 : S16x512x16x512.ShapeCasts S8192x8192
  dot_S512x16_S16x512_S512x512_1_0_0_1_n_n_wf : DotDims.WF S512x16 S16x512 S512x512 [1] [0] [0] [1] [] []

variable [Facts₀]

def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf

class Facts : Prop extends Facts₀ where

variable [Facts]
-- ==== Proof.KernelRegion0.lean ====
/-
  The pairwise kernel of region 0, at one grid point: from the blocks of its four input windows — the two point sets (512 rows of 16 coordinates each), the row of length scales and the 1×1 variance — the body stores into its output window's buffer one whole 512×512 block, the value the body's arithmetic gives of those four blocks.
  Stated for every float instance: what each window's buffer holds before and after the body at a point, the body's
  triple on whole buffers, the proof data of the region's pipeline and the per-point obligation the pipeline asks for.
-/
import proofs.«151589_j19816979103948_1_alg».proof.Proof.Gen.Kernel.Launch
import proofs.«151589_j19816979103948_1_alg».proof.Proof.Gen.Kernel.Skeleton
import proofs.«151589_j19816979103948_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's current buffer holds its block at every point, whether the pipeline fetched it there or not -/

theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev r0 : Rect S512x16 := Rect.unit (s := S512x16) ![0, 0] S512x16.size inb_S512x16_S512x16_0_0
abbrev r1 : Rect S512x16 := Rect.unit (s := S512x16) ![0, 0] S512x16.size inb_S512x16_S512x16_0_0
abbrev r2 : Rect S1x16 := Rect.unit (s := S1x16) ![0, 0] S1x16.size inb_S1x16_S1x16_0_0
abbrev r3 : Rect S1x1 := Rect.unit (s := S1x1) ![0, 0] S1x1.size inb_S1x1_S1x1_0_0
abbrev rOut : Rect S512x512 := Rect.unit (s := S512x512) ![0, 0] S512x512.size inb_S512x512_S512x512_0_0

/-- The output window's buffer after the body: its one store, of the body's arithmetic at the four blocks. -/
def out (x0 : Vec F S512x16 .f32) (x1 : Vec F S512x16 .f32) (x2 : Vec F S1x16 .f32) (x3 : Vec F S1x1 .f32) : Vec F S512x512 .f32 :=
  View.canon [⟨rOut, k0_pay1 (View.ld x2 r2) (View.ld x3 r3) (View.ld x0 r0) (View.ld x1 r1)⟩]

/-- The one store covers the buffer. -/
theorem cover_out (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

set_option maxHeartbeats 1000000 in
/-- The body on whole buffers: the inputs' at known contents and the output's at anything; it ends with the inputs'
    as they were and the output's at `out` of the inputs'. -/
theorem sound_kernel (c : Dev nD) (E : Set ℕ) (i : grid0.Coords)
    (a1 : Memref sig .tc .vmem S512x16 .f32) (h1 : a1.IsWhole) (a2 : Memref sig .tc .vmem S512x16 .f32) (h2 : a2.IsWhole)
    (a3 : Memref sig .tc .vmem S1x16 .f32) (h3 : a3.IsWhole) (a4 : Memref sig .tc .vmem S1x1 .f32) (h4 : a4.IsWhole)
    (a5 : Memref sig .tc .vmem S512x512 .f32) (h5 : a5.IsWhole)
    (x0 : Vec F S512x16 .f32) (x1 : Vec F S512x16 .f32) (x2 : Vec F S1x16 .f32) (x3 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out x0 x1 x2 x3)) -∗ K ⟨⟩))
      ⊢ wp frame (wpE (defs₀ (F := F)) Variants.none c none) E (cc0__pairwise_kernel i a1 h1 a2 h2 a3 h3 a4 h4 a5 h5) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the region's pipeline on core `c`: the arrays as the region finds them; after the body at point
    `t` each input's buffer at its block and the output's at `out` of the input blocks; the invariant is the scoped rest
    and the generator register, untouched; nothing owed; the share each input array is held at is the parameter `q`. -/
def dat (q : Fin cfg0.W → PosShare TreeShare) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec0 c
  q := q
  owed _ := 0

variable (q : Fin cfg0.W → PosShare TreeShare)

theorem A_eq (c : Dev nD) (w : Fin cfg0.W) : (dat V q c).A w = V c (Pipeline.arrRef spec0 w) := by
  dsimp only [dat]

theorem after_0 (c : Dev nD) (t : Fin cfg0.N) : (dat V q c).after 0 t = iblk V c 0 t := by dsimp only [dat]
theorem after_1 (c : Dev nD) (t : Fin cfg0.N) : (dat V q c).after 1 t = iblk V c 1 t := by dsimp only [dat]
theorem after_2 (c : Dev nD) (t : Fin cfg0.N) : (dat V q c).after 2 t = iblk V c 2 t := by dsimp only [dat]
theorem after_3 (c : Dev nD) (t : Fin cfg0.N) : (dat V q c).after 3 t = iblk V c 3 t := by dsimp only [dat]
theorem after_4 (c : Dev nD) (t : Fin cfg0.N) : (dat V q c).after 4 t = out (iblk V c 0 t) (iblk V c 1 t) (iblk V c 2 t) (iblk V c 3 t) := by dsimp only [dat]

theorem before_0 (c : Dev nD) (t : Fin cfg0.N) (d) : (dat V q c).before 0 t d = iblk V c 0 t :=
  before_in0 V (dat V q c) (A_eq V q c 0) (after_0 V q c) t d
theorem before_1 (c : Dev nD) (t : Fin cfg0.N) (d) : (dat V q c).before 1 t d = iblk V c 1 t :=
  before_in1 V (dat V q c) (A_eq V q c 1) (after_1 V q c) t d
theorem before_2 (c : Dev nD) (t : Fin cfg0.N) (d) : (dat V q c).before 2 t d = iblk V c 2 t :=
  before_in2 V (dat V q c) (A_eq V q c 2) (after_2 V q c) t d
theorem before_3 (c : Dev nD) (t : Fin cfg0.N) (d) : (dat V q c).before 3 t d = iblk V c 3 t :=
  before_in3 V (dat V q c) (A_eq V q c 3) (after_3 V q c) t d

/-! ## The body obligation, at a generic point -/

/-- What the body is called with at point `t`, the windows one by one, -/
def bodyPre (c : Dev nD) (t : Fin cfg0.N) : sProp 𝕄 :=
  iprop((dat V q c).Φ t.castSucc ∗ (dat V q c).owesAt () t.castSucc
    ∗ (∃ d, owns (c : Thread nD τ) (st0_0 t) fullShare ((dat V q c).before 0 t d))
    ∗ (∃ d, owns (c : Thread nD τ) (st0_1 t) fullShare ((dat V q c).before 1 t d))
    ∗ (∃ d, owns (c : Thread nD τ) (st0_2 t) fullShare ((dat V q c).before 2 t d))
    ∗ (∃ d, owns (c : Thread nD τ) (st0_3 t) fullShare ((dat V q c).before 3 t d))
    ∗ (∃ d, owns (c : Thread nD τ) (st0_4 t) fullShare ((dat V q c).before 4 t d)))

/-- and what it returns. -/
def bodyPost (c : Dev nD) (t : Fin cfg0.N) : sProp 𝕄 :=
  iprop((dat V q c).Φ t.succ ∗ (dat V q c).owesAt () t.succ
    ∗ owns (c : Thread nD τ) (st0_0 t) fullShare ((dat V q c).after 0 t)
    ∗ owns (c : Thread nD τ) (st0_1 t) fullShare ((dat V q c).after 1 t)
    ∗ owns (c : Thread nD τ) (st0_2 t) fullShare ((dat V q c).after 2 t)
    ∗ owns (c : Thread nD τ) (st0_3 t) fullShare ((dat V q c).after 3 t)
    ∗ owns (c : Thread nD τ) (st0_4 t) fullShare ((dat V q c).after 4 t))

/-- The body at any point: the inputs' buffers hold their blocks, so the body's triple applies; the invariant and the
    core's dues pass through unread. -/
theorem sound_body (c : Dev nD) (t : Fin cfg0.N) :
    bodyPre V q c t ⊢ wp frame (wpE (defs₀ (F := F)) Variants.none c none) Set.univ (bodyAt0 t) (fun _ => bodyPost V q c t) := by
  unfold bodyPre bodyPost bodyAt0
  simp only [before_0, before_1, before_2, before_3]
  rw [show (dat V q c).Φ t.succ = (dat V q c).Φ t.castSucc from rfl,
    show (dat V q c).owesAt () t.succ = (dat V q c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat (F := F) V q c) (defs₀ (F := F)) Variants.none () Set.univ := fun t => by
  rw [bigSep_W0, bigSep_W0]
  exact sound_body V q c t

end Cert.Kernel.Region0

end
-- ==== Proof.KernelRegion1.lean ====
/-
  The pairwise kernel of region 1 (the first point set against itself), at one grid point: from the blocks of its four input windows — twice the same 512×16 point set, the row of length scales and the 1×1 variance — the body stores into its output window's buffer one whole 512×512 block.
  Stated for every float instance: what each window's buffer holds before and after the body at a point, the body's
  triple on whole buffers, the proof data of the region's pipeline and the per-point obligation the pipeline asks for.
-/
import proofs.«151589_j19816979103948_1_alg».proof.Proof.Gen.Kernel.Launch
import proofs.«151589_j19816979103948_1_alg».proof.Proof.Gen.Kernel.Skeleton
import proofs.«151589_j19816979103948_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's current buffer holds its block at every point, whether the pipeline fetched it there or not -/

theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev r0 : Rect S512x16 := Rect.unit (s := S512x16) ![0, 0] S512x16.size inb_S512x16_S512x16_0_0
abbrev r1 : Rect S512x16 := Rect.unit (s := S512x16) ![0, 0] S512x16.size inb_S512x16_S512x16_0_0
abbrev r2 : Rect S1x16 := Rect.unit (s := S1x16) ![0, 0] S1x16.size inb_S1x16_S1x16_0_0
abbrev r3 : Rect S1x1 := Rect.unit (s := S1x1) ![0, 0] S1x1.size inb_S1x1_S1x1_0_0
abbrev rOut : Rect S512x512 := Rect.unit (s := S512x512) ![0, 0] S512x512.size inb_S512x512_S512x512_0_0

/-- The output window's buffer after the body: its one store, of the body's arithmetic at the four blocks. -/
def out (x0 : Vec F S512x16 .f32) (x1 : Vec F S512x16 .f32) (x2 : Vec F S1x16 .f32) (x3 : Vec F S1x1 .f32) : Vec F S512x512 .f32 :=
  View.canon [⟨rOut, k1_pay1 (View.ld x2 r2) (View.ld x3 r3) (View.ld x0 r0) (View.ld x1 r1)⟩]

/-- The one store covers the buffer. -/
theorem cover_out (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

set_option maxHeartbeats 1000000 in
/-- The body on whole buffers: the inputs' at known contents and the output's at anything; it ends with the inputs'
    as they were and the output's at `out` of the inputs'. -/
theorem sound_kernel (c : Dev nD) (E : Set ℕ) (i : grid1.Coords)
    (a1 : Memref sig .tc .vmem S512x16 .f32) (h1 : a1.IsWhole) (a2 : Memref sig .tc .vmem S512x16 .f32) (h2 : a2.IsWhole)
    (a3 : Memref sig .tc .vmem S1x16 .f32) (h3 : a3.IsWhole) (a4 : Memref sig .tc .vmem S1x1 .f32) (h4 : a4.IsWhole)
    (a5 : Memref sig .tc .vmem S512x512 .f32) (h5 : a5.IsWhole)
    (x0 : Vec F S512x16 .f32) (x1 : Vec F S512x16 .f32) (x2 : Vec F S1x16 .f32) (x3 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out x0 x1 x2 x3)) -∗ K ⟨⟩))
      ⊢ wp frame (wpE (defs₀ (F := F)) Variants.none c none) E (cc1__pairwise_kernel i a1 h1 a2 h2 a3 h3 a4 h4 a5 h5) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the region's pipeline on core `c`: the arrays as the region finds them; after the body at point
    `t` each input's buffer at its block and the output's at `out` of the input blocks; the invariant is the scoped rest
    and the generator register, untouched; nothing owed; the share each input array is held at is the parameter `q`. -/
def dat (q : Fin cfg1.W → PosShare TreeShare) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec1 c
  q := q
  owed _ := 0

variable (q : Fin cfg1.W → PosShare TreeShare)

theorem A_eq (c : Dev nD) (w : Fin cfg1.W) : (dat V q c).A w = V c (Pipeline.arrRef spec1 w) := by
  dsimp only [dat]

theorem after_0 (c : Dev nD) (t : Fin cfg1.N) : (dat V q c).after 0 t = iblk V c 0 t := by dsimp only [dat]
theorem after_1 (c : Dev nD) (t : Fin cfg1.N) : (dat V q c).after 1 t = iblk V c 1 t := by dsimp only [dat]
theorem after_2 (c : Dev nD) (t : Fin cfg1.N) : (dat V q c).after 2 t = iblk V c 2 t := by dsimp only [dat]
theorem after_3 (c : Dev nD) (t : Fin cfg1.N) : (dat V q c).after 3 t = iblk V c 3 t := by dsimp only [dat]
theorem after_4 (c : Dev nD) (t : Fin cfg1.N) : (dat V q c).after 4 t = out (iblk V c 0 t) (iblk V c 1 t) (iblk V c 2 t) (iblk V c 3 t) := by dsimp only [dat]

theorem before_0 (c : Dev nD) (t : Fin cfg1.N) (d) : (dat V q c).before 0 t d = iblk V c 0 t :=
  before_in0 V (dat V q c) (A_eq V q c 0) (after_0 V q c) t d
theorem before_1 (c : Dev nD) (t : Fin cfg1.N) (d) : (dat V q c).before 1 t d = iblk V c 1 t :=
  before_in1 V (dat V q c) (A_eq V q c 1) (after_1 V q c) t d
theorem before_2 (c : Dev nD) (t : Fin cfg1.N) (d) : (dat V q c).before 2 t d = iblk V c 2 t :=
  before_in2 V (dat V q c) (A_eq V q c 2) (after_2 V q c) t d
theorem before_3 (c : Dev nD) (t : Fin cfg1.N) (d) : (dat V q c).before 3 t d = iblk V c 3 t :=
  before_in3 V (dat V q c) (A_eq V q c 3) (after_3 V q c) t d

/-! ## The body obligation, at a generic point -/

/-- What the body is called with at point `t`, the windows one by one, -/
def bodyPre (c : Dev nD) (t : Fin cfg1.N) : sProp 𝕄 :=
  iprop((dat V q c).Φ t.castSucc ∗ (dat V q c).owesAt () t.castSucc
    ∗ (∃ d, owns (c : Thread nD τ) (st1_0 t) fullShare ((dat V q c).before 0 t d))
    ∗ (∃ d, owns (c : Thread nD τ) (st1_1 t) fullShare ((dat V q c).before 1 t d))
    ∗ (∃ d, owns (c : Thread nD τ) (st1_2 t) fullShare ((dat V q c).before 2 t d))
    ∗ (∃ d, owns (c : Thread nD τ) (st1_3 t) fullShare ((dat V q c).before 3 t d))
    ∗ (∃ d, owns (c : Thread nD τ) (st1_4 t) fullShare ((dat V q c).before 4 t d)))

/-- and what it returns. -/
def bodyPost (c : Dev nD) (t : Fin cfg1.N) : sProp 𝕄 :=
  iprop((dat V q c).Φ t.succ ∗ (dat V q c).owesAt () t.succ
    ∗ owns (c : Thread nD τ) (st1_0 t) fullShare ((dat V q c).after 0 t)
    ∗ owns (c : Thread nD τ) (st1_1 t) fullShare ((dat V q c).after 1 t)
    ∗ owns (c : Thread nD τ) (st1_2 t) fullShare ((dat V q c).after 2 t)
    ∗ owns (c : Thread nD τ) (st1_3 t) fullShare ((dat V q c).after 3 t)
    ∗ owns (c : Thread nD τ) (st1_4 t) fullShare ((dat V q c).after 4 t))

/-- The body at any point: the inputs' buffers hold their blocks, so the body's triple applies; the invariant and the
    core's dues pass through unread. -/
theorem sound_body (c : Dev nD) (t : Fin cfg1.N) :
    bodyPre V q c t ⊢ wp frame (wpE (defs₀ (F := F)) Variants.none c none) Set.univ (bodyAt1 t) (fun _ => bodyPost V q c t) := by
  unfold bodyPre bodyPost bodyAt1
  simp only [before_0, before_1, before_2, before_3]
  rw [show (dat V q c).Φ t.succ = (dat V q c).Φ t.castSucc from rfl,
    show (dat V q c).owesAt () t.succ = (dat V q c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat (F := F) V q c) (defs₀ (F := F)) Variants.none () Set.univ := fun t => by
  rw [bigSep_W1, bigSep_W1]
  exact sound_body V q c t

end Cert.Kernel.Region1

end
-- ==== Proof.KernelRegion2.lean ====
/-
  The gradient kernel of region 2, at grid point d: from the first point set, the transposed second one, the row of length scales and the 512×512 kernel matrix, the body stores the 512×512 block of row-block d of the gradient.
  Stated for every float instance: what each window's buffer holds before and after the body at a point, the body's
  triple on whole buffers, the proof data of the region's pipeline and the per-point obligation the pipeline asks for.
-/
import proofs.«151589_j19816979103948_1_alg».proof.Proof.Gen.Kernel.Launch
import proofs.«151589_j19816979103948_1_alg».proof.Proof.Gen.Kernel.Skeleton
import proofs.«151589_j19816979103948_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input window's current buffer holds its block at every point, whether the pipeline fetched it there or not -/

theorem before_in0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev r0 : Rect S512x16 := Rect.unit (s := S512x16) ![0, 0] S512x16.size inb_S512x16_S512x16_0_0
abbrev r1 : Rect S16x512 := Rect.unit (s := S16x512) ![0, 0] S16x512.size inb_S16x512_S16x512_0_0
abbrev r2 : Rect S1x16 := Rect.unit (s := S1x16) ![0, 0] S1x16.size inb_S1x16_S1x16_0_0
abbrev r3 : Rect S512x512 := Rect.unit (s := S512x512) ![0, 0] S512x512.size inb_S512x512_S512x512_0_0
abbrev rOut : Rect S512x512 := Rect.unit (s := S512x512) ![0, 0] S512x512.size inb_S512x512_S512x512_0_0

/-- The output window's buffer after the body: its one store, of the body's arithmetic at the four blocks. -/
def out (i : grid2.Coords) (x0 : Vec F S512x16 .f32) (x1 : Vec F S16x512 .f32) (x2 : Vec F S1x16 .f32) (x3 : Vec F S512x512 .f32) : Vec F S512x512 .f32 :=
  View.canon [⟨rOut, k2_pay1 i (View.ld x0 r0) (View.ld x1 r1) (View.ld x2 r2) (View.ld x3 r3)⟩]

/-- The one store covers the buffer. -/
theorem cover_out (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

set_option maxHeartbeats 1000000 in
/-- The body on whole buffers: the inputs' at known contents and the output's at anything; it ends with the inputs'
    as they were and the output's at `out` of the inputs'. -/
theorem sound_kernel (c : Dev nD) (E : Set ℕ) (i : grid2.Coords)
    (a1 : Memref sig .tc .vmem S512x16 .f32) (h1 : a1.IsWhole) (a2 : Memref sig .tc .vmem S16x512 .f32) (h2 : a2.IsWhole)
    (a3 : Memref sig .tc .vmem S1x16 .f32) (h3 : a3.IsWhole) (a4 : Memref sig .tc .vmem S512x512 .f32) (h4 : a4.IsWhole)
    (a5 : Memref sig .tc .vmem S512x512 .f32) (h5 : a5.IsWhole)
    (x0 : Vec F S512x16 .f32) (x1 : Vec F S16x512 .f32) (x2 : Vec F S1x16 .f32) (x3 : Vec F S512x512 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out i x0 x1 x2 x3)) -∗ K ⟨⟩))
      ⊢ wp frame (wpE (defs₀ (F := F)) Variants.none c none) E (cc2__grad_kernel i a1 h1 a2 h2 a3 h3 a4 h4 a5 h5) K := by
  simp only [cc2__grad_kernel_eq_skeleton]; unfold cc2__grad_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the region's pipeline on core `c`: the arrays as the region finds them; after the body at point
    `t` each input's buffer at its block and the output's at `out` of the input blocks; the invariant is the scoped rest
    and the generator register, untouched; nothing owed; the share each input array is held at is the parameter `q`. -/
def dat (q : Fin cfg2.W → PosShare TreeShare) (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (grid2.coords t) (iblk V c 0 t) (iblk V c 1 t) (iblk V c 2 t) (iblk V c 3 t)
  Φ _ := Pipeline.ΦA spec2 c
  q := q
  owed _ := 0

variable (q : Fin cfg2.W → PosShare TreeShare)

theorem A_eq (c : Dev nD) (w : Fin cfg2.W) : (dat V q c).A w = V c (Pipeline.arrRef spec2 w) := by
  dsimp only [dat]

theorem after_0 (c : Dev nD) (t : Fin cfg2.N) : (dat V q c).after 0 t = iblk V c 0 t := by dsimp only [dat]
theorem after_1 (c : Dev nD) (t : Fin cfg2.N) : (dat V q c).after 1 t = iblk V c 1 t := by dsimp only [dat]
theorem after_2 (c : Dev nD) (t : Fin cfg2.N) : (dat V q c).after 2 t = iblk V c 2 t := by dsimp only [dat]
theorem after_3 (c : Dev nD) (t : Fin cfg2.N) : (dat V q c).after 3 t = iblk V c 3 t := by dsimp only [dat]
theorem after_4 (c : Dev nD) (t : Fin cfg2.N) : (dat V q c).after 4 t = out (grid2.coords t) (iblk V c 0 t) (iblk V c 1 t) (iblk V c 2 t) (iblk V c 3 t) := by dsimp only [dat]

theorem before_0 (c : Dev nD) (t : Fin cfg2.N) (d) : (dat V q c).before 0 t d = iblk V c 0 t :=
  before_in0 V (dat V q c) (A_eq V q c 0) (after_0 V q c) t d
theorem before_1 (c : Dev nD) (t : Fin cfg2.N) (d) : (dat V q c).before 1 t d = iblk V c 1 t :=
  before_in1 V (dat V q c) (A_eq V q c 1) (after_1 V q c) t d
theorem before_2 (c : Dev nD) (t : Fin cfg2.N) (d) : (dat V q c).before 2 t d = iblk V c 2 t :=
  before_in2 V (dat V q c) (A_eq V q c 2) (after_2 V q c) t d
theorem before_3 (c : Dev nD) (t : Fin cfg2.N) (d) : (dat V q c).before 3 t d = iblk V c 3 t :=
  before_in3 V (dat V q c) (A_eq V q c 3) (after_3 V q c) t d

/-! ## The body obligation, at a generic point -/

/-- What the body is called with at point `t`, the windows one by one, -/
def bodyPre (c : Dev nD) (t : Fin cfg2.N) : sProp 𝕄 :=
  iprop((dat V q c).Φ t.castSucc ∗ (dat V q c).owesAt () t.castSucc
    ∗ (∃ d, owns (c : Thread nD τ) (st2_0 t) fullShare ((dat V q c).before 0 t d))
    ∗ (∃ d, owns (c : Thread nD τ) (st2_1 t) fullShare ((dat V q c).before 1 t d))
    ∗ (∃ d, owns (c : Thread nD τ) (st2_2 t) fullShare ((dat V q c).before 2 t d))
    ∗ (∃ d, owns (c : Thread nD τ) (st2_3 t) fullShare ((dat V q c).before 3 t d))
    ∗ (∃ d, owns (c : Thread nD τ) (st2_4 t) fullShare ((dat V q c).before 4 t d)))

/-- and what it returns. -/
def bodyPost (c : Dev nD) (t : Fin cfg2.N) : sProp 𝕄 :=
  iprop((dat V q c).Φ t.succ ∗ (dat V q c).owesAt () t.succ
    ∗ owns (c : Thread nD τ) (st2_0 t) fullShare ((dat V q c).after 0 t)
    ∗ owns (c : Thread nD τ) (st2_1 t) fullShare ((dat V q c).after 1 t)
    ∗ owns (c : Thread nD τ) (st2_2 t) fullShare ((dat V q c).after 2 t)
    ∗ owns (c : Thread nD τ) (st2_3 t) fullShare ((dat V q c).after 3 t)
    ∗ owns (c : Thread nD τ) (st2_4 t) fullShare ((dat V q c).after 4 t))

/-- The body at any point: the inputs' buffers hold their blocks, so the body's triple applies; the invariant and the
    core's dues pass through unread. -/
theorem sound_body (c : Dev nD) (t : Fin cfg2.N) :
    bodyPre V q c t ⊢ wp frame (wpE (defs₀ (F := F)) Variants.none c none) Set.univ (bodyAt2 t) (fun _ => bodyPost V q c t) := by
  unfold bodyPre bodyPost bodyAt2
  simp only [before_0, before_1, before_2, before_3]
  rw [show (dat V q c).Φ t.succ = (dat V q c).Φ t.castSucc from rfl,
    show (dat V q c).owesAt () t.succ = (dat V q c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat (F := F) V q c) (defs₀ (F := F)) Variants.none () Set.univ := fun t => by
  rw [bigSep_W2, bigSep_W2]
  exact sound_body V q c t

end Cert.Kernel.Region2

end
-- ==== Proof.KernelRegion3.lean ====
/-
  The Hessian kernel of region 3, at grid point (a, b): from the point set, its transpose, the row of length scales and the 512×512 kernel matrix of the point set against itself, the body stores the 512×512 block (a, b) of the Hessian.
  Stated for every float instance: what each window's buffer holds before and after the body at a point, the body's
  triple on whole buffers, the proof data of the region's pipeline and the per-point obligation the pipeline asks for.
-/
import proofs.«151589_j19816979103948_1_alg».proof.Proof.Gen.Kernel.Launch
import proofs.«151589_j19816979103948_1_alg».proof.Proof.Gen.Kernel.Skeleton
import proofs.«151589_j19816979103948_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## An input window's current buffer holds its block at every point, whether the pipeline fetched it there or not -/

theorem before_in0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev r0 : Rect S512x16 := Rect.unit (s := S512x16) ![0, 0] S512x16.size inb_S512x16_S512x16_0_0
abbrev r1 : Rect S16x512 := Rect.unit (s := S16x512) ![0, 0] S16x512.size inb_S16x512_S16x512_0_0
abbrev r2 : Rect S1x16 := Rect.unit (s := S1x16) ![0, 0] S1x16.size inb_S1x16_S1x16_0_0
abbrev r3 : Rect S512x512 := Rect.unit (s := S512x512) ![0, 0] S512x512.size inb_S512x512_S512x512_0_0
abbrev rOut : Rect S512x512 := Rect.unit (s := S512x512) ![0, 0] S512x512.size inb_S512x512_S512x512_0_0

/-- The output window's buffer after the body: its one store, of the body's arithmetic at the four blocks. -/
def out (i : grid3.Coords) (x0 : Vec F S512x16 .f32) (x1 : Vec F S16x512 .f32) (x2 : Vec F S1x16 .f32) (x3 : Vec F S512x512 .f32) : Vec F S512x512 .f32 :=
  View.canon [⟨rOut, k3_pay1 (BitVec.ofNat 32 (i 0).val) (BitVec.ofNat 32 (i 1).val) (k3_pay4 i (View.ld x0 r0)) (k3_pay5 i (View.ld x1 r1)) (k3_pay6 i (View.ld x0 r0)) (k3_pay7 i (View.ld x1 r1)) (k3_pay8 i (View.ld x2 r2)) (k3_pay9 i (View.ld x2 r2)) (View.ld x3 r3)⟩]

/-- The one store covers the buffer. -/
theorem cover_out (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

set_option maxHeartbeats 1000000 in
/-- The body on whole buffers: the inputs' at known contents and the output's at anything; it ends with the inputs'
    as they were and the output's at `out` of the inputs'. -/
theorem sound_kernel (c : Dev nD) (E : Set ℕ) (i : grid3.Coords)
    (a1 : Memref sig .tc .vmem S512x16 .f32) (h1 : a1.IsWhole) (a2 : Memref sig .tc .vmem S16x512 .f32) (h2 : a2.IsWhole)
    (a3 : Memref sig .tc .vmem S1x16 .f32) (h3 : a3.IsWhole) (a4 : Memref sig .tc .vmem S512x512 .f32) (h4 : a4.IsWhole)
    (a5 : Memref sig .tc .vmem S512x512 .f32) (h5 : a5.IsWhole)
    (x0 : Vec F S512x16 .f32) (x1 : Vec F S16x512 .f32) (x2 : Vec F S1x16 .f32) (x3 : Vec F S512x512 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out i x0 x1 x2 x3)) -∗ K ⟨⟩))
      ⊢ wp frame (wpE (defs₀ (F := F)) Variants.none c none) E (cc3__hess_kernel i a1 h1 a2 h2 a3 h3 a4 h4 a5 h5) K := by
  simp only [cc3__hess_kernel_eq_skeleton]; unfold cc3__hess_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the region's pipeline on core `c`: the arrays as the region finds them; after the body at point
    `t` each input's buffer at its block and the output's at `out` of the input blocks; the invariant is the scoped rest
    and the generator register, untouched; nothing owed; the share each input array is held at is the parameter `q`. -/
def dat (q : Fin cfg3.W → PosShare TreeShare) (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (grid3.coords t) (iblk V c 0 t) (iblk V c 1 t) (iblk V c 2 t) (iblk V c 3 t)
  Φ _ := Pipeline.ΦA spec3 c
  q := q
  owed _ := 0

variable (q : Fin cfg3.W → PosShare TreeShare)

theorem A_eq (c : Dev nD) (w : Fin cfg3.W) : (dat V q c).A w = V c (Pipeline.arrRef spec3 w) := by
  dsimp only [dat]

theorem after_0 (c : Dev nD) (t : Fin cfg3.N) : (dat V q c).after 0 t = iblk V c 0 t := by dsimp only [dat]
theorem after_1 (c : Dev nD) (t : Fin cfg3.N) : (dat V q c).after 1 t = iblk V c 1 t := by dsimp only [dat]
theorem after_2 (c : Dev nD) (t : Fin cfg3.N) : (dat V q c).after 2 t = iblk V c 2 t := by dsimp only [dat]
theorem after_3 (c : Dev nD) (t : Fin cfg3.N) : (dat V q c).after 3 t = iblk V c 3 t := by dsimp only [dat]
theorem after_4 (c : Dev nD) (t : Fin cfg3.N) : (dat V q c).after 4 t = out (grid3.coords t) (iblk V c 0 t) (iblk V c 1 t) (iblk V c 2 t) (iblk V c 3 t) := by dsimp only [dat]

theorem before_0 (c : Dev nD) (t : Fin cfg3.N) (d) : (dat V q c).before 0 t d = iblk V c 0 t :=
  before_in0 V (dat V q c) (A_eq V q c 0) (after_0 V q c) t d
theorem before_1 (c : Dev nD) (t : Fin cfg3.N) (d) : (dat V q c).before 1 t d = iblk V c 1 t :=
  before_in1 V (dat V q c) (A_eq V q c 1) (after_1 V q c) t d
theorem before_2 (c : Dev nD) (t : Fin cfg3.N) (d) : (dat V q c).before 2 t d = iblk V c 2 t :=
  before_in2 V (dat V q c) (A_eq V q c 2) (after_2 V q c) t d
theorem before_3 (c : Dev nD) (t : Fin cfg3.N) (d) : (dat V q c).before 3 t d = iblk V c 3 t :=
  before_in3 V (dat V q c) (A_eq V q c 3) (after_3 V q c) t d

/-! ## The body obligation, at a generic point -/

/-- What the body is called with at point `t`, the windows one by one, -/
def bodyPre (c : Dev nD) (t : Fin cfg3.N) : sProp 𝕄 :=
  iprop((dat V q c).Φ t.castSucc ∗ (dat V q c).owesAt () t.castSucc
    ∗ (∃ d, owns (c : Thread nD τ) (st3_0 t) fullShare ((dat V q c).before 0 t d))
    ∗ (∃ d, owns (c : Thread nD τ) (st3_1 t) fullShare ((dat V q c).before 1 t d))
    ∗ (∃ d, owns (c : Thread nD τ) (st3_2 t) fullShare ((dat V q c).before 2 t d))
    ∗ (∃ d, owns (c : Thread nD τ) (st3_3 t) fullShare ((dat V q c).before 3 t d))
    ∗ (∃ d, owns (c : Thread nD τ) (st3_4 t) fullShare ((dat V q c).before 4 t d)))

/-- and what it returns. -/
def bodyPost (c : Dev nD) (t : Fin cfg3.N) : sProp 𝕄 :=
  iprop((dat V q c).Φ t.succ ∗ (dat V q c).owesAt () t.succ
    ∗ owns (c : Thread nD τ) (st3_0 t) fullShare ((dat V q c).after 0 t)
    ∗ owns (c : Thread nD τ) (st3_1 t) fullShare ((dat V q c).after 1 t)
    ∗ owns (c : Thread nD τ) (st3_2 t) fullShare ((dat V q c).after 2 t)
    ∗ owns (c : Thread nD τ) (st3_3 t) fullShare ((dat V q c).after 3 t)
    ∗ owns (c : Thread nD τ) (st3_4 t) fullShare ((dat V q c).after 4 t))

/-- The body at any point: the inputs' buffers hold their blocks, so the body's triple applies; the invariant and the
    core's dues pass through unread. -/
theorem sound_body (c : Dev nD) (t : Fin cfg3.N) :
    bodyPre V q c t ⊢ wp frame (wpE (defs₀ (F := F)) Variants.none c none) Set.univ (bodyAt3 t) (fun _ => bodyPost V q c t) := by
  unfold bodyPre bodyPost bodyAt3
  simp only [before_0, before_1, before_2, before_3]
  rw [show (dat V q c).Φ t.succ = (dat V q c).Φ t.castSucc from rfl,
    show (dat V q c).owesAt () t.succ = (dat V q c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat (F := F) V q c) (defs₀ (F := F)) Variants.none () Set.univ := fun t => by
  rw [bigSep_W3, bigSep_W3]
  exact sound_body V q c t

end Cert.Kernel.Region3

end
-- ==== Proof.KernelRunData.lean ====
/-
  The contents of a core's unscoped buffers at each boundary of @main's seven items — after the three stretches of host
  operations, then after each of the four kernel regions, a region changing only its one result array, which ends at what
  the pipeline's write-backs leave in it — and each pipeline's proof data at its region's entry contents. Region 1 is
  handed the first point set through two windows: its proof data hold that array in two halves.
-/
import proofs.«151589_j19816979103948_1_alg».proof.Proof.Gen.Kernel.Regions
import proofs.«151589_j19816979103948_1_alg».proof.Proof.KernelRegion0
import proofs.«151589_j19816979103948_1_alg».proof.Proof.KernelRegion1
import proofs.«151589_j19816979103948_1_alg».proof.Proof.KernelRegion2
import proofs.«151589_j19816979103948_1_alg».proof.Proof.KernelRegion3
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares the input arrays are held at -/

/-- Every array whole. -/
abbrev qFull : Fin 5 → PosShare TreeShare := fun _ => fullShare
/-- Region 1: the point set is read through windows 0 and 1, half each. -/
abbrev qHalves : Fin 5 → PosShare TreeShare := fun w => match w with
  | ⟨0, _⟩ => fullShare.left
  | ⟨1, _⟩ => fullShare.right
  | _ => fullShare

/-! ## The buffers' contents at each boundary -/

/-- Region 0 is entered after the three host stretches. -/
abbrev B3 (c : Dev nD) : Valuation τ sig (Elt F) := V3 m c
abbrev E0 : (c : Dev nD) → (b : Ref sig .tc) → Buf (Elt F) ((c : Thread nD τ).loc b) := fun c b => B3 m c b
/-- What region 0 leaves in its result array, -/
def o0 (c : Dev nD) : Buf (Elt F) ((c : Thread nD τ).loc main_v6) := (Region0.dat (E0 m) qFull c).arrAt 4 cfg0.N
def B4 (c : Dev nD) : Valuation τ sig (Elt F) := Function.update (B3 m c) main_v6 (o0 m c)
abbrev E1 : (c : Dev nD) → (b : Ref sig .tc) → Buf (Elt F) ((c : Thread nD τ).loc b) := fun c b => B4 m c b
/-- region 1, -/
def o1 (c : Dev nD) : Buf (Elt F) ((c : Thread nD τ).loc main_v7) := (Region1.dat (E1 m) qHalves c).arrAt 4 cfg1.N
def B5 (c : Dev nD) : Valuation τ sig (Elt F) := Function.update (B4 m c) main_v7 (o1 m c)
abbrev E2 : (c : Dev nD) → (b : Ref sig .tc) → Buf (Elt F) ((c : Thread nD τ).loc b) := fun c b => B5 m c b
/-- region 2, -/
def o2 (c : Dev nD) : Buf (Elt F) ((c : Thread nD τ).loc main_v8) := (Region2.dat (E2 m) qFull c).arrAt 4 cfg2.N
def B6 (c : Dev nD) : Valuation τ sig (Elt F) := Function.update (B5 m c) main_v8 (o2 m c)
abbrev E3 : (c : Dev nD) → (b : Ref sig .tc) → Buf (Elt F) ((c : Thread nD τ).loc b) := fun c b => B6 m c b
/-- and region 3. -/
def o3 (c : Dev nD) : Buf (Elt F) ((c : Thread nD τ).loc main_v9) := (Region3.dat (E3 m) qFull c).arrAt 4 cfg3.N
def B7 (c : Dev nD) : Valuation τ sig (Elt F) := Function.update (B6 m c) main_v9 (o3 m c)
abbrev E4 : (c : Dev nD) → (b : Ref sig .tc) → Buf (Elt F) ((c : Thread nD τ).loc b) := fun c b => B7 m c b

theorem B4_out (c : Dev nD) : B4 m c main_v6 = o0 m c := by unfold B4; exact Function.update_self _ _ _
theorem B4_of_ne (c : Dev nD) (b : Ref sig .tc) (h : b ≠ main_v6) : B4 m c b = B3 m c b := by
  unfold B4; exact Function.update_of_ne (StableHlo.devRef_ne_of_ne h) _ _
theorem B5_out (c : Dev nD) : B5 m c main_v7 = o1 m c := by unfold B5; exact Function.update_self _ _ _
theorem B5_of_ne (c : Dev nD) (b : Ref sig .tc) (h : b ≠ main_v7) : B5 m c b = B4 m c b := by
  unfold B5; exact Function.update_of_ne (StableHlo.devRef_ne_of_ne h) _ _
theorem B6_out (c : Dev nD) : B6 m c main_v8 = o2 m c := by unfold B6; exact Function.update_self _ _ _
theorem B6_of_ne (c : Dev nD) (b : Ref sig .tc) (h : b ≠ main_v8) : B6 m c b = B5 m c b := by
  unfold B6; exact Function.update_of_ne (StableHlo.devRef_ne_of_ne h) _ _
theorem B7_out (c : Dev nD) : B7 m c main_v9 = o3 m c := by unfold B7; exact Function.update_self _ _ _
theorem B7_of_ne (c : Dev nD) (b : Ref sig .tc) (h : b ≠ main_v9) : B7 m c b = B6 m c b := by
  unfold B7; exact Function.update_of_ne (StableHlo.devRef_ne_of_ne h) _ _

/-! ## The proof data family and what rides along -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Region0.dat (E0 m) qFull c
  | ⟨1, _⟩ => fun c => Region1.dat (E1 m) qHalves c
  | ⟨2, _⟩ => fun c => Region2.dat (E2 m) qFull c
  | ⟨3, _⟩ => fun c => Region3.dat (E3 m) qFull c
abbrev 𝒱₀ : Variants := Variants.none
abbrev L : GSem nD τ sig → Finset Unit := fun _ => ∅
abbrev lv : GSem nD τ sig → Unit → ℕ := fun _ _ => 0
/-- Beside the buffers, through every item: the core's generator register at some state and its dues, at nothing. -/
abbrev Rr (c : Dev nD) : sProp 𝕄 := iprop((∃ r, prngReg c r) ∗ ∃ W, owes (c : Thread nD τ) (0 : CellTallies nD τ sig Unit) W)

/-! ## What each region leaves, array by array -/

/-- At region 0's end each of its arrays holds what the pipeline leaves: an input what it held, the result its write-backs. -/
theorem hF0 (c : Dev nD) (w : Fin cfg0.W) : (Region0.dat (E0 m) qFull c).arrAt w cfg0.N = E1 m c (Pipeline.arrRef spec0 w) := by
  match w with
  | ⟨0, _⟩ => exact ((Region0.dat (E0 m) qFull c).arrAt_in 0 rfl _).trans ((Region0.A_eq (E0 m) qFull c 0).trans (B4_of_ne m c _ (by decide)).symm)
  | ⟨1, _⟩ => exact ((Region0.dat (E0 m) qFull c).arrAt_in 1 rfl _).trans ((Region0.A_eq (E0 m) qFull c 1).trans (B4_of_ne m c _ (by decide)).symm)
  | ⟨2, _⟩ => exact ((Region0.dat (E0 m) qFull c).arrAt_in 2 rfl _).trans ((Region0.A_eq (E0 m) qFull c 2).trans (B4_of_ne m c _ (by decide)).symm)
  | ⟨3, _⟩ => exact ((Region0.dat (E0 m) qFull c).arrAt_in 3 rfl _).trans ((Region0.A_eq (E0 m) qFull c 3).trans (B4_of_ne m c _ (by decide)).symm)
  | ⟨4, _⟩ => exact (B4_out m c).symm
/-- Every other buffer is as the region found it. -/
theorem hrest0 (c : Dev nD) : ∀ b, b ∉ Finset.univ.image (Pipeline.arrRef spec0) → E1 m c b = E0 m c b :=
  fun b hb => B4_of_ne m c b fun e => hb (Finset.mem_image.mpr ⟨4, Finset.mem_univ _, e.symm⟩)

/-- At region 1's end each of its arrays holds what the pipeline leaves: an input what it held, the result its write-backs. -/
theorem hF1 (c : Dev nD) (w : Fin cfg1.W) : (Region1.dat (E1 m) qHalves c).arrAt w cfg1.N = E2 m c (Pipeline.arrRef spec1 w) := by
  match w with
  | ⟨0, _⟩ => exact ((Region1.dat (E1 m) qHalves c).arrAt_in 0 rfl _).trans ((Region1.A_eq (E1 m) qHalves c 0).trans (B5_of_ne m c _ (by decide)).symm)
  | ⟨1, _⟩ => exact ((Region1.dat (E1 m) qHalves c).arrAt_in 1 rfl _).trans ((Region1.A_eq (E1 m) qHalves c 1).trans (B5_of_ne m c _ (by decide)).symm)
  | ⟨2, _⟩ => exact ((Region1.dat (E1 m) qHalves c).arrAt_in 2 rfl _).trans ((Region1.A_eq (E1 m) qHalves c 2).trans (B5_of_ne m c _ (by decide)).symm)
  | ⟨3, _⟩ => exact ((Region1.dat (E1 m) qHalves c).arrAt_in 3 rfl _).trans ((Region1.A_eq (E1 m) qHalves c 3).trans (B5_of_ne m c _ (by decide)).symm)
  | ⟨4, _⟩ => exact (B5_out m c).symm
/-- Every other buffer is as the region found it. -/
theorem hrest1 (c : Dev nD) : ∀ b, b ∉ Finset.univ.image (Pipeline.arrRef spec1) → E2 m c b = E1 m c b :=
  fun b hb => B5_of_ne m c b fun e => hb (Finset.mem_image.mpr ⟨4, Finset.mem_univ _, e.symm⟩)

/-- At region 2's end each of its arrays holds what the pipeline leaves: an input what it held, the result its write-backs. -/
theorem hF2 (c : Dev nD) (w : Fin cfg2.W) : (Region2.dat (E2 m) qFull c).arrAt w cfg2.N = E3 m c (Pipeline.arrRef spec2 w) := by
  match w with
  | ⟨0, _⟩ => exact ((Region2.dat (E2 m) qFull c).arrAt_in 0 rfl _).trans ((Region2.A_eq (E2 m) qFull c 0).trans (B6_of_ne m c _ (by decide)).symm)
  | ⟨1, _⟩ => exact ((Region2.dat (E2 m) qFull c).arrAt_in 1 rfl _).trans ((Region2.A_eq (E2 m) qFull c 1).trans (B6_of_ne m c _ (by decide)).symm)
  | ⟨2, _⟩ => exact ((Region2.dat (E2 m) qFull c).arrAt_in 2 rfl _).trans ((Region2.A_eq (E2 m) qFull c 2).trans (B6_of_ne m c _ (by decide)).symm)
  | ⟨3, _⟩ => exact ((Region2.dat (E2 m) qFull c).arrAt_in 3 rfl _).trans ((Region2.A_eq (E2 m) qFull c 3).trans (B6_of_ne m c _ (by decide)).symm)
  | ⟨4, _⟩ => exact (B6_out m c).symm
/-- Every other buffer is as the region found it. -/
theorem hrest2 (c : Dev nD) : ∀ b, b ∉ Finset.univ.image (Pipeline.arrRef spec2) → E3 m c b = E2 m c b :=
  fun b hb => B6_of_ne m c b fun e => hb (Finset.mem_image.mpr ⟨4, Finset.mem_univ _, e.symm⟩)

/-- At region 3's end each of its arrays holds what the pipeline leaves: an input what it held, the result its write-backs. -/
theorem hF3 (c : Dev nD) (w : Fin cfg3.W) : (Region3.dat (E3 m) qFull c).arrAt w cfg3.N = E4 m c (Pipeline.arrRef spec3 w) := by
  match w with
  | ⟨0, _⟩ => exact ((Region3.dat (E3 m) qFull c).arrAt_in 0 rfl _).trans ((Region3.A_eq (E3 m) qFull c 0).trans (B7_of_ne m c _ (by decide)).symm)
  | ⟨1, _⟩ => exact ((Region3.dat (E3 m) qFull c).arrAt_in 1 rfl _).trans ((Region3.A_eq (E3 m) qFull c 1).trans (B7_of_ne m c _ (by decide)).symm)
  | ⟨2, _⟩ => exact ((Region3.dat (E3 m) qFull c).arrAt_in 2 rfl _).trans ((Region3.A_eq (E3 m) qFull c 2).trans (B7_of_ne m c _ (by decide)).symm)
  | ⟨3, _⟩ => exact ((Region3.dat (E3 m) qFull c).arrAt_in 3 rfl _).trans ((Region3.A_eq (E3 m) qFull c 3).trans (B7_of_ne m c _ (by decide)).symm)
  | ⟨4, _⟩ => exact (B7_out m c).symm
/-- Every other buffer is as the region found it. -/
theorem hrest3 (c : Dev nD) : ∀ b, b ∉ Finset.univ.image (Pipeline.arrRef spec3) → E4 m c b = E3 m c b :=
  fun b hb => B7_of_ne m c b fun e => hb (Finset.mem_image.mpr ⟨4, Finset.mem_univ _, e.symm⟩)

end Cert.Kernel.Run

end
-- ==== Proof.KernelSeg0.lean ====
/-
  Region 0 as one item of @main's run: entered holding every unscoped buffer of the core at the contents the items
  before it left, it takes its windows' arrays out of them — distinct whole buffers —, runs its pipeline, and puts them back,
  the result array at what the write-backs left; the generator register goes into the pipeline's invariant and comes out.
-/
import proofs.«151589_j19816979103948_1_alg».proof.Proof.KernelRunData
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (E0 m) qFull c).loose
  hwaits := Pipeline.hwaits_of_owed_zero _ _ _ _ L lv 0 fun _ _ => rfl
  pre c := iprop(StableHlo.held (c : Thread nD τ) (Pipeline.ucRefs τ sig) (B3 m c) ∗ Rr c)
  post c := iprop(StableHlo.held (c : Thread nD τ) (Pipeline.ucRefs τ sig) (B4 m c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KernelSeg1.lean ====
/-
  Region 1 as one item of @main's run. Its first two windows are both the first point set: going in, the buffers behind
  the windows' arrays — four distinct ones — are taken out of the core's unscoped buffers and the point set's is split in
  two halves, one per window; the pipeline only reads it, so at the end both halves hold what they held and rejoin; the
  result array comes back at what the write-backs left.
-/
import proofs.«151589_j19816979103948_1_alg».proof.Proof.KernelRunData
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind region 1's five windows. -/
theorem arrs1 : Finset.univ.image (Pipeline.arrRef spec1) = ({main_arg0, main_v2, main_v3, main_v7} : Finset (Ref sig .tc)) := by decide

/-- A window's array, held at its share at contents `f`, spelt over the buffer's reference. -/
theorem arr1_eq (c : Dev nD) (w : Fin 5) (f : Buf (Elt F) (((Pipeline.pin (pcfgs (F := F)) adm 1).win w).arr.view.loc (c.tc : Thread nD τ))) :
    (View.loc (c.tc : Thread nD τ) ((Pipeline.pin (pcfgs (F := F)) adm 1).win w).arr.view ↦[((Pipeline.pin (pcfgs (F := F)) adm 1).win w).arr.view.set]{(pdats m 1 c).share w} f : sProp 𝕄)
      = ((c.tc : Thread nD τ).loc (Pipeline.arrRef spec1 w) ↦{(pdats m 1 c).share w} f) := by
  have hw : ((Pipeline.pin (pcfgs (F := F)) adm 1).win w).arr.IsWhole := arr_whole1 w
  rw [hw.set_eq_univ]; rfl

set_option backward.isDefEq.respectTransparency.types false in
/-- ENTRY: the core's unscoped buffers at the entry contents are the pipeline's arrays — the point set's buffer in two
    halves — and the unscoped rest. -/
theorem arrays1_entry (c : Dev nD) :
    (unscopedBufs (Ix := Unit) (Name := ℕ) (U := UR sig nD τ) (Lvl := ℕ) c (E1 m c) : sProp 𝕄)
      ⊢ iprop((pdats m 1 c).arrays ((pdats m 1 c).arrAt · 0) ∗ Pipeline.unscopedRest (Ix := Unit) (Name := ℕ) (U := UR sig nD τ) (Lvl := ℕ) spec1 c (E1 m c)) := by
  rw [Pipeline.unscopedBufs_split₀ (Pipeline.pin (pcfgs (F := F)) adm) 1 winFacts₀1.arr_unscoped c (E1 m c)]
  refine sep_mono ?_ .rfl
  unfold Pipeline.arrBufs Pipeline.Dat.arrays
  rw [bigSep_W1, arr1_eq m c 0, arr1_eq m c 1, arr1_eq m c 2, arr1_eq m c 3, arr1_eq m c 4,
    show Finset.univ.image (Pipeline.arrRef (Pipeline.pin (pcfgs (F := F)) adm 1).spec) = ({main_arg0, main_v2, main_v3, main_v7} : Finset (Ref sig .tc)) from arrs1,
    bigSep_insert (by decide), bigSep_insert (by decide), bigSep_insert (by decide), bigSep_singleton]
  show iprop(((c.tc : Thread nD τ).loc main_arg0 ↦{fullShare} E1 m c main_arg0) ∗ ((c.tc : Thread nD τ).loc main_v2 ↦{fullShare} E1 m c main_v2)
      ∗ ((c.tc : Thread nD τ).loc main_v3 ↦{fullShare} E1 m c main_v3) ∗ ((c.tc : Thread nD τ).loc main_v7 ↦{fullShare} E1 m c main_v7)) ⊢ _
  iintro ⟨Hx, H2, H3, H7⟩
  ihave Hx' := (pointsTo_share (PosShare.mem_left_op_right fullShare)).1 $$ Hx
  icases Hx' with ⟨Hl, Hr⟩
  isplitl [Hl]; · iexact Hl
  isplitl [Hr]; · iexact Hr
  isplitl [H2]; · iexact H2
  isplitl [H3]; · iexact H3
  iexact H7

/-- At the region's end the proof data's array contents are the next boundary's. -/
theorem hF1' (c : Dev nD) (w : Fin 5) : (pdats m 1 c).arrAt w cfg1.N = E2 m c (Pipeline.arrRef spec1 w) := hF1 m c w

set_option backward.isDefEq.respectTransparency.types false in
/-- EXIT: the pipeline's arrays at their final contents — the point set's two halves rejoined — and the unscoped rest are
    the core's unscoped buffers at the next boundary's contents. -/
theorem arrays1_exit (c : Dev nD) :
    iprop((pdats m 1 c).arrays ((pdats m 1 c).arrAt · cfg1.N) ∗ Pipeline.unscopedRest (Ix := Unit) (Name := ℕ) (U := UR sig nD τ) (Lvl := ℕ) spec1 c (E1 m c))
      ⊢ (unscopedBufs (Ix := Unit) (Name := ℕ) (U := UR sig nD τ) (Lvl := ℕ) c (E2 m c) : sProp 𝕄) := by
  rw [Pipeline.unscopedBufs_split₀ (Pipeline.pin (pcfgs (F := F)) adm) 1 winFacts₀1.arr_unscoped c (E2 m c)]
  refine sep_mono ?_ (Entails.of_eq ?_)
  · unfold Pipeline.arrBufs Pipeline.Dat.arrays
    rw [bigSep_W1, arr1_eq m c 0, arr1_eq m c 1, arr1_eq m c 2, arr1_eq m c 3, arr1_eq m c 4,
      show Finset.univ.image (Pipeline.arrRef (Pipeline.pin (pcfgs (F := F)) adm 1).spec) = ({main_arg0, main_v2, main_v3, main_v7} : Finset (Ref sig .tc)) from arrs1,
      bigSep_insert (by decide), bigSep_insert (by decide), bigSep_insert (by decide), bigSep_singleton]
    beta_reduce
    rw [hF1' m c 0, hF1' m c 1, hF1' m c 2, hF1' m c 3, hF1' m c 4]
    show iprop(((c.tc : Thread nD τ).loc main_arg0 ↦{fullShare.left} E2 m c main_arg0) ∗ ((c.tc : Thread nD τ).loc main_arg0 ↦{fullShare.right} E2 m c main_arg0)
        ∗ ((c.tc : Thread nD τ).loc main_v2 ↦{fullShare} E2 m c main_v2) ∗ ((c.tc : Thread nD τ).loc main_v3 ↦{fullShare} E2 m c main_v3)
        ∗ ((c.tc : Thread nD τ).loc main_v7 ↦{fullShare} E2 m c main_v7))
      ⊢ iprop(((c.tc : Thread nD τ).loc main_arg0 ↦{fullShare} E2 m c main_arg0) ∗ ((c.tc : Thread nD τ).loc main_v2 ↦{fullShare} E2 m c main_v2)
        ∗ ((c.tc : Thread nD τ).loc main_v3 ↦{fullShare} E2 m c main_v3) ∗ ((c.tc : Thread nD τ).loc main_v7 ↦{fullShare} E2 m c main_v7))
    iintro ⟨Hl, Hr, H2, H3, H7⟩
    isplitl [Hl Hr]
    · iapply (pointsTo_share (PosShare.mem_left_op_right fullShare)).2
      isplitl [Hl] <;> iassumption
    isplitl [H2]; · iexact H2
    isplitl [H3]; · iexact H3
    iexact H7
  · unfold Pipeline.unscopedRest
    exact bigSep_congr fun b hb => by rw [hrest1 m c b (Finset.mem_sdiff.mp hb).2]

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Region1.body_obligation (E1 m) qHalves c).loose
  hwaits := Pipeline.hwaits_of_owed_zero _ _ _ _ L lv 1 fun _ _ => rfl
  pre c := iprop(StableHlo.held (c : Thread nD τ) (Pipeline.ucRefs τ sig) (B4 m c) ∗ Rr c)
  post c := iprop(StableHlo.held (c : Thread nD τ) (Pipeline.ucRefs τ sig) (B5 m c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := arrays1_entry m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_exit m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KernelSeg2.lean ====
/-
  Region 2 as one item of @main's run: entered holding every unscoped buffer of the core at the contents the items
  before it left, it takes its windows' arrays out of them — distinct whole buffers —, runs its pipeline, and puts them back,
  the result array at what the write-backs left; the generator register goes into the pipeline's invariant and comes out.
-/
import proofs.«151589_j19816979103948_1_alg».proof.Proof.KernelRunData
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (E2 m) qFull c).loose
  hwaits := Pipeline.hwaits_of_owed_zero _ _ _ _ L lv 2 fun _ _ => rfl
  pre c := iprop(StableHlo.held (c : Thread nD τ) (Pipeline.ucRefs τ sig) (B5 m c) ∗ Rr c)
  post c := iprop(StableHlo.held (c : Thread nD τ) (Pipeline.ucRefs τ sig) (B6 m c) ∗ Rr c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KernelSeg3.lean ====
/-
  Region 3 as one item of @main's run: entered holding every unscoped buffer of the core at the contents the items
  before it left, it takes its windows' arrays out of them — distinct whole buffers —, runs its pipeline, and puts them back,
  the result array at what the write-backs left; the generator register goes into the pipeline's invariant and comes out.
-/
import proofs.«151589_j19816979103948_1_alg».proof.Proof.KernelRunData
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Region3.body_obligation (E3 m) qFull c).loose
  hwaits := Pipeline.hwaits_of_owed_zero _ _ _ _ L lv 3 fun _ _ => rfl
  pre c := iprop(StableHlo.held (c : Thread nD τ) (Pipeline.ucRefs τ sig) (B6 m c) ∗ Rr c)
  post c := iprop(StableHlo.held (c : Thread nD τ) (Pipeline.ucRefs τ sig) (B7 m c) ∗ Rr c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (E4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.KernelRun.lean ====
/-
  The whole run of @main: its seven items — three stretches of host operations, then the four kernel regions — as the
  segments of one launch. Every weakly fair execution from a memory with zero counters terminates, nothing faulting, and the
  final memory holds every unscoped buffer of every core at the last boundary's contents: the three results as their pipelines'
  write-backs left them, each argument array as launched. Stated for every float instance.
-/
import proofs.«151589_j19816979103948_1_alg».proof.Proof.KernelRunData
import proofs.«151589_j19816979103948_1_alg».proof.Proof.KernelSeg0
import proofs.«151589_j19816979103948_1_alg».proof.Proof.KernelSeg1
import proofs.«151589_j19816979103948_1_alg».proof.Proof.KernelSeg2
import proofs.«151589_j19816979103948_1_alg».proof.Proof.KernelSeg3
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What rides beside the buffers is the same through every item. -/
abbrev Ej : Fin 5 → Dev nD → sProp 𝕄 := fun _ c => Rr c

set_option backward.isDefEq.respectTransparency.types false in
/-- THE RUN: every unscoped buffer ends at the last boundary's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = B7 m c b) := by
  refine Pipeline.θ_run_regions_kit_dev (pcfgs (F := F)) adm (pdats m) () cellOf_inj emb₁ defs₀ 𝒱₀ L lv m ρ main
    (segs m 𝒱₀ L lv Ej () (pdats m) (reg0 m) (reg1 m) (reg2 m) (reg3 m))
    (fun c Q => by
      rewrite [main_chain c, Pipeline.Seg.run_eq_chain,
        show (segs m 𝒱₀ L lv Ej () (pdats m) (reg0 m) (reg1 m) (reg2 m) (reg3 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (B7 m c) ∗ ∃ r, prngReg c r))
    (hch := fun c => ⟨.rfl, .rfl, .rfl, .rfl, .rfl, .rfl, .rfl,
      (show iprop(StableHlo.held (c : Thread nD τ) (Pipeline.ucRefs τ sig) (B7 m c) ∗ Rr c)
          ⊢ (iprop((StableHlo.held (c : Thread nD τ) (Pipeline.ucRefs τ sig) (B7 m c) ∗ ∃ r, prngReg c r)
            ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun _ h => h)

/-! ## The arguments end as launched, the results as their regions left them -/

theorem B7_main_arg0 (c : Dev nD) : B7 m c main_arg0 = m ((c : Thread nD τ).loc main_arg0) :=
  (B7_of_ne m c main_arg0 (by decide)).trans <| (B6_of_ne m c main_arg0 (by decide)).trans <| (B5_of_ne m c main_arg0 (by decide)).trans <| (B4_of_ne m c main_arg0 (by decide)).trans <|
    (V3_of m c main_arg0 (by decide)).trans <| (V2_of m c main_arg0 (by decide)).trans <| (V1_of m c main_arg0 (by decide)).trans rfl
theorem B7_main_arg1 (c : Dev nD) : B7 m c main_arg1 = m ((c : Thread nD τ).loc main_arg1) :=
  (B7_of_ne m c main_arg1 (by decide)).trans <| (B6_of_ne m c main_arg1 (by decide)).trans <| (B5_of_ne m c main_arg1 (by decide)).trans <| (B4_of_ne m c main_arg1 (by decide)).trans <|
    (V3_of m c main_arg1 (by decide)).trans <| (V2_of m c main_arg1 (by decide)).trans <| (V1_of m c main_arg1 (by decide)).trans rfl
theorem B7_main_arg2 (c : Dev nD) : B7 m c main_arg2 = m ((c : Thread nD τ).loc main_arg2) :=
  (B7_of_ne m c main_arg2 (by decide)).trans <| (B6_of_ne m c main_arg2 (by decide)).trans <| (B5_of_ne m c main_arg2 (by decide)).trans <| (B4_of_ne m c main_arg2 (by decide)).trans <|
    (V3_of m c main_arg2 (by decide)).trans <| (V2_of m c main_arg2 (by decide)).trans <| (V1_of m c main_arg2 (by decide)).trans rfl
theorem B7_main_arg3 (c : Dev nD) : B7 m c main_arg3 = m ((c : Thread nD τ).loc main_arg3) :=
  (B7_of_ne m c main_arg3 (by decide)).trans <| (B6_of_ne m c main_arg3 (by decide)).trans <| (B5_of_ne m c main_arg3 (by decide)).trans <| (B4_of_ne m c main_arg3 (by decide)).trans <|
    (V3_of m c main_arg3 (by decide)).trans <| (V2_of m c main_arg3 (by decide)).trans <| (V1_of m c main_arg3 (by decide)).trans rfl

theorem B7_main_v6 (c : Dev nD) : B7 m c main_v6 = o0 m c :=
  (B7_of_ne m c main_v6 (by decide)).trans <| (B6_of_ne m c main_v6 (by decide)).trans <| (B5_of_ne m c main_v6 (by decide)).trans (B4_out m c)
theorem B7_main_v8 (c : Dev nD) : B7 m c main_v8 = o2 m c :=
  (B7_of_ne m c main_v8 (by decide)).trans (B6_out m c)
theorem B7_main_v9 (c : Dev nD) : B7 m c main_v9 = o3 m c := B7_out m c

/-- THE RUN, the certificate's buffers by name: the three results, then the four arguments unchanged. -/
theorem run : θ_run defs (onTc (τ := τ) (main (F := F))) ⟨m, fun _ => 0, ρ⟩ (fun r => ∀ c : Dev nD,
      r.2.mem ((c.tc : Thread nD τ).loc main_v6) = o0 m c
      ∧ r.2.mem ((c.tc : Thread nD τ).loc main_v8) = o2 m c
      ∧ r.2.mem ((c.tc : Thread nD τ).loc main_v9) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v6 (by decide))).trans (B7_main_v6 m c),
     (h c _ (mem_uc main_v8 (by decide))).trans (B7_main_v8 m c),
     (h c _ (mem_uc main_v9 (by decide))).trans (B7_main_v9 m c),
     (h c _ (mem_uc main_arg0 (by decide))).trans (B7_main_arg0 m c),
     (h c _ (mem_uc main_arg1 (by decide))).trans (B7_main_arg1 m c),
     (h c _ (mem_uc main_arg2 (by decide))).trans (B7_main_arg2 m c),
     (h c _ (mem_uc main_arg3 (by decide))).trans (B7_main_arg3 m c)⟩) (run_named m ρ)

/-- The frame: the run terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2.2.2) (run m ρ)

end Cert.Kernel.Run

end
-- ==== Proof.KernelIdealRegion0.lean ====
/-
  The pairwise kernel of region 0, at one grid point: from the blocks of its four input windows — the two point sets (512 rows of 16 coordinates each), the row of length scales and the 1×1 variance — the body stores into its output window's buffer one whole 512×512 block, the value the body's arithmetic gives of those four blocks.
  Stated for every float instance: what each window's buffer holds before and after the body at a point, the body's
  triple on whole buffers, the proof data of the region's pipeline and the per-point obligation the pipeline asks for.
-/
import proofs.«151589_j19816979103948_1_alg».proof.Proof.Gen.KernelIdeal.Launch
import proofs.«151589_j19816979103948_1_alg».proof.Proof.Gen.KernelIdeal.Skeleton
import proofs.«151589_j19816979103948_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's current buffer holds its block at every point, whether the pipeline fetched it there or not -/

theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev r0 : Rect S512x16 := Rect.unit (s := S512x16) ![0, 0] S512x16.size inb_S512x16_S512x16_0_0
abbrev r1 : Rect S512x16 := Rect.unit (s := S512x16) ![0, 0] S512x16.size inb_S512x16_S512x16_0_0
abbrev r2 : Rect S1x16 := Rect.unit (s := S1x16) ![0, 0] S1x16.size inb_S1x16_S1x16_0_0
abbrev r3 : Rect S1x1 := Rect.unit (s := S1x1) ![0, 0] S1x1.size inb_S1x1_S1x1_0_0
abbrev rOut : Rect S512x512 := Rect.unit (s := S512x512) ![0, 0] S512x512.size inb_S512x512_S512x512_0_0

/-- The output window's buffer after the body: its one store, of the body's arithmetic at the four blocks. -/
def out (x0 : Vec F S512x16 .f32) (x1 : Vec F S512x16 .f32) (x2 : Vec F S1x16 .f32) (x3 : Vec F S1x1 .f32) : Vec F S512x512 .f32 :=
  View.canon [⟨rOut, k0_pay1 (View.ld x2 r2) (View.ld x3 r3) (View.ld x0 r0) (View.ld x1 r1)⟩]

/-- The one store covers the buffer. -/
theorem cover_out (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

set_option maxHeartbeats 1000000 in
/-- The body on whole buffers: the inputs' at known contents and the output's at anything; it ends with the inputs'
    as they were and the output's at `out` of the inputs'. -/
theorem sound_kernel (c : Dev nD) (E : Set ℕ) (i : grid0.Coords)
    (a1 : Memref sig .tc .vmem S512x16 .f32) (h1 : a1.IsWhole) (a2 : Memref sig .tc .vmem S512x16 .f32) (h2 : a2.IsWhole)
    (a3 : Memref sig .tc .vmem S1x16 .f32) (h3 : a3.IsWhole) (a4 : Memref sig .tc .vmem S1x1 .f32) (h4 : a4.IsWhole)
    (a5 : Memref sig .tc .vmem S512x512 .f32) (h5 : a5.IsWhole)
    (x0 : Vec F S512x16 .f32) (x1 : Vec F S512x16 .f32) (x2 : Vec F S1x16 .f32) (x3 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out x0 x1 x2 x3)) -∗ K ⟨⟩))
      ⊢ wp frame (wpE (defs₀ (F := F)) Variants.none c none) E (cc0__pairwise_kernel i a1 h1 a2 h2 a3 h3 a4 h4 a5 h5) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the region's pipeline on core `c`: the arrays as the region finds them; after the body at point
    `t` each input's buffer at its block and the output's at `out` of the input blocks; the invariant is the scoped rest
    and the generator register, untouched; nothing owed; the share each input array is held at is the parameter `q`. -/
def dat (q : Fin cfg0.W → PosShare TreeShare) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec0 c
  q := q
  owed _ := 0

variable (q : Fin cfg0.W → PosShare TreeShare)

theorem A_eq (c : Dev nD) (w : Fin cfg0.W) : (dat V q c).A w = V c (Pipeline.arrRef spec0 w) := by
  dsimp only [dat]

theorem after_0 (c : Dev nD) (t : Fin cfg0.N) : (dat V q c).after 0 t = iblk V c 0 t := by dsimp only [dat]
theorem after_1 (c : Dev nD) (t : Fin cfg0.N) : (dat V q c).after 1 t = iblk V c 1 t := by dsimp only [dat]
theorem after_2 (c : Dev nD) (t : Fin cfg0.N) : (dat V q c).after 2 t = iblk V c 2 t := by dsimp only [dat]
theorem after_3 (c : Dev nD) (t : Fin cfg0.N) : (dat V q c).after 3 t = iblk V c 3 t := by dsimp only [dat]
theorem after_4 (c : Dev nD) (t : Fin cfg0.N) : (dat V q c).after 4 t = out (iblk V c 0 t) (iblk V c 1 t) (iblk V c 2 t) (iblk V c 3 t) := by dsimp only [dat]

theorem before_0 (c : Dev nD) (t : Fin cfg0.N) (d) : (dat V q c).before 0 t d = iblk V c 0 t :=
  before_in0 V (dat V q c) (A_eq V q c 0) (after_0 V q c) t d
theorem before_1 (c : Dev nD) (t : Fin cfg0.N) (d) : (dat V q c).before 1 t d = iblk V c 1 t :=
  before_in1 V (dat V q c) (A_eq V q c 1) (after_1 V q c) t d
theorem before_2 (c : Dev nD) (t : Fin cfg0.N) (d) : (dat V q c).before 2 t d = iblk V c 2 t :=
  before_in2 V (dat V q c) (A_eq V q c 2) (after_2 V q c) t d
theorem before_3 (c : Dev nD) (t : Fin cfg0.N) (d) : (dat V q c).before 3 t d = iblk V c 3 t :=
  before_in3 V (dat V q c) (A_eq V q c 3) (after_3 V q c) t d

/-! ## The body obligation, at a generic point -/

/-- What the body is called with at point `t`, the windows one by one, -/
def bodyPre (c : Dev nD) (t : Fin cfg0.N) : sProp 𝕄 :=
  iprop((dat V q c).Φ t.castSucc ∗ (dat V q c).owesAt () t.castSucc
    ∗ (∃ d, owns (c : Thread nD τ) (st0_0 t) fullShare ((dat V q c).before 0 t d))
    ∗ (∃ d, owns (c : Thread nD τ) (st0_1 t) fullShare ((dat V q c).before 1 t d))
    ∗ (∃ d, owns (c : Thread nD τ) (st0_2 t) fullShare ((dat V q c).before 2 t d))
    ∗ (∃ d, owns (c : Thread nD τ) (st0_3 t) fullShare ((dat V q c).before 3 t d))
    ∗ (∃ d, owns (c : Thread nD τ) (st0_4 t) fullShare ((dat V q c).before 4 t d)))

/-- and what it returns. -/
def bodyPost (c : Dev nD) (t : Fin cfg0.N) : sProp 𝕄 :=
  iprop((dat V q c).Φ t.succ ∗ (dat V q c).owesAt () t.succ
    ∗ owns (c : Thread nD τ) (st0_0 t) fullShare ((dat V q c).after 0 t)
    ∗ owns (c : Thread nD τ) (st0_1 t) fullShare ((dat V q c).after 1 t)
    ∗ owns (c : Thread nD τ) (st0_2 t) fullShare ((dat V q c).after 2 t)
    ∗ owns (c : Thread nD τ) (st0_3 t) fullShare ((dat V q c).after 3 t)
    ∗ owns (c : Thread nD τ) (st0_4 t) fullShare ((dat V q c).after 4 t))

/-- The body at any point: the inputs' buffers hold their blocks, so the body's triple applies; the invariant and the
    core's dues pass through unread. -/
theorem sound_body (c : Dev nD) (t : Fin cfg0.N) :
    bodyPre V q c t ⊢ wp frame (wpE (defs₀ (F := F)) Variants.none c none) Set.univ (bodyAt0 t) (fun _ => bodyPost V q c t) := by
  unfold bodyPre bodyPost bodyAt0
  simp only [before_0, before_1, before_2, before_3]
  rw [show (dat V q c).Φ t.succ = (dat V q c).Φ t.castSucc from rfl,
    show (dat V q c).owesAt () t.succ = (dat V q c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat (F := F) V q c) (defs₀ (F := F)) Variants.none () Set.univ := fun t => by
  rw [bigSep_W0, bigSep_W0]
  exact sound_body V q c t

end Cert.KernelIdeal.Region0

end
-- ==== Proof.KernelIdealRegion1.lean ====
/-
  The pairwise kernel of region 1 (the first point set against itself), at one grid point: from the blocks of its four input windows — twice the same 512×16 point set, the row of length scales and the 1×1 variance — the body stores into its output window's buffer one whole 512×512 block.
  Stated for every float instance: what each window's buffer holds before and after the body at a point, the body's
  triple on whole buffers, the proof data of the region's pipeline and the per-point obligation the pipeline asks for.
-/
import proofs.«151589_j19816979103948_1_alg».proof.Proof.Gen.KernelIdeal.Launch
import proofs.«151589_j19816979103948_1_alg».proof.Proof.Gen.KernelIdeal.Skeleton
import proofs.«151589_j19816979103948_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's current buffer holds its block at every point, whether the pipeline fetched it there or not -/

theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev r0 : Rect S512x16 := Rect.unit (s := S512x16) ![0, 0] S512x16.size inb_S512x16_S512x16_0_0
abbrev r1 : Rect S512x16 := Rect.unit (s := S512x16) ![0, 0] S512x16.size inb_S512x16_S512x16_0_0
abbrev r2 : Rect S1x16 := Rect.unit (s := S1x16) ![0, 0] S1x16.size inb_S1x16_S1x16_0_0
abbrev r3 : Rect S1x1 := Rect.unit (s := S1x1) ![0, 0] S1x1.size inb_S1x1_S1x1_0_0
abbrev rOut : Rect S512x512 := Rect.unit (s := S512x512) ![0, 0] S512x512.size inb_S512x512_S512x512_0_0

/-- The output window's buffer after the body: its one store, of the body's arithmetic at the four blocks. -/
def out (x0 : Vec F S512x16 .f32) (x1 : Vec F S512x16 .f32) (x2 : Vec F S1x16 .f32) (x3 : Vec F S1x1 .f32) : Vec F S512x512 .f32 :=
  View.canon [⟨rOut, k1_pay1 (View.ld x2 r2) (View.ld x3 r3) (View.ld x0 r0) (View.ld x1 r1)⟩]

/-- The one store covers the buffer. -/
theorem cover_out (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

set_option maxHeartbeats 1000000 in
/-- The body on whole buffers: the inputs' at known contents and the output's at anything; it ends with the inputs'
    as they were and the output's at `out` of the inputs'. -/
theorem sound_kernel (c : Dev nD) (E : Set ℕ) (i : grid1.Coords)
    (a1 : Memref sig .tc .vmem S512x16 .f32) (h1 : a1.IsWhole) (a2 : Memref sig .tc .vmem S512x16 .f32) (h2 : a2.IsWhole)
    (a3 : Memref sig .tc .vmem S1x16 .f32) (h3 : a3.IsWhole) (a4 : Memref sig .tc .vmem S1x1 .f32) (h4 : a4.IsWhole)
    (a5 : Memref sig .tc .vmem S512x512 .f32) (h5 : a5.IsWhole)
    (x0 : Vec F S512x16 .f32) (x1 : Vec F S512x16 .f32) (x2 : Vec F S1x16 .f32) (x3 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out x0 x1 x2 x3)) -∗ K ⟨⟩))
      ⊢ wp frame (wpE (defs₀ (F := F)) Variants.none c none) E (cc1__pairwise_kernel i a1 h1 a2 h2 a3 h3 a4 h4 a5 h5) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the region's pipeline on core `c`: the arrays as the region finds them; after the body at point
    `t` each input's buffer at its block and the output's at `out` of the input blocks; the invariant is the scoped rest
    and the generator register, untouched; nothing owed; the share each input array is held at is the parameter `q`. -/
def dat (q : Fin cfg1.W → PosShare TreeShare) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (iblk V c 0 t) (iblk V c 1 t) (iblk V c 2 t) (iblk V c 3 t)
  Φ _ := Pipeline.ΦA spec1 c
  q := q
  owed _ := 0

variable (q : Fin cfg1.W → PosShare TreeShare)

theorem A_eq (c : Dev nD) (w : Fin cfg1.W) : (dat V q c).A w = V c (Pipeline.arrRef spec1 w) := by
  dsimp only [dat]

theorem after_0 (c : Dev nD) (t : Fin cfg1.N) : (dat V q c).after 0 t = iblk V c 0 t := by dsimp only [dat]
theorem after_1 (c : Dev nD) (t : Fin cfg1.N) : (dat V q c).after 1 t = iblk V c 1 t := by dsimp only [dat]
theorem after_2 (c : Dev nD) (t : Fin cfg1.N) : (dat V q c).after 2 t = iblk V c 2 t := by dsimp only [dat]
theorem after_3 (c : Dev nD) (t : Fin cfg1.N) : (dat V q c).after 3 t = iblk V c 3 t := by dsimp only [dat]
theorem after_4 (c : Dev nD) (t : Fin cfg1.N) : (dat V q c).after 4 t = out (iblk V c 0 t) (iblk V c 1 t) (iblk V c 2 t) (iblk V c 3 t) := by dsimp only [dat]

theorem before_0 (c : Dev nD) (t : Fin cfg1.N) (d) : (dat V q c).before 0 t d = iblk V c 0 t :=
  before_in0 V (dat V q c) (A_eq V q c 0) (after_0 V q c) t d
theorem before_1 (c : Dev nD) (t : Fin cfg1.N) (d) : (dat V q c).before 1 t d = iblk V c 1 t :=
  before_in1 V (dat V q c) (A_eq V q c 1) (after_1 V q c) t d
theorem before_2 (c : Dev nD) (t : Fin cfg1.N) (d) : (dat V q c).before 2 t d = iblk V c 2 t :=
  before_in2 V (dat V q c) (A_eq V q c 2) (after_2 V q c) t d
theorem before_3 (c : Dev nD) (t : Fin cfg1.N) (d) : (dat V q c).before 3 t d = iblk V c 3 t :=
  before_in3 V (dat V q c) (A_eq V q c 3) (after_3 V q c) t d

/-! ## The body obligation, at a generic point -/

/-- What the body is called with at point `t`, the windows one by one, -/
def bodyPre (c : Dev nD) (t : Fin cfg1.N) : sProp 𝕄 :=
  iprop((dat V q c).Φ t.castSucc ∗ (dat V q c).owesAt () t.castSucc
    ∗ (∃ d, owns (c : Thread nD τ) (st1_0 t) fullShare ((dat V q c).before 0 t d))
    ∗ (∃ d, owns (c : Thread nD τ) (st1_1 t) fullShare ((dat V q c).before 1 t d))
    ∗ (∃ d, owns (c : Thread nD τ) (st1_2 t) fullShare ((dat V q c).before 2 t d))
    ∗ (∃ d, owns (c : Thread nD τ) (st1_3 t) fullShare ((dat V q c).before 3 t d))
    ∗ (∃ d, owns (c : Thread nD τ) (st1_4 t) fullShare ((dat V q c).before 4 t d)))

/-- and what it returns. -/
def bodyPost (c : Dev nD) (t : Fin cfg1.N) : sProp 𝕄 :=
  iprop((dat V q c).Φ t.succ ∗ (dat V q c).owesAt () t.succ
    ∗ owns (c : Thread nD τ) (st1_0 t) fullShare ((dat V q c).after 0 t)
    ∗ owns (c : Thread nD τ) (st1_1 t) fullShare ((dat V q c).after 1 t)
    ∗ owns (c : Thread nD τ) (st1_2 t) fullShare ((dat V q c).after 2 t)
    ∗ owns (c : Thread nD τ) (st1_3 t) fullShare ((dat V q c).after 3 t)
    ∗ owns (c : Thread nD τ) (st1_4 t) fullShare ((dat V q c).after 4 t))

/-- The body at any point: the inputs' buffers hold their blocks, so the body's triple applies; the invariant and the
    core's dues pass through unread. -/
theorem sound_body (c : Dev nD) (t : Fin cfg1.N) :
    bodyPre V q c t ⊢ wp frame (wpE (defs₀ (F := F)) Variants.none c none) Set.univ (bodyAt1 t) (fun _ => bodyPost V q c t) := by
  unfold bodyPre bodyPost bodyAt1
  simp only [before_0, before_1, before_2, before_3]
  rw [show (dat V q c).Φ t.succ = (dat V q c).Φ t.castSucc from rfl,
    show (dat V q c).owesAt () t.succ = (dat V q c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat (F := F) V q c) (defs₀ (F := F)) Variants.none () Set.univ := fun t => by
  rw [bigSep_W1, bigSep_W1]
  exact sound_body V q c t

end Cert.KernelIdeal.Region1

end
-- ==== Proof.KernelIdealRegion2.lean ====
/-
  The gradient kernel of region 2, at grid point d: from the first point set, the transposed second one, the row of length scales and the 512×512 kernel matrix, the body stores the 512×512 block of row-block d of the gradient.
  Stated for every float instance: what each window's buffer holds before and after the body at a point, the body's
  triple on whole buffers, the proof data of the region's pipeline and the per-point obligation the pipeline asks for.
-/
import proofs.«151589_j19816979103948_1_alg».proof.Proof.Gen.KernelIdeal.Launch
import proofs.«151589_j19816979103948_1_alg».proof.Proof.Gen.KernelIdeal.Skeleton
import proofs.«151589_j19816979103948_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input window's current buffer holds its block at every point, whether the pipeline fetched it there or not -/

theorem before_in0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev r0 : Rect S512x16 := Rect.unit (s := S512x16) ![0, 0] S512x16.size inb_S512x16_S512x16_0_0
abbrev r1 : Rect S16x512 := Rect.unit (s := S16x512) ![0, 0] S16x512.size inb_S16x512_S16x512_0_0
abbrev r2 : Rect S1x16 := Rect.unit (s := S1x16) ![0, 0] S1x16.size inb_S1x16_S1x16_0_0
abbrev r3 : Rect S512x512 := Rect.unit (s := S512x512) ![0, 0] S512x512.size inb_S512x512_S512x512_0_0
abbrev rOut : Rect S512x512 := Rect.unit (s := S512x512) ![0, 0] S512x512.size inb_S512x512_S512x512_0_0

/-- The output window's buffer after the body: its one store, of the body's arithmetic at the four blocks. -/
def out (i : grid2.Coords) (x0 : Vec F S512x16 .f32) (x1 : Vec F S16x512 .f32) (x2 : Vec F S1x16 .f32) (x3 : Vec F S512x512 .f32) : Vec F S512x512 .f32 :=
  View.canon [⟨rOut, k2_pay1 i (View.ld x0 r0) (View.ld x1 r1) (View.ld x2 r2) (View.ld x3 r3)⟩]

/-- The one store covers the buffer. -/
theorem cover_out (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

set_option maxHeartbeats 1000000 in
/-- The body on whole buffers: the inputs' at known contents and the output's at anything; it ends with the inputs'
    as they were and the output's at `out` of the inputs'. -/
theorem sound_kernel (c : Dev nD) (E : Set ℕ) (i : grid2.Coords)
    (a1 : Memref sig .tc .vmem S512x16 .f32) (h1 : a1.IsWhole) (a2 : Memref sig .tc .vmem S16x512 .f32) (h2 : a2.IsWhole)
    (a3 : Memref sig .tc .vmem S1x16 .f32) (h3 : a3.IsWhole) (a4 : Memref sig .tc .vmem S512x512 .f32) (h4 : a4.IsWhole)
    (a5 : Memref sig .tc .vmem S512x512 .f32) (h5 : a5.IsWhole)
    (x0 : Vec F S512x16 .f32) (x1 : Vec F S16x512 .f32) (x2 : Vec F S1x16 .f32) (x3 : Vec F S512x512 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out i x0 x1 x2 x3)) -∗ K ⟨⟩))
      ⊢ wp frame (wpE (defs₀ (F := F)) Variants.none c none) E (cc2__grad_kernel i a1 h1 a2 h2 a3 h3 a4 h4 a5 h5) K := by
  simp only [cc2__grad_kernel_eq_skeleton]; unfold cc2__grad_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the region's pipeline on core `c`: the arrays as the region finds them; after the body at point
    `t` each input's buffer at its block and the output's at `out` of the input blocks; the invariant is the scoped rest
    and the generator register, untouched; nothing owed; the share each input array is held at is the parameter `q`. -/
def dat (q : Fin cfg2.W → PosShare TreeShare) (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (grid2.coords t) (iblk V c 0 t) (iblk V c 1 t) (iblk V c 2 t) (iblk V c 3 t)
  Φ _ := Pipeline.ΦA spec2 c
  q := q
  owed _ := 0

variable (q : Fin cfg2.W → PosShare TreeShare)

theorem A_eq (c : Dev nD) (w : Fin cfg2.W) : (dat V q c).A w = V c (Pipeline.arrRef spec2 w) := by
  dsimp only [dat]

theorem after_0 (c : Dev nD) (t : Fin cfg2.N) : (dat V q c).after 0 t = iblk V c 0 t := by dsimp only [dat]
theorem after_1 (c : Dev nD) (t : Fin cfg2.N) : (dat V q c).after 1 t = iblk V c 1 t := by dsimp only [dat]
theorem after_2 (c : Dev nD) (t : Fin cfg2.N) : (dat V q c).after 2 t = iblk V c 2 t := by dsimp only [dat]
theorem after_3 (c : Dev nD) (t : Fin cfg2.N) : (dat V q c).after 3 t = iblk V c 3 t := by dsimp only [dat]
theorem after_4 (c : Dev nD) (t : Fin cfg2.N) : (dat V q c).after 4 t = out (grid2.coords t) (iblk V c 0 t) (iblk V c 1 t) (iblk V c 2 t) (iblk V c 3 t) := by dsimp only [dat]

theorem before_0 (c : Dev nD) (t : Fin cfg2.N) (d) : (dat V q c).before 0 t d = iblk V c 0 t :=
  before_in0 V (dat V q c) (A_eq V q c 0) (after_0 V q c) t d
theorem before_1 (c : Dev nD) (t : Fin cfg2.N) (d) : (dat V q c).before 1 t d = iblk V c 1 t :=
  before_in1 V (dat V q c) (A_eq V q c 1) (after_1 V q c) t d
theorem before_2 (c : Dev nD) (t : Fin cfg2.N) (d) : (dat V q c).before 2 t d = iblk V c 2 t :=
  before_in2 V (dat V q c) (A_eq V q c 2) (after_2 V q c) t d
theorem before_3 (c : Dev nD) (t : Fin cfg2.N) (d) : (dat V q c).before 3 t d = iblk V c 3 t :=
  before_in3 V (dat V q c) (A_eq V q c 3) (after_3 V q c) t d

/-! ## The body obligation, at a generic point -/

/-- What the body is called with at point `t`, the windows one by one, -/
def bodyPre (c : Dev nD) (t : Fin cfg2.N) : sProp 𝕄 :=
  iprop((dat V q c).Φ t.castSucc ∗ (dat V q c).owesAt () t.castSucc
    ∗ (∃ d, owns (c : Thread nD τ) (st2_0 t) fullShare ((dat V q c).before 0 t d))
    ∗ (∃ d, owns (c : Thread nD τ) (st2_1 t) fullShare ((dat V q c).before 1 t d))
    ∗ (∃ d, owns (c : Thread nD τ) (st2_2 t) fullShare ((dat V q c).before 2 t d))
    ∗ (∃ d, owns (c : Thread nD τ) (st2_3 t) fullShare ((dat V q c).before 3 t d))
    ∗ (∃ d, owns (c : Thread nD τ) (st2_4 t) fullShare ((dat V q c).before 4 t d)))

/-- and what it returns. -/
def bodyPost (c : Dev nD) (t : Fin cfg2.N) : sProp 𝕄 :=
  iprop((dat V q c).Φ t.succ ∗ (dat V q c).owesAt () t.succ
    ∗ owns (c : Thread nD τ) (st2_0 t) fullShare ((dat V q c).after 0 t)
    ∗ owns (c : Thread nD τ) (st2_1 t) fullShare ((dat V q c).after 1 t)
    ∗ owns (c : Thread nD τ) (st2_2 t) fullShare ((dat V q c).after 2 t)
    ∗ owns (c : Thread nD τ) (st2_3 t) fullShare ((dat V q c).after 3 t)
    ∗ owns (c : Thread nD τ) (st2_4 t) fullShare ((dat V q c).after 4 t))

/-- The body at any point: the inputs' buffers hold their blocks, so the body's triple applies; the invariant and the
    core's dues pass through unread. -/
theorem sound_body (c : Dev nD) (t : Fin cfg2.N) :
    bodyPre V q c t ⊢ wp frame (wpE (defs₀ (F := F)) Variants.none c none) Set.univ (bodyAt2 t) (fun _ => bodyPost V q c t) := by
  unfold bodyPre bodyPost bodyAt2
  simp only [before_0, before_1, before_2, before_3]
  rw [show (dat V q c).Φ t.succ = (dat V q c).Φ t.castSucc from rfl,
    show (dat V q c).owesAt () t.succ = (dat V q c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat (F := F) V q c) (defs₀ (F := F)) Variants.none () Set.univ := fun t => by
  rw [bigSep_W2, bigSep_W2]
  exact sound_body V q c t

end Cert.KernelIdeal.Region2

end
-- ==== Proof.KernelIdealRegion3.lean ====
/-
  The Hessian kernel of region 3, at grid point (a, b): from the point set, its transpose, the row of length scales and the 512×512 kernel matrix of the point set against itself, the body stores the 512×512 block (a, b) of the Hessian.
  Stated for every float instance: what each window's buffer holds before and after the body at a point, the body's
  triple on whole buffers, the proof data of the region's pipeline and the per-point obligation the pipeline asks for.
-/
import proofs.«151589_j19816979103948_1_alg».proof.Proof.Gen.KernelIdeal.Launch
import proofs.«151589_j19816979103948_1_alg».proof.Proof.Gen.KernelIdeal.Skeleton
import proofs.«151589_j19816979103948_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## An input window's current buffer holds its block at every point, whether the pipeline fetched it there or not -/

theorem before_in0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev r0 : Rect S512x16 := Rect.unit (s := S512x16) ![0, 0] S512x16.size inb_S512x16_S512x16_0_0
abbrev r1 : Rect S16x512 := Rect.unit (s := S16x512) ![0, 0] S16x512.size inb_S16x512_S16x512_0_0
abbrev r2 : Rect S1x16 := Rect.unit (s := S1x16) ![0, 0] S1x16.size inb_S1x16_S1x16_0_0
abbrev r3 : Rect S512x512 := Rect.unit (s := S512x512) ![0, 0] S512x512.size inb_S512x512_S512x512_0_0
abbrev rOut : Rect S512x512 := Rect.unit (s := S512x512) ![0, 0] S512x512.size inb_S512x512_S512x512_0_0

/-- The output window's buffer after the body: its one store, of the body's arithmetic at the four blocks. -/
def out (i : grid3.Coords) (x0 : Vec F S512x16 .f32) (x1 : Vec F S16x512 .f32) (x2 : Vec F S1x16 .f32) (x3 : Vec F S512x512 .f32) : Vec F S512x512 .f32 :=
  View.canon [⟨rOut, k3_pay1 (BitVec.ofNat 32 (i 0).val) (BitVec.ofNat 32 (i 1).val) (k3_pay4 i (View.ld x0 r0)) (k3_pay5 i (View.ld x1 r1)) (k3_pay6 i (View.ld x0 r0)) (k3_pay7 i (View.ld x1 r1)) (k3_pay8 i (View.ld x2 r2)) (k3_pay9 i (View.ld x2 r2)) (View.ld x3 r3)⟩]

/-- The one store covers the buffer. -/
theorem cover_out (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

set_option maxHeartbeats 1000000 in
/-- The body on whole buffers: the inputs' at known contents and the output's at anything; it ends with the inputs'
    as they were and the output's at `out` of the inputs'. -/
theorem sound_kernel (c : Dev nD) (E : Set ℕ) (i : grid3.Coords)
    (a1 : Memref sig .tc .vmem S512x16 .f32) (h1 : a1.IsWhole) (a2 : Memref sig .tc .vmem S16x512 .f32) (h2 : a2.IsWhole)
    (a3 : Memref sig .tc .vmem S1x16 .f32) (h3 : a3.IsWhole) (a4 : Memref sig .tc .vmem S512x512 .f32) (h4 : a4.IsWhole)
    (a5 : Memref sig .tc .vmem S512x512 .f32) (h5 : a5.IsWhole)
    (x0 : Vec F S512x16 .f32) (x1 : Vec F S16x512 .f32) (x2 : Vec F S1x16 .f32) (x3 : Vec F S512x512 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out i x0 x1 x2 x3)) -∗ K ⟨⟩))
      ⊢ wp frame (wpE (defs₀ (F := F)) Variants.none c none) E (cc3__hess_kernel i a1 h1 a2 h2 a3 h3 a4 h4 a5 h5) K := by
  simp only [cc3__hess_kernel_eq_skeleton]; unfold cc3__hess_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the region's pipeline on core `c`: the arrays as the region finds them; after the body at point
    `t` each input's buffer at its block and the output's at `out` of the input blocks; the invariant is the scoped rest
    and the generator register, untouched; nothing owed; the share each input array is held at is the parameter `q`. -/
def dat (q : Fin cfg3.W → PosShare TreeShare) (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out (grid3.coords t) (iblk V c 0 t) (iblk V c 1 t) (iblk V c 2 t) (iblk V c 3 t)
  Φ _ := Pipeline.ΦA spec3 c
  q := q
  owed _ := 0

variable (q : Fin cfg3.W → PosShare TreeShare)

theorem A_eq (c : Dev nD) (w : Fin cfg3.W) : (dat V q c).A w = V c (Pipeline.arrRef spec3 w) := by
  dsimp only [dat]

theorem after_0 (c : Dev nD) (t : Fin cfg3.N) : (dat V q c).after 0 t = iblk V c 0 t := by dsimp only [dat]
theorem after_1 (c : Dev nD) (t : Fin cfg3.N) : (dat V q c).after 1 t = iblk V c 1 t := by dsimp only [dat]
theorem after_2 (c : Dev nD) (t : Fin cfg3.N) : (dat V q c).after 2 t = iblk V c 2 t := by dsimp only [dat]
theorem after_3 (c : Dev nD) (t : Fin cfg3.N) : (dat V q c).after 3 t = iblk V c 3 t := by dsimp only [dat]
theorem after_4 (c : Dev nD) (t : Fin cfg3.N) : (dat V q c).after 4 t = out (grid3.coords t) (iblk V c 0 t) (iblk V c 1 t) (iblk V c 2 t) (iblk V c 3 t) := by dsimp only [dat]

theorem before_0 (c : Dev nD) (t : Fin cfg3.N) (d) : (dat V q c).before 0 t d = iblk V c 0 t :=
  before_in0 V (dat V q c) (A_eq V q c 0) (after_0 V q c) t d
theorem before_1 (c : Dev nD) (t : Fin cfg3.N) (d) : (dat V q c).before 1 t d = iblk V c 1 t :=
  before_in1 V (dat V q c) (A_eq V q c 1) (after_1 V q c) t d
theorem before_2 (c : Dev nD) (t : Fin cfg3.N) (d) : (dat V q c).before 2 t d = iblk V c 2 t :=
  before_in2 V (dat V q c) (A_eq V q c 2) (after_2 V q c) t d
theorem before_3 (c : Dev nD) (t : Fin cfg3.N) (d) : (dat V q c).before 3 t d = iblk V c 3 t :=
  before_in3 V (dat V q c) (A_eq V q c 3) (after_3 V q c) t d

/-! ## The body obligation, at a generic point -/

/-- What the body is called with at point `t`, the windows one by one, -/
def bodyPre (c : Dev nD) (t : Fin cfg3.N) : sProp 𝕄 :=
  iprop((dat V q c).Φ t.castSucc ∗ (dat V q c).owesAt () t.castSucc
    ∗ (∃ d, owns (c : Thread nD τ) (st3_0 t) fullShare ((dat V q c).before 0 t d))
    ∗ (∃ d, owns (c : Thread nD τ) (st3_1 t) fullShare ((dat V q c).before 1 t d))
    ∗ (∃ d, owns (c : Thread nD τ) (st3_2 t) fullShare ((dat V q c).before 2 t d))
    ∗ (∃ d, owns (c : Thread nD τ) (st3_3 t) fullShare ((dat V q c).before 3 t d))
    ∗ (∃ d, owns (c : Thread nD τ) (st3_4 t) fullShare ((dat V q c).before 4 t d)))

/-- and what it returns. -/
def bodyPost (c : Dev nD) (t : Fin cfg3.N) : sProp 𝕄 :=
  iprop((dat V q c).Φ t.succ ∗ (dat V q c).owesAt () t.succ
    ∗ owns (c : Thread nD τ) (st3_0 t) fullShare ((dat V q c).after 0 t)
    ∗ owns (c : Thread nD τ) (st3_1 t) fullShare ((dat V q c).after 1 t)
    ∗ owns (c : Thread nD τ) (st3_2 t) fullShare ((dat V q c).after 2 t)
    ∗ owns (c : Thread nD τ) (st3_3 t) fullShare ((dat V q c).after 3 t)
    ∗ owns (c : Thread nD τ) (st3_4 t) fullShare ((dat V q c).after 4 t))

/-- The body at any point: the inputs' buffers hold their blocks, so the body's triple applies; the invariant and the
    core's dues pass through unread. -/
theorem sound_body (c : Dev nD) (t : Fin cfg3.N) :
    bodyPre V q c t ⊢ wp frame (wpE (defs₀ (F := F)) Variants.none c none) Set.univ (bodyAt3 t) (fun _ => bodyPost V q c t) := by
  unfold bodyPre bodyPost bodyAt3
  simp only [before_0, before_1, before_2, before_3]
  rw [show (dat V q c).Φ t.succ = (dat V q c).Φ t.castSucc from rfl,
    show (dat V q c).owesAt () t.succ = (dat V q c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dat (F := F) V q c) (defs₀ (F := F)) Variants.none () Set.univ := fun t => by
  rw [bigSep_W3, bigSep_W3]
  exact sound_body V q c t

end Cert.KernelIdeal.Region3

end
-- ==== Proof.KernelIdealRunData.lean ====
/-
  The contents of a core's unscoped buffers at each boundary of @main's seven items — after the three stretches of host
  operations, then after each of the four kernel regions, a region changing only its one result array, which ends at what
  the pipeline's write-backs leave in it — and each pipeline's proof data at its region's entry contents. Region 1 is
  handed the first point set through two windows: its proof data hold that array in two halves.
-/
import proofs.«151589_j19816979103948_1_alg».proof.Proof.Gen.KernelIdeal.Regions
import proofs.«151589_j19816979103948_1_alg».proof.Proof.KernelIdealRegion0
import proofs.«151589_j19816979103948_1_alg».proof.Proof.KernelIdealRegion1
import proofs.«151589_j19816979103948_1_alg».proof.Proof.KernelIdealRegion2
import proofs.«151589_j19816979103948_1_alg».proof.Proof.KernelIdealRegion3
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares the input arrays are held at -/

/-- Every array whole. -/
abbrev qFull : Fin 5 → PosShare TreeShare := fun _ => fullShare
/-- Region 1: the point set is read through windows 0 and 1, half each. -/
abbrev qHalves : Fin 5 → PosShare TreeShare := fun w => match w with
  | ⟨0, _⟩ => fullShare.left
  | ⟨1, _⟩ => fullShare.right
  | _ => fullShare

/-! ## The buffers' contents at each boundary -/

/-- Region 0 is entered after the three host stretches. -/
abbrev B3 (c : Dev nD) : Valuation τ sig (Elt F) := V3 m c
abbrev E0 : (c : Dev nD) → (b : Ref sig .tc) → Buf (Elt F) ((c : Thread nD τ).loc b) := fun c b => B3 m c b
/-- What region 0 leaves in its result array, -/
def o0 (c : Dev nD) : Buf (Elt F) ((c : Thread nD τ).loc main_v6) := (Region0.dat (E0 m) qFull c).arrAt 4 cfg0.N
def B4 (c : Dev nD) : Valuation τ sig (Elt F) := Function.update (B3 m c) main_v6 (o0 m c)
abbrev E1 : (c : Dev nD) → (b : Ref sig .tc) → Buf (Elt F) ((c : Thread nD τ).loc b) := fun c b => B4 m c b
/-- region 1, -/
def o1 (c : Dev nD) : Buf (Elt F) ((c : Thread nD τ).loc main_v7) := (Region1.dat (E1 m) qHalves c).arrAt 4 cfg1.N
def B5 (c : Dev nD) : Valuation τ sig (Elt F) := Function.update (B4 m c) main_v7 (o1 m c)
abbrev E2 : (c : Dev nD) → (b : Ref sig .tc) → Buf (Elt F) ((c : Thread nD τ).loc b) := fun c b => B5 m c b
/-- region 2, -/
def o2 (c : Dev nD) : Buf (Elt F) ((c : Thread nD τ).loc main_v8) := (Region2.dat (E2 m) qFull c).arrAt 4 cfg2.N
def B6 (c : Dev nD) : Valuation τ sig (Elt F) := Function.update (B5 m c) main_v8 (o2 m c)
abbrev E3 : (c : Dev nD) → (b : Ref sig .tc) → Buf (Elt F) ((c : Thread nD τ).loc b) := fun c b => B6 m c b
/-- and region 3. -/
def o3 (c : Dev nD) : Buf (Elt F) ((c : Thread nD τ).loc main_v9) := (Region3.dat (E3 m) qFull c).arrAt 4 cfg3.N
def B7 (c : Dev nD) : Valuation τ sig (Elt F) := Function.update (B6 m c) main_v9 (o3 m c)
abbrev E4 : (c : Dev nD) → (b : Ref sig .tc) → Buf (Elt F) ((c : Thread nD τ).loc b) := fun c b => B7 m c b

theorem B4_out (c : Dev nD) : B4 m c main_v6 = o0 m c := by unfold B4; exact Function.update_self _ _ _
theorem B4_of_ne (c : Dev nD) (b : Ref sig .tc) (h : b ≠ main_v6) : B4 m c b = B3 m c b := by
  unfold B4; exact Function.update_of_ne (StableHlo.devRef_ne_of_ne h) _ _
theorem B5_out (c : Dev nD) : B5 m c main_v7 = o1 m c := by unfold B5; exact Function.update_self _ _ _
theorem B5_of_ne (c : Dev nD) (b : Ref sig .tc) (h : b ≠ main_v7) : B5 m c b = B4 m c b := by
  unfold B5; exact Function.update_of_ne (StableHlo.devRef_ne_of_ne h) _ _
theorem B6_out (c : Dev nD) : B6 m c main_v8 = o2 m c := by unfold B6; exact Function.update_self _ _ _
theorem B6_of_ne (c : Dev nD) (b : Ref sig .tc) (h : b ≠ main_v8) : B6 m c b = B5 m c b := by
  unfold B6; exact Function.update_of_ne (StableHlo.devRef_ne_of_ne h) _ _
theorem B7_out (c : Dev nD) : B7 m c main_v9 = o3 m c := by unfold B7; exact Function.update_self _ _ _
theorem B7_of_ne (c : Dev nD) (b : Ref sig .tc) (h : b ≠ main_v9) : B7 m c b = B6 m c b := by
  unfold B7; exact Function.update_of_ne (StableHlo.devRef_ne_of_ne h) _ _

/-! ## The proof data family and what rides along -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Region0.dat (E0 m) qFull c
  | ⟨1, _⟩ => fun c => Region1.dat (E1 m) qHalves c
  | ⟨2, _⟩ => fun c => Region2.dat (E2 m) qFull c
  | ⟨3, _⟩ => fun c => Region3.dat (E3 m) qFull c
abbrev 𝒱₀ : Variants := Variants.none
abbrev L : GSem nD τ sig → Finset Unit := fun _ => ∅
abbrev lv : GSem nD τ sig → Unit → ℕ := fun _ _ => 0
/-- Beside the buffers, through every item: the core's generator register at some state and its dues, at nothing. -/
abbrev Rr (c : Dev nD) : sProp 𝕄 := iprop((∃ r, prngReg c r) ∗ ∃ W, owes (c : Thread nD τ) (0 : CellTallies nD τ sig Unit) W)

/-! ## What each region leaves, array by array -/

/-- At region 0's end each of its arrays holds what the pipeline leaves: an input what it held, the result its write-backs. -/
theorem hF0 (c : Dev nD) (w : Fin cfg0.W) : (Region0.dat (E0 m) qFull c).arrAt w cfg0.N = E1 m c (Pipeline.arrRef spec0 w) := by
  match w with
  | ⟨0, _⟩ => exact ((Region0.dat (E0 m) qFull c).arrAt_in 0 rfl _).trans ((Region0.A_eq (E0 m) qFull c 0).trans (B4_of_ne m c _ (by decide)).symm)
  | ⟨1, _⟩ => exact ((Region0.dat (E0 m) qFull c).arrAt_in 1 rfl _).trans ((Region0.A_eq (E0 m) qFull c 1).trans (B4_of_ne m c _ (by decide)).symm)
  | ⟨2, _⟩ => exact ((Region0.dat (E0 m) qFull c).arrAt_in 2 rfl _).trans ((Region0.A_eq (E0 m) qFull c 2).trans (B4_of_ne m c _ (by decide)).symm)
  | ⟨3, _⟩ => exact ((Region0.dat (E0 m) qFull c).arrAt_in 3 rfl _).trans ((Region0.A_eq (E0 m) qFull c 3).trans (B4_of_ne m c _ (by decide)).symm)
  | ⟨4, _⟩ => exact (B4_out m c).symm
/-- Every other buffer is as the region found it. -/
theorem hrest0 (c : Dev nD) : ∀ b, b ∉ Finset.univ.image (Pipeline.arrRef spec0) → E1 m c b = E0 m c b :=
  fun b hb => B4_of_ne m c b fun e => hb (Finset.mem_image.mpr ⟨4, Finset.mem_univ _, e.symm⟩)

/-- At region 1's end each of its arrays holds what the pipeline leaves: an input what it held, the result its write-backs. -/
theorem hF1 (c : Dev nD) (w : Fin cfg1.W) : (Region1.dat (E1 m) qHalves c).arrAt w cfg1.N = E2 m c (Pipeline.arrRef spec1 w) := by
  match w with
  | ⟨0, _⟩ => exact ((Region1.dat (E1 m) qHalves c).arrAt_in 0 rfl _).trans ((Region1.A_eq (E1 m) qHalves c 0).trans (B5_of_ne m c _ (by decide)).symm)
  | ⟨1, _⟩ => exact ((Region1.dat (E1 m) qHalves c).arrAt_in 1 rfl _).trans ((Region1.A_eq (E1 m) qHalves c 1).trans (B5_of_ne m c _ (by decide)).symm)
  | ⟨2, _⟩ => exact ((Region1.dat (E1 m) qHalves c).arrAt_in 2 rfl _).trans ((Region1.A_eq (E1 m) qHalves c 2).trans (B5_of_ne m c _ (by decide)).symm)
  | ⟨3, _⟩ => exact ((Region1.dat (E1 m) qHalves c).arrAt_in 3 rfl _).trans ((Region1.A_eq (E1 m) qHalves c 3).trans (B5_of_ne m c _ (by decide)).symm)
  | ⟨4, _⟩ => exact (B5_out m c).symm
/-- Every other buffer is as the region found it. -/
theorem hrest1 (c : Dev nD) : ∀ b, b ∉ Finset.univ.image (Pipeline.arrRef spec1) → E2 m c b = E1 m c b :=
  fun b hb => B5_of_ne m c b fun e => hb (Finset.mem_image.mpr ⟨4, Finset.mem_univ _, e.symm⟩)

/-- At region 2's end each of its arrays holds what the pipeline leaves: an input what it held, the result its write-backs. -/
theorem hF2 (c : Dev nD) (w : Fin cfg2.W) : (Region2.dat (E2 m) qFull c).arrAt w cfg2.N = E3 m c (Pipeline.arrRef spec2 w) := by
  match w with
  | ⟨0, _⟩ => exact ((Region2.dat (E2 m) qFull c).arrAt_in 0 rfl _).trans ((Region2.A_eq (E2 m) qFull c 0).trans (B6_of_ne m c _ (by decide)).symm)
  | ⟨1, _⟩ => exact ((Region2.dat (E2 m) qFull c).arrAt_in 1 rfl _).trans ((Region2.A_eq (E2 m) qFull c 1).trans (B6_of_ne m c _ (by decide)).symm)
  | ⟨2, _⟩ => exact ((Region2.dat (E2 m) qFull c).arrAt_in 2 rfl _).trans ((Region2.A_eq (E2 m) qFull c 2).trans (B6_of_ne m c _ (by decide)).symm)
  | ⟨3, _⟩ => exact ((Region2.dat (E2 m) qFull c).arrAt_in 3 rfl _).trans ((Region2.A_eq (E2 m) qFull c 3).trans (B6_of_ne m c _ (by decide)).symm)
  | ⟨4, _⟩ => exact (B6_out m c).symm
/-- Every other buffer is as the region found it. -/
theorem hrest2 (c : Dev nD) : ∀ b, b ∉ Finset.univ.image (Pipeline.arrRef spec2) → E3 m c b = E2 m c b :=
  fun b hb => B6_of_ne m c b fun e => hb (Finset.mem_image.mpr ⟨4, Finset.mem_univ _, e.symm⟩)

/-- At region 3's end each of its arrays holds what the pipeline leaves: an input what it held, the result its write-backs. -/
theorem hF3 (c : Dev nD) (w : Fin cfg3.W) : (Region3.dat (E3 m) qFull c).arrAt w cfg3.N = E4 m c (Pipeline.arrRef spec3 w) := by
  match w with
  | ⟨0, _⟩ => exact ((Region3.dat (E3 m) qFull c).arrAt_in 0 rfl _).trans ((Region3.A_eq (E3 m) qFull c 0).trans (B7_of_ne m c _ (by decide)).symm)
  | ⟨1, _⟩ => exact ((Region3.dat (E3 m) qFull c).arrAt_in 1 rfl _).trans ((Region3.A_eq (E3 m) qFull c 1).trans (B7_of_ne m c _ (by decide)).symm)
  | ⟨2, _⟩ => exact ((Region3.dat (E3 m) qFull c).arrAt_in 2 rfl _).trans ((Region3.A_eq (E3 m) qFull c 2).trans (B7_of_ne m c _ (by decide)).symm)
  | ⟨3, _⟩ => exact ((Region3.dat (E3 m) qFull c).arrAt_in 3 rfl _).trans ((Region3.A_eq (E3 m) qFull c 3).trans (B7_of_ne m c _ (by decide)).symm)
  | ⟨4, _⟩ => exact (B7_out m c).symm
/-- Every other buffer is as the region found it. -/
theorem hrest3 (c : Dev nD) : ∀ b, b ∉ Finset.univ.image (Pipeline.arrRef spec3) → E4 m c b = E3 m c b :=
  fun b hb => B7_of_ne m c b fun e => hb (Finset.mem_image.mpr ⟨4, Finset.mem_univ _, e.symm⟩)

end Cert.KernelIdeal.Run

end
-- ==== Proof.KernelIdealSeg0.lean ====
/-
  Region 0 as one item of @main's run: entered holding every unscoped buffer of the core at the contents the items
  before it left, it takes its windows' arrays out of them — distinct whole buffers —, runs its pipeline, and puts them back,
  the result array at what the write-backs left; the generator register goes into the pipeline's invariant and comes out.
-/
import proofs.«151589_j19816979103948_1_alg».proof.Proof.KernelIdealRunData
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (E0 m) qFull c).loose
  hwaits := Pipeline.hwaits_of_owed_zero _ _ _ _ L lv 0 fun _ _ => rfl
  pre c := iprop(StableHlo.held (c : Thread nD τ) (Pipeline.ucRefs τ sig) (B3 m c) ∗ Rr c)
  post c := iprop(StableHlo.held (c : Thread nD τ) (Pipeline.ucRefs τ sig) (B4 m c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KernelIdealSeg1.lean ====
/-
  Region 1 as one item of @main's run. Its first two windows are both the first point set: going in, the buffers behind
  the windows' arrays — four distinct ones — are taken out of the core's unscoped buffers and the point set's is split in
  two halves, one per window; the pipeline only reads it, so at the end both halves hold what they held and rejoin; the
  result array comes back at what the write-backs left.
-/
import proofs.«151589_j19816979103948_1_alg».proof.Proof.KernelIdealRunData
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind region 1's five windows. -/
theorem arrs1 : Finset.univ.image (Pipeline.arrRef spec1) = ({main_arg0, main_v2, main_v3, main_v7} : Finset (Ref sig .tc)) := by decide

/-- A window's array, held at its share at contents `f`, spelt over the buffer's reference. -/
theorem arr1_eq (c : Dev nD) (w : Fin 5) (f : Buf (Elt F) (((Pipeline.pin (pcfgs (F := F)) adm 1).win w).arr.view.loc (c.tc : Thread nD τ))) :
    (View.loc (c.tc : Thread nD τ) ((Pipeline.pin (pcfgs (F := F)) adm 1).win w).arr.view ↦[((Pipeline.pin (pcfgs (F := F)) adm 1).win w).arr.view.set]{(pdats m 1 c).share w} f : sProp 𝕄)
      = ((c.tc : Thread nD τ).loc (Pipeline.arrRef spec1 w) ↦{(pdats m 1 c).share w} f) := by
  have hw : ((Pipeline.pin (pcfgs (F := F)) adm 1).win w).arr.IsWhole := arr_whole1 w
  rw [hw.set_eq_univ]; rfl

set_option backward.isDefEq.respectTransparency.types false in
/-- ENTRY: the core's unscoped buffers at the entry contents are the pipeline's arrays — the point set's buffer in two
    halves — and the unscoped rest. -/
theorem arrays1_entry (c : Dev nD) :
    (unscopedBufs (Ix := Unit) (Name := ℕ) (U := UR sig nD τ) (Lvl := ℕ) c (E1 m c) : sProp 𝕄)
      ⊢ iprop((pdats m 1 c).arrays ((pdats m 1 c).arrAt · 0) ∗ Pipeline.unscopedRest (Ix := Unit) (Name := ℕ) (U := UR sig nD τ) (Lvl := ℕ) spec1 c (E1 m c)) := by
  rw [Pipeline.unscopedBufs_split₀ (Pipeline.pin (pcfgs (F := F)) adm) 1 winFacts₀1.arr_unscoped c (E1 m c)]
  refine sep_mono ?_ .rfl
  unfold Pipeline.arrBufs Pipeline.Dat.arrays
  rw [bigSep_W1, arr1_eq m c 0, arr1_eq m c 1, arr1_eq m c 2, arr1_eq m c 3, arr1_eq m c 4,
    show Finset.univ.image (Pipeline.arrRef (Pipeline.pin (pcfgs (F := F)) adm 1).spec) = ({main_arg0, main_v2, main_v3, main_v7} : Finset (Ref sig .tc)) from arrs1,
    bigSep_insert (by decide), bigSep_insert (by decide), bigSep_insert (by decide), bigSep_singleton]
  show iprop(((c.tc : Thread nD τ).loc main_arg0 ↦{fullShare} E1 m c main_arg0) ∗ ((c.tc : Thread nD τ).loc main_v2 ↦{fullShare} E1 m c main_v2)
      ∗ ((c.tc : Thread nD τ).loc main_v3 ↦{fullShare} E1 m c main_v3) ∗ ((c.tc : Thread nD τ).loc main_v7 ↦{fullShare} E1 m c main_v7)) ⊢ _
  iintro ⟨Hx, H2, H3, H7⟩
  ihave Hx' := (pointsTo_share (PosShare.mem_left_op_right fullShare)).1 $$ Hx
  icases Hx' with ⟨Hl, Hr⟩
  isplitl [Hl]; · iexact Hl
  isplitl [Hr]; · iexact Hr
  isplitl [H2]; · iexact H2
  isplitl [H3]; · iexact H3
  iexact H7

/-- At the region's end the proof data's array contents are the next boundary's. -/
theorem hF1' (c : Dev nD) (w : Fin 5) : (pdats m 1 c).arrAt w cfg1.N = E2 m c (Pipeline.arrRef spec1 w) := hF1 m c w

set_option backward.isDefEq.respectTransparency.types false in
/-- EXIT: the pipeline's arrays at their final contents — the point set's two halves rejoined — and the unscoped rest are
    the core's unscoped buffers at the next boundary's contents. -/
theorem arrays1_exit (c : Dev nD) :
    iprop((pdats m 1 c).arrays ((pdats m 1 c).arrAt · cfg1.N) ∗ Pipeline.unscopedRest (Ix := Unit) (Name := ℕ) (U := UR sig nD τ) (Lvl := ℕ) spec1 c (E1 m c))
      ⊢ (unscopedBufs (Ix := Unit) (Name := ℕ) (U := UR sig nD τ) (Lvl := ℕ) c (E2 m c) : sProp 𝕄) := by
  rw [Pipeline.unscopedBufs_split₀ (Pipeline.pin (pcfgs (F := F)) adm) 1 winFacts₀1.arr_unscoped c (E2 m c)]
  refine sep_mono ?_ (Entails.of_eq ?_)
  · unfold Pipeline.arrBufs Pipeline.Dat.arrays
    rw [bigSep_W1, arr1_eq m c 0, arr1_eq m c 1, arr1_eq m c 2, arr1_eq m c 3, arr1_eq m c 4,
      show Finset.univ.image (Pipeline.arrRef (Pipeline.pin (pcfgs (F := F)) adm 1).spec) = ({main_arg0, main_v2, main_v3, main_v7} : Finset (Ref sig .tc)) from arrs1,
      bigSep_insert (by decide), bigSep_insert (by decide), bigSep_insert (by decide), bigSep_singleton]
    beta_reduce
    rw [hF1' m c 0, hF1' m c 1, hF1' m c 2, hF1' m c 3, hF1' m c 4]
    show iprop(((c.tc : Thread nD τ).loc main_arg0 ↦{fullShare.left} E2 m c main_arg0) ∗ ((c.tc : Thread nD τ).loc main_arg0 ↦{fullShare.right} E2 m c main_arg0)
        ∗ ((c.tc : Thread nD τ).loc main_v2 ↦{fullShare} E2 m c main_v2) ∗ ((c.tc : Thread nD τ).loc main_v3 ↦{fullShare} E2 m c main_v3)
        ∗ ((c.tc : Thread nD τ).loc main_v7 ↦{fullShare} E2 m c main_v7))
      ⊢ iprop(((c.tc : Thread nD τ).loc main_arg0 ↦{fullShare} E2 m c main_arg0) ∗ ((c.tc : Thread nD τ).loc main_v2 ↦{fullShare} E2 m c main_v2)
        ∗ ((c.tc : Thread nD τ).loc main_v3 ↦{fullShare} E2 m c main_v3) ∗ ((c.tc : Thread nD τ).loc main_v7 ↦{fullShare} E2 m c main_v7))
    iintro ⟨Hl, Hr, H2, H3, H7⟩
    isplitl [Hl Hr]
    · iapply (pointsTo_share (PosShare.mem_left_op_right fullShare)).2
      isplitl [Hl] <;> iassumption
    isplitl [H2]; · iexact H2
    isplitl [H3]; · iexact H3
    iexact H7
  · unfold Pipeline.unscopedRest
    exact bigSep_congr fun b hb => by rw [hrest1 m c b (Finset.mem_sdiff.mp hb).2]

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Region1.body_obligation (E1 m) qHalves c).loose
  hwaits := Pipeline.hwaits_of_owed_zero _ _ _ _ L lv 1 fun _ _ => rfl
  pre c := iprop(StableHlo.held (c : Thread nD τ) (Pipeline.ucRefs τ sig) (B4 m c) ∗ Rr c)
  post c := iprop(StableHlo.held (c : Thread nD τ) (Pipeline.ucRefs τ sig) (B5 m c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := arrays1_entry m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_exit m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KernelIdealSeg2.lean ====
/-
  Region 2 as one item of @main's run: entered holding every unscoped buffer of the core at the contents the items
  before it left, it takes its windows' arrays out of them — distinct whole buffers —, runs its pipeline, and puts them back,
  the result array at what the write-backs left; the generator register goes into the pipeline's invariant and comes out.
-/
import proofs.«151589_j19816979103948_1_alg».proof.Proof.KernelIdealRunData
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (E2 m) qFull c).loose
  hwaits := Pipeline.hwaits_of_owed_zero _ _ _ _ L lv 2 fun _ _ => rfl
  pre c := iprop(StableHlo.held (c : Thread nD τ) (Pipeline.ucRefs τ sig) (B5 m c) ∗ Rr c)
  post c := iprop(StableHlo.held (c : Thread nD τ) (Pipeline.ucRefs τ sig) (B6 m c) ∗ Rr c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KernelIdealSeg3.lean ====
/-
  Region 3 as one item of @main's run: entered holding every unscoped buffer of the core at the contents the items
  before it left, it takes its windows' arrays out of them — distinct whole buffers —, runs its pipeline, and puts them back,
  the result array at what the write-backs left; the generator register goes into the pipeline's invariant and comes out.
-/
import proofs.«151589_j19816979103948_1_alg».proof.Proof.KernelIdealRunData
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Region3.body_obligation (E3 m) qFull c).loose
  hwaits := Pipeline.hwaits_of_owed_zero _ _ _ _ L lv 3 fun _ _ => rfl
  pre c := iprop(StableHlo.held (c : Thread nD τ) (Pipeline.ucRefs τ sig) (B6 m c) ∗ Rr c)
  post c := iprop(StableHlo.held (c : Thread nD τ) (Pipeline.ucRefs τ sig) (B7 m c) ∗ Rr c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (E4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KernelIdealRun.lean ====
/-
  The whole run of @main: its seven items — three stretches of host operations, then the four kernel regions — as the
  segments of one launch. Every weakly fair execution from a memory with zero counters terminates, nothing faulting, and the
  final memory holds every unscoped buffer of every core at the last boundary's contents: the three results as their pipelines'
  write-backs left them, each argument array as launched. Stated for every float instance.
-/
import proofs.«151589_j19816979103948_1_alg».proof.Proof.KernelIdealRunData
import proofs.«151589_j19816979103948_1_alg».proof.Proof.KernelIdealSeg0
import proofs.«151589_j19816979103948_1_alg».proof.Proof.KernelIdealSeg1
import proofs.«151589_j19816979103948_1_alg».proof.Proof.KernelIdealSeg2
import proofs.«151589_j19816979103948_1_alg».proof.Proof.KernelIdealSeg3
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What rides beside the buffers is the same through every item. -/
abbrev Ej : Fin 5 → Dev nD → sProp 𝕄 := fun _ c => Rr c

set_option backward.isDefEq.respectTransparency.types false in
/-- THE RUN: every unscoped buffer ends at the last boundary's contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = B7 m c b) := by
  refine Pipeline.θ_run_regions_kit_dev (pcfgs (F := F)) adm (pdats m) () cellOf_inj emb₁ defs₀ 𝒱₀ L lv m ρ main
    (segs m 𝒱₀ L lv Ej () (pdats m) (reg0 m) (reg1 m) (reg2 m) (reg3 m))
    (fun c Q => by
      rewrite [main_chain c, Pipeline.Seg.run_eq_chain,
        show (segs m 𝒱₀ L lv Ej () (pdats m) (reg0 m) (reg1 m) (reg2 m) (reg3 m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (B7 m c) ∗ ∃ r, prngReg c r))
    (hch := fun c => ⟨.rfl, .rfl, .rfl, .rfl, .rfl, .rfl, .rfl,
      (show iprop(StableHlo.held (c : Thread nD τ) (Pipeline.ucRefs τ sig) (B7 m c) ∗ Rr c)
          ⊢ (iprop((StableHlo.held (c : Thread nD τ) (Pipeline.ucRefs τ sig) (B7 m c) ∗ ∃ r, prngReg c r)
            ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun _ h => h)

/-! ## The arguments end as launched, the results as their regions left them -/

theorem B7_main_arg0 (c : Dev nD) : B7 m c main_arg0 = m ((c : Thread nD τ).loc main_arg0) :=
  (B7_of_ne m c main_arg0 (by decide)).trans <| (B6_of_ne m c main_arg0 (by decide)).trans <| (B5_of_ne m c main_arg0 (by decide)).trans <| (B4_of_ne m c main_arg0 (by decide)).trans <|
    (V3_of m c main_arg0 (by decide)).trans <| (V2_of m c main_arg0 (by decide)).trans <| (V1_of m c main_arg0 (by decide)).trans rfl
theorem B7_main_arg1 (c : Dev nD) : B7 m c main_arg1 = m ((c : Thread nD τ).loc main_arg1) :=
  (B7_of_ne m c main_arg1 (by decide)).trans <| (B6_of_ne m c main_arg1 (by decide)).trans <| (B5_of_ne m c main_arg1 (by decide)).trans <| (B4_of_ne m c main_arg1 (by decide)).trans <|
    (V3_of m c main_arg1 (by decide)).trans <| (V2_of m c main_arg1 (by decide)).trans <| (V1_of m c main_arg1 (by decide)).trans rfl
theorem B7_main_arg2 (c : Dev nD) : B7 m c main_arg2 = m ((c : Thread nD τ).loc main_arg2) :=
  (B7_of_ne m c main_arg2 (by decide)).trans <| (B6_of_ne m c main_arg2 (by decide)).trans <| (B5_of_ne m c main_arg2 (by decide)).trans <| (B4_of_ne m c main_arg2 (by decide)).trans <|
    (V3_of m c main_arg2 (by decide)).trans <| (V2_of m c main_arg2 (by decide)).trans <| (V1_of m c main_arg2 (by decide)).trans rfl
theorem B7_main_arg3 (c : Dev nD) : B7 m c main_arg3 = m ((c : Thread nD τ).loc main_arg3) :=
  (B7_of_ne m c main_arg3 (by decide)).trans <| (B6_of_ne m c main_arg3 (by decide)).trans <| (B5_of_ne m c main_arg3 (by decide)).trans <| (B4_of_ne m c main_arg3 (by decide)).trans <|
    (V3_of m c main_arg3 (by decide)).trans <| (V2_of m c main_arg3 (by decide)).trans <| (V1_of m c main_arg3 (by decide)).trans rfl

theorem B7_main_v6 (c : Dev nD) : B7 m c main_v6 = o0 m c :=
  (B7_of_ne m c main_v6 (by decide)).trans <| (B6_of_ne m c main_v6 (by decide)).trans <| (B5_of_ne m c main_v6 (by decide)).trans (B4_out m c)
theorem B7_main_v8 (c : Dev nD) : B7 m c main_v8 = o2 m c :=
  (B7_of_ne m c main_v8 (by decide)).trans (B6_out m c)
theorem B7_main_v9 (c : Dev nD) : B7 m c main_v9 = o3 m c := B7_out m c

/-- THE RUN, the certificate's buffers by name: the three results, then the four arguments unchanged. -/
theorem run : θ_run defs (onTc (τ := τ) (main (F := F))) ⟨m, fun _ => 0, ρ⟩ (fun r => ∀ c : Dev nD,
      r.2.mem ((c.tc : Thread nD τ).loc main_v6) = o0 m c
      ∧ r.2.mem ((c.tc : Thread nD τ).loc main_v8) = o2 m c
      ∧ r.2.mem ((c.tc : Thread nD τ).loc main_v9) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v6 (by decide))).trans (B7_main_v6 m c),
     (h c _ (mem_uc main_v8 (by decide))).trans (B7_main_v8 m c),
     (h c _ (mem_uc main_v9 (by decide))).trans (B7_main_v9 m c),
     (h c _ (mem_uc main_arg0 (by decide))).trans (B7_main_arg0 m c),
     (h c _ (mem_uc main_arg1 (by decide))).trans (B7_main_arg1 m c),
     (h c _ (mem_uc main_arg2 (by decide))).trans (B7_main_arg2 m c),
     (h c _ (mem_uc main_arg3 (by decide))).trans (B7_main_arg3 m c)⟩) (run_named m ρ)

/-- The frame: the run terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2.2.2) (run m ρ)

end Cert.KernelIdeal.Run

end
-- ==== Proof.KernelPayloadsPairwise.lean ====
/-
  The pairwise kernel's stored block read at an index: variance times the exponential of minus a quarter of the
  squared distance between the scaled rows, the three sums written out over the sixteen coordinates.
-/
import proofs.«151589_j19816979103948_1_alg».proof.Proof.Gen.KernelIdeal.Skeleton
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.KernelIdeal.Payloads

open scoped BigOperators
open Idealize.ShloMosaic Idealize.ShloMosaic.ValueIdx Cert.KernelIdeal

/-! ## Layout operations read at an index given by coordinates -/

section Layout
variable {α : Type}

/-- A column [a, 1] broadcast to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array broadcast to [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An [a] array cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The entry (0, 0) extracted from a [1, 1] array. -/
theorem extractAt_00_11 (v : (⟨2, ![1, 1]⟩ : Shape).Idx → α)
    (h : ∀ ax, (![0, 0] : Fin 2 → Nat) ax < (⟨2, ![1, 1]⟩ : Shape).size ax) :
    extractAt ![0, 0] v h = v (ix2 (0 : Fin 1) (0 : Fin 1)) :=
  congrArg v (funext fun ax => by
    match ax with
    | ⟨0, _⟩ => rfl
    | ⟨1, _⟩ => rfl)

end Layout

/-! ## Sums: a row sum and a matrix product read at an index -/

/-- The sum over the columns of an [a, b] array, read at row r: the sum of the row's b entries. -/
theorem multiReduction_add_rows {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax; apply Fin.ext
  match ax with
  | ⟨0, _⟩ => rfl
  | ⟨1, _⟩ => rfl

/-- An [m, k] by [k, n] product into a zero accumulator, read at (a, b): the sum over the contracted
    coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-! ## The pairwise kernel's stored value at an index

With A n k = X[n, k] / ls[k] and B m k = X2[m, k] / ls[k], the stored [512, 512] block is, at (n, m),
    var * exp (-0.25 * ((∑ k, A n k * A n k - 2 * ∑ k, A n k * B m k) + ∑ k, B m k * B m k)):
the two row sums of squares are lane sums broadcast along a row and along a column, the cross term is
the product of A with the transpose of B. -/

/-- A quotient by a row vector broadcast over the rows, read at (n, k). -/
theorem div_row_apply {a b : ℕ} (x : FVec Ideal ⟨2, ![a, b]⟩ .f32) (v : FVec Ideal ⟨2, ![1, b]⟩ .f32)
    (hs : (⟨2, ![1, b]⟩ : Shape).ShapeCasts ⟨2, ![1, b]⟩) (hb : (⟨2, ![1, b]⟩ : Shape).Broadcasts ⟨2, ![a, b]⟩)
    (n : Fin a) (k : Fin b) :
    divf x (broadcastTo ⟨2, ![a, b]⟩ (shapeCast ⟨2, ![1, b]⟩ v hs) hb) (ix2 n k)
      = Ideal.div (x (ix2 n k)) (v (ix2 (0 : Fin 1) k)) := by
  show Ideal.div (x (ix2 n k)) (broadcastTo ⟨2, ![a, b]⟩ (shapeCast ⟨2, ![1, b]⟩ v hs) hb (ix2 n k)) = _
  rw [broadcastTo_1b_ab_apply, shapeCast_self]

/-- A row sum, kept as a column and broadcast along the rows of an [a, c] array: at (n, m) the sum of row n. -/
theorem rowsum_col_apply {a b c : ℕ} (w : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hs : (⟨1, ![a]⟩ : Shape).ShapeCasts ⟨2, ![a, 1]⟩) (hb : (⟨2, ![a, 1]⟩ : Shape).Broadcasts ⟨2, ![a, c]⟩)
    (n : Fin a) (m : Fin c) :
    broadcastTo ⟨2, ![a, c]⟩ (shapeCast ⟨2, ![a, 1]⟩ (multiReduction .add [1] ⟨1, ![a]⟩ w 0x00000000#32 h hφ hacc) hs) hb
        (ix2 n m)
      = ∑ k : Fin b, w (ix2 n k) :=
  (broadcastTo_a1_ab_apply _ hb n m).trans
    ((shapeCast_a_a1_apply _ hs n 0).trans (multiReduction_add_rows w h hφ hacc n))

/-- A row sum, kept as a column, transposed to a row and broadcast along the columns of a [c, a] array: at
    (n, m) the sum of row m. -/
theorem rowsum_row_apply {a b c : ℕ} (w : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hs : (⟨1, ![a]⟩ : Shape).ShapeCasts ⟨2, ![a, 1]⟩) (ht : (⟨2, ![a, 1]⟩ : Shape).Transposes [1, 0] ⟨2, ![1, a]⟩)
    (hb : (⟨2, ![1, a]⟩ : Shape).Broadcasts ⟨2, ![c, a]⟩) (n : Fin c) (m : Fin a) :
    broadcastTo ⟨2, ![c, a]⟩
        (transpose ⟨2, ![1, a]⟩ [1, 0]
          (shapeCast ⟨2, ![a, 1]⟩ (multiReduction .add [1] ⟨1, ![a]⟩ w 0x00000000#32 h hφ hacc) hs) ht) hb (ix2 n m)
      = ∑ k : Fin b, w (ix2 m k) :=
  (broadcastTo_1b_ab_apply _ hb n m).trans
    ((transpose_ix2_apply _ ht 0 m).trans
      ((shapeCast_a_a1_apply _ hs m 0).trans (multiReduction_add_rows w h hφ hacc m)))

/-- The product of an [m, k] array with the transpose of an [n, k] array, into a zero accumulator, read at
    (a, b): the sum over k of the products of row a of the first and row b of the second. -/
theorem gram_apply {m k n : ℕ} (prec : Option ContractPrecision) (A : FVec Ideal ⟨2, ![m, k]⟩ .f32)
    (B : FVec Ideal ⟨2, ![n, k]⟩ .f32) (ht : (⟨2, ![n, k]⟩ : Shape).Transposes [1, 0] ⟨2, ![k, n]⟩)
    (a : Fin m) (b : Fin n) :
    matmul (DotDims.plain m k n) prec A (transpose ⟨2, ![k, n]⟩ [1, 0] B ht)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B ht c b))

/-- The pointwise frame of the stored value: scale * exp (cq * ((T1 - c2 * T2) + T3)) read at an index, the
    four non-pointwise operands named by what they read there. -/
theorem pairwise_assemble (S : EReal) (T1 T2 T3 : FVec Ideal S512x512 .f32) (j : S512x512.Idx) (cq c2 : BitVec 32)
    (s t1 t2 t3 : EReal) (hS : S = s) (h1 : T1 j = t1) (h2 : T2 j = t2) (h3 : T3 j = t3) :
    mulf (broadcast S512x512 (S : Ideal .f32))
        (exp (mulf (broadcast S512x512 (Scalar.ofBits (F := Ideal) .f32 cq))
          (addf (subf T1 (mulf (broadcast S512x512 (Scalar.ofBits (F := Ideal) .f32 c2)) T2)) T3))) j
      = s * Ideal.exp (Ideal.ofBits .f32 cq * ((t1 - Ideal.ofBits .f32 c2 * t2) + t3)) := by
  subst hS h1 h2 h3; rfl

/-- THE PAIRWISE PAYLOAD AT (n, m). -/
theorem k0_pay1_apply (v0 : Vec Ideal S1x16 .f32) (v2 : Vec Ideal S1x1 .f32) (v4 v7 : Vec Ideal S512x16 .f32)
    (n m : Fin 512) :
    Gen.k0_pay1 (F := Ideal) v0 v2 v4 v7 (ix2 n m)
      = v2 (ix2 (0 : Fin 1) (0 : Fin 1))
        * Ideal.exp (Ideal.ofBits .f32 0xBE800000#32
          * (((∑ k : Fin 16, Ideal.div (v4 (ix2 n k)) (v0 (ix2 (0 : Fin 1) k)) * Ideal.div (v4 (ix2 n k)) (v0 (ix2 (0 : Fin 1) k)))
              - Ideal.ofBits .f32 0x40000000#32
                * ∑ k : Fin 16, Ideal.div (v4 (ix2 n k)) (v0 (ix2 (0 : Fin 1) k)) * Ideal.div (v7 (ix2 m k)) (v0 (ix2 (0 : Fin 1) k)))
            + ∑ k : Fin 16, Ideal.div (v7 (ix2 m k)) (v0 (ix2 (0 : Fin 1) k)) * Ideal.div (v7 (ix2 m k)) (v0 (ix2 (0 : Fin 1) k)))) := by
  refine pairwise_assemble _ _ _ _ _ _ _ _ _ _ _ (extractAt_00_11 v2 _) ?_ ?_ ?_
  · refine (rowsum_col_apply _ _ _ _ _ _ n m).trans (Finset.sum_congr rfl fun k _ => ?_)
    exact congrArg₂ (· * ·) (div_row_apply v4 v0 _ _ n k) (div_row_apply v4 v0 _ _ n k)
  · refine (gram_apply none _ _ _ n m).trans (Finset.sum_congr rfl fun k _ => ?_)
    exact congrArg₂ (· * ·) (div_row_apply v4 v0 _ _ n k) (div_row_apply v7 v0 _ _ m k)
  · refine (rowsum_row_apply _ _ _ _ _ _ _ n m).trans (Finset.sum_congr rfl fun k _ => ?_)
    exact congrArg₂ (· * ·) (div_row_apply v7 v0 _ _ m k) (div_row_apply v7 v0 _ _ m k)

/-- The second pairwise kernel's payload is the same function. -/
theorem k1_pay1_eq : @Gen.k1_pay1 Ideal _ = @Gen.k0_pay1 Ideal _ := rfl

/-- THE SECOND PAIRWISE PAYLOAD AT (n, m). -/
theorem k1_pay1_apply (v0 : Vec Ideal S1x16 .f32) (v2 : Vec Ideal S1x1 .f32) (v4 v7 : Vec Ideal S512x16 .f32)
    (n m : Fin 512) :
    Gen.k1_pay1 (F := Ideal) v0 v2 v4 v7 (ix2 n m)
      = v2 (ix2 (0 : Fin 1) (0 : Fin 1))
        * Ideal.exp (Ideal.ofBits .f32 0xBE800000#32
          * (((∑ k : Fin 16, Ideal.div (v4 (ix2 n k)) (v0 (ix2 (0 : Fin 1) k)) * Ideal.div (v4 (ix2 n k)) (v0 (ix2 (0 : Fin 1) k)))
              - Ideal.ofBits .f32 0x40000000#32
                * ∑ k : Fin 16, Ideal.div (v4 (ix2 n k)) (v0 (ix2 (0 : Fin 1) k)) * Ideal.div (v7 (ix2 m k)) (v0 (ix2 (0 : Fin 1) k)))
            + ∑ k : Fin 16, Ideal.div (v7 (ix2 m k)) (v0 (ix2 (0 : Fin 1) k)) * Ideal.div (v7 (ix2 m k)) (v0 (ix2 (0 : Fin 1) k)))) :=
  (congrFun (congrFun (congrFun (congrFun (congrFun k1_pay1_eq v0) v2) v4) v7) (ix2 n m)).trans (k0_pay1_apply v0 v2 v4 v7 n m)

end Cert.KernelIdeal.Payloads

end
-- ==== Proof.ClosedForms.lean ====
/-
  The three results as the kernel's arithmetic states them, index by index, over the extended reals: for point sets
  X, X2 (512 points of 16 coordinates), positive length scales l and a variance v,
    K[n, m]                = v · exp(-¼ · ((Σₖ Aₙₖ² − 2 · Σₖ Aₙₖ Bₘₖ) + Σₖ Bₘₖ²)),   A = X / l,  B = X2 / l   (coordinate by coordinate),
    grad[d·512 + n, m]     = ((-½ / l_d²) · (X[n,d] − X2[m,d])) · K[n, m],
    hess[a·512+i, b·512+j] = K(X, X)[i, j] · (δ_ab · (½ · (1 / l_a²)) − (¼ · ((X[i,a] − X[j,a]) · (1 / l_a²))) · ((X[i,b] − X[j,b]) · (1 / l_b²))).
  The float literals are kept as their binary words; the quotient is the extended reals' (by zero: an infinity or the junk value).
-/
import Idealize.ShloMosaic.PureOps.Ideal
import Idealize.ShloMosaic.Lib.ValueIdx

noncomputable section

open scoped BigOperators

namespace Cert.ClosedForms

open Idealize.ShloMosaic Idealize.ShloMosaic.ValueIdx

/-- An array of 512 points of 16 coordinates. -/
abbrev Pts : Type := (⟨2, ![512, 16]⟩ : Shape).Idx → EReal

abbrev c2 : EReal := Ideal.ofBits .f32 0x40000000#32
abbrev cq : EReal := Ideal.ofBits .f32 0xBE800000#32
abbrev ch : EReal := Ideal.ofBits .f32 0xBF000000#32
abbrev c1 : EReal := Ideal.ofBits .f32 0x3F800000#32
abbrev c05 : EReal := Ideal.ofBits .f32 0x3F000000#32
abbrev c025 : EReal := Ideal.ofBits .f32 0x3E800000#32
abbrev cz : EReal := Ideal.ofBits .f32 0x00000000#32

/-- A point's coordinate over its length scale. -/
def sc (X : Pts) (l : Fin 16 → EReal) (n : Fin 512) (k : Fin 16) : EReal := Ideal.div (X (ix2 n k)) (l k)

/-- The kernel matrix of two point sets. -/
def kerK (X X2 : Pts) (l : Fin 16 → EReal) (v : EReal) (n m : Fin 512) : EReal :=
  v * Ideal.exp (cq * (((∑ k : Fin 16, sc X l n k * sc X l n k) - c2 * (∑ k : Fin 16, sc X l n k * sc X2 l m k))
    + ∑ k : Fin 16, sc X2 l m k * sc X2 l m k))

/-- Its gradient in the first point's coordinate `d`. -/
def kerG (X X2 : Pts) (l : Fin 16 → EReal) (v : EReal) (d : Fin 16) (n m : Fin 512) : EReal :=
  (Ideal.div ch (l d * l d) * (X (ix2 n d) - X2 (ix2 m d))) * kerK X X2 l v n m

/-- The negated Hessian block `(a, b)` of the point set against itself. -/
def kerH (X : Pts) (l : Fin 16 → EReal) (v : EReal) (a : Fin 16) (i : Fin 512) (b : Fin 16) (j : Fin 512) : EReal :=
  kerK X X l v i j * ((if a = b then c05 * Ideal.div c1 (l a * l a) else cz)
    - (c025 * ((X (ix2 i a) - X (ix2 j a)) * Ideal.div c1 (l a * l a))) * ((X (ix2 i b) - X (ix2 j b)) * Ideal.div c1 (l b * l b)))

end Cert.ClosedForms

end
-- ==== Proof.ClosedArrays.lean ====
/-
  The three results as whole arrays: entry (n, m) of the 512×512 kernel matrix; entry (d·512 + n, m) of the 8192×512
  gradient; entry (a·512 + i, b·512 + j) of the 8192×8192 Hessian — a row or column index below 8192 read as its quotient
  and remainder by 512.
-/
import proofs.«151589_j19816979103948_1_alg».proof.Proof.ClosedForms

noncomputable section

namespace Cert.ClosedForms

open Idealize.ShloMosaic Idealize.ShloMosaic.ValueIdx

/-- The block a row (or column) below 8192 lies in, -/
def rowD (r : Fin 8192) : Fin 16 := ⟨r.val / 512, by have := r.isLt; omega⟩
/-- and its place inside the block. -/
def rowN (r : Fin 8192) : Fin 512 := ⟨r.val % 512, Nat.mod_lt _ (by decide)⟩

theorem rowD_mk (d : Fin 16) (n : Fin 512) (h : d.val * 512 + n.val < 8192) : rowD ⟨d.val * 512 + n.val, h⟩ = d := by
  apply Fin.ext; show (d.val * 512 + n.val) / 512 = d.val; have := n.isLt; omega
theorem rowN_mk (d : Fin 16) (n : Fin 512) (h : d.val * 512 + n.val < 8192) : rowN ⟨d.val * 512 + n.val, h⟩ = n := by
  apply Fin.ext; show (d.val * 512 + n.val) % 512 = n.val; have := n.isLt; omega
theorem row_eq (r : Fin 8192) : r = ⟨(rowD r).val * 512 + (rowN r).val, by have := r.isLt; show r.val / 512 * 512 + r.val % 512 < 8192; omega⟩ := by
  apply Fin.ext; show r.val = r.val / 512 * 512 + r.val % 512; omega

def arrK (X X2 : Pts) (l : Fin 16 → EReal) (v : EReal) : (⟨2, ![512, 512]⟩ : Shape).Idx → EReal :=
  fun i => kerK X X2 l v (i 0) (i 1)
def arrG (X X2 : Pts) (l : Fin 16 → EReal) (v : EReal) : (⟨2, ![8192, 512]⟩ : Shape).Idx → EReal :=
  fun i => kerG X X2 l v (rowD (i 0)) (rowN (i 0)) (i 1)
def arrH (X : Pts) (l : Fin 16 → EReal) (v : EReal) : (⟨2, ![8192, 8192]⟩ : Shape).Idx → EReal :=
  fun i => kerH X l v (rowD (i 0)) (rowN (i 0)) (rowD (i 1)) (rowN (i 1))

end Cert.ClosedForms

end
-- ==== Proof.KernelIdealValue01.lean ====
/-
  Region 0's result array, read: the pipeline has one grid point, every window's block is its whole array, and the body's
  one store is the pairwise arithmetic of the four blocks — so the 512×512 array the region leaves is, entry by entry, the
  kernel matrix of the two point sets as the region finds them, over the length scales and the variance it finds in the
  two small buffers. The same for region 1, whose two point sets are one.
-/
import proofs.«151589_j19816979103948_1_alg».proof.Proof.KernelIdealRunData
import proofs.«151589_j19816979103948_1_alg».proof.Proof.KernelPayloadsPairwise
import proofs.«151589_j19816979103948_1_alg».proof.Proof.ClosedArrays
import Idealize.ShloMosaic.Lib.Pipeline.Value
import Idealize.ShloMosaic.Lib.ValueIdx

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem
open Idealize.ShloMosaic.Pipeline (Dat)
open Idealize.SL Idealize.SL.RA

theorem hz : (![0, 0] : Fin 2 → Nat) = fun _ => 0 := funext fun a => by fin_cases a <;> rfl

variable (V : (c : Dev nD) → (b : Ref sig .tc) → Buf (Elt Ideal) ((c : Thread nD τ).loc b))

/-! ## Region 0 -/

/-- Every window's block index is zero at the one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Each input block is its array. -/
theorem iblk0_0 (c : Dev nD) (t : Fin cfg0.N) (n : Fin 512) (k : Fin 16) : Region0.iblk V c 0 t (ix2 n k) = V c main_arg0 (ix2 n k) := by
  obtain ⟨e0, e1, -⟩ := idx0 t
  show V c main_arg0 (((cfg0.win 0).blk t).view.emb (ix2 n k)) = V c main_arg0 (ix2 n k)
  refine congrArg _ (funext fun a => Fin.ext ?_)
  match a with
  | ⟨0, _⟩ => show win0_0.index t (0 : Fin 2) * 512 + 1 * n.val = n.val; omega
  | ⟨1, _⟩ => show win0_0.index t (1 : Fin 2) * 16 + 1 * k.val = k.val; omega
theorem iblk0_1 (c : Dev nD) (t : Fin cfg0.N) (n : Fin 512) (k : Fin 16) : Region0.iblk V c 1 t (ix2 n k) = V c main_arg1 (ix2 n k) := by
  obtain ⟨-, -, e0, e1, -⟩ := idx0 t
  show V c main_arg1 (((cfg0.win 1).blk t).view.emb (ix2 n k)) = V c main_arg1 (ix2 n k)
  refine congrArg _ (funext fun a => Fin.ext ?_)
  match a with
  | ⟨0, _⟩ => show win0_1.index t (0 : Fin 2) * 512 + 1 * n.val = n.val; omega
  | ⟨1, _⟩ => show win0_1.index t (1 : Fin 2) * 16 + 1 * k.val = k.val; omega
theorem iblk0_2 (c : Dev nD) (t : Fin cfg0.N) (k : Fin 16) : Region0.iblk V c 2 t (ix2 (0 : Fin 1) k) = V c main_v2 (ix2 (0 : Fin 1) k) := by
  obtain ⟨-, -, -, -, e0, e1, -⟩ := idx0 t
  show V c main_v2 (((cfg0.win 2).blk t).view.emb (ix2 (0 : Fin 1) k)) = V c main_v2 (ix2 (0 : Fin 1) k)
  refine congrArg _ (funext fun a => Fin.ext ?_)
  match a with
  | ⟨0, _⟩ => show win0_2.index t (0 : Fin 2) * 1 + 1 * 0 = 0; omega
  | ⟨1, _⟩ => show win0_2.index t (1 : Fin 2) * 16 + 1 * k.val = k.val; omega
theorem iblk0_3 (c : Dev nD) (t : Fin cfg0.N) : Region0.iblk V c 3 t (ix2 (0 : Fin 1) (0 : Fin 1)) = V c main_v3 (ix2 (0 : Fin 1) (0 : Fin 1)) := by
  obtain ⟨-, -, -, -, -, -, e0, e1, -⟩ := idx0 t
  show V c main_v3 (((cfg0.win 3).blk t).view.emb (ix2 (0 : Fin 1) (0 : Fin 1))) = V c main_v3 (ix2 (0 : Fin 1) (0 : Fin 1))
  refine congrArg _ (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

/-- The kernel matrix of the arrays the region finds. -/
abbrev G0 (c : Dev nD) : S512x512.Idx → EReal :=
  Cert.ClosedForms.arrK (V c main_arg0) (V c main_arg1) (fun k => V c main_v2 (ix2 (0 : Fin 1) k)) (V c main_v3 (ix2 (0 : Fin 1) (0 : Fin 1)))

/-- What the point writes back is the (one) block of `G0`. -/
theorem flushed0_eq (q : Fin cfg0.W → PosShare TreeShare) (c : Dev nD) (t : Fin cfg0.N) :
    (Region0.dat (F := Ideal) V q c).flushed 4 t = ((cfg0.win 4).blk t).view.read (Elt Ideal) (G0 V c) := by
  show (cfg0.win 4).cut (grid0.coords t) ((Region0.dat (F := Ideal) V q c).after 4 t) = _
  rw [Region0.after_4]
  unfold Region0.out
  rw [View.canon_unit_zero hz]
  simp only [View.ld_unit_zero (S := S512x16) hz, View.ld_unit_zero (S := S1x16) hz, View.ld_unit_zero (S := S1x1) hz]
  funext j
  obtain ⟨n, m', rfl⟩ : ∃ (n : Fin 512) (m' : Fin 512), j = ix2 n m' := ⟨j 0, j 1, eq_ix2 j⟩
  obtain ⟨-, -, -, -, -, -, -, -, e0, e1⟩ := idx0 t
  have hemb : ((cfg0.win 4).blk t).view.emb (ix2 n m') = ix2 n m' := by
    funext a; apply Fin.ext
    match a with
    | ⟨0, _⟩ => show win0_4.index t (0 : Fin 2) * 512 + 1 * n.val = n.val; omega
    | ⟨1, _⟩ => show win0_4.index t (1 : Fin 2) * 512 + 1 * m'.val = m'.val; omega
  show Gen.k0_pay1 (F := Ideal) (Region0.iblk V c 2 t) (Region0.iblk V c 3 t) (Region0.iblk V c 0 t) (Region0.iblk V c 1 t) (ix2 n m')
    = G0 V c (((cfg0.win 4).blk t).view.emb (ix2 n m'))
  rw [hemb]
  refine (Cert.KernelIdeal.Payloads.k0_pay1_apply (Region0.iblk V c 2 t) (Region0.iblk V c 3 t) (Region0.iblk V c 0 t) (Region0.iblk V c 1 t) n m').trans ?_
  simp only [iblk0_0, iblk0_1, iblk0_2, iblk0_3]
  rfl

/-- An index of the result array is in the point's block iff each coordinate is in the block's range. -/
theorem mem_blk0 (t : Fin cfg0.N) (i : S512x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v6).slice (win0_4.rect t)).set ↔ _
  rw [View.set_slice_whole, Rect.mem_set_unit]
  exact Iff.rfl

/-- The one block covers the array. -/
theorem cover0 (i : S512x512.Idx) : ∃ t : Fin cfg0.N, (cfg0.win 4).flush t = true ∧ i ∈ ((cfg0.win 4).blk t).view.set := by
  refine ⟨t0_0, flush0_4 _, ?_⟩
  rw [mem_blk0]
  obtain ⟨-, -, -, -, -, -, -, -, e0, e1⟩ := idx0 t0_0
  intro a
  match a with
  | ⟨0, _⟩ => show win0_4.index t0_0 (0 : Fin 2) * 512 ≤ (i 0).val ∧ (i 0).val < win0_4.index t0_0 (0 : Fin 2) * 512 + 512; have := (i 0).isLt; have h512 : (i 0).val < 512 := this; omega
  | ⟨1, _⟩ => show win0_4.index t0_0 (1 : Fin 2) * 512 ≤ (i 1).val ∧ (i 1).val < win0_4.index t0_0 (1 : Fin 2) * 512 + 512; have := (i 1).isLt; have h512 : (i 1).val < 512 := this; omega

/-- THE ARRAY the region leaves: the kernel matrix of what it found. -/
theorem final0 (q : Fin cfg0.W → PosShare TreeShare) (c : Dev nD) : (Region0.dat (F := Ideal) V q c).arrAt 4 cfg0.N = G0 V c :=
  (Region0.dat (F := Ideal) V q c).arrAt_eq_of_cover 4 (G0 V c) (fun t _ => flushed0_eq V q c t) (cover0)

/-! ## Region 1 -/

/-- Every window's block index is zero at the one point. -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Each input block is its array. -/
theorem iblk1_0 (c : Dev nD) (t : Fin cfg1.N) (n : Fin 512) (k : Fin 16) : Region1.iblk V c 0 t (ix2 n k) = V c main_arg0 (ix2 n k) := by
  obtain ⟨e0, e1, -⟩ := idx1 t
  show V c main_arg0 (((cfg1.win 0).blk t).view.emb (ix2 n k)) = V c main_arg0 (ix2 n k)
  refine congrArg _ (funext fun a => Fin.ext ?_)
  match a with
  | ⟨0, _⟩ => show win1_0.index t (0 : Fin 2) * 512 + 1 * n.val = n.val; omega
  | ⟨1, _⟩ => show win1_0.index t (1 : Fin 2) * 16 + 1 * k.val = k.val; omega
theorem iblk1_1 (c : Dev nD) (t : Fin cfg1.N) (n : Fin 512) (k : Fin 16) : Region1.iblk V c 1 t (ix2 n k) = V c main_arg0 (ix2 n k) := by
  obtain ⟨-, -, e0, e1, -⟩ := idx1 t
  show V c main_arg0 (((cfg1.win 1).blk t).view.emb (ix2 n k)) = V c main_arg0 (ix2 n k)
  refine congrArg _ (funext fun a => Fin.ext ?_)
  match a with
  | ⟨0, _⟩ => show win1_1.index t (0 : Fin 2) * 512 + 1 * n.val = n.val; omega
  | ⟨1, _⟩ => show win1_1.index t (1 : Fin 2) * 16 + 1 * k.val = k.val; omega
theorem iblk1_2 (c : Dev nD) (t : Fin cfg1.N) (k : Fin 16) : Region1.iblk V c 2 t (ix2 (0 : Fin 1) k) = V c main_v2 (ix2 (0 : Fin 1) k) := by
  obtain ⟨-, -, -, -, e0, e1, -⟩ := idx1 t
  show V c main_v2 (((cfg1.win 2).blk t).view.emb (ix2 (0 : Fin 1) k)) = V c main_v2 (ix2 (0 : Fin 1) k)
  refine congrArg _ (funext fun a => Fin.ext ?_)
  match a with
  | ⟨0, _⟩ => show win1_2.index t (0 : Fin 2) * 1 + 1 * 0 = 0; omega
  | ⟨1, _⟩ => show win1_2.index t (1 : Fin 2) * 16 + 1 * k.val = k.val; omega
theorem iblk1_3 (c : Dev nD) (t : Fin cfg1.N) : Region1.iblk V c 3 t (ix2 (0 : Fin 1) (0 : Fin 1)) = V c main_v3 (ix2 (0 : Fin 1) (0 : Fin 1)) := by
  obtain ⟨-, -, -, -, -, -, e0, e1, -⟩ := idx1 t
  show V c main_v3 (((cfg1.win 3).blk t).view.emb (ix2 (0 : Fin 1) (0 : Fin 1))) = V c main_v3 (ix2 (0 : Fin 1) (0 : Fin 1))
  refine congrArg _ (funext fun a => Fin.ext ?_)
  match a with
  | ⟨0, _⟩ => show win1_3.index t (0 : Fin 2) * 1 + 1 * 0 = 0; omega
  | ⟨1, _⟩ => show win1_3.index t (1 : Fin 2) * 1 + 1 * 0 = 0; omega

/-- The kernel matrix of the arrays the region finds. -/
abbrev G1 (c : Dev nD) : S512x512.Idx → EReal :=
  Cert.ClosedForms.arrK (V c main_arg0) (V c main_arg0) (fun k => V c main_v2 (ix2 (0 : Fin 1) k)) (V c main_v3 (ix2 (0 : Fin 1) (0 : Fin 1)))

/-- What the point writes back is the (one) block of `G1`. -/
theorem flushed1_eq (q : Fin cfg1.W → PosShare TreeShare) (c : Dev nD) (t : Fin cfg1.N) :
    (Region1.dat (F := Ideal) V q c).flushed 4 t = ((cfg1.win 4).blk t).view.read (Elt Ideal) (G1 V c) := by
  show (cfg1.win 4).cut (grid1.coords t) ((Region1.dat (F := Ideal) V q c).after 4 t) = _
  rw [Region1.after_4]
  unfold Region1.out
  rw [View.canon_unit_zero hz]
  simp only [View.ld_unit_zero (S := S512x16) hz, View.ld_unit_zero (S := S1x16) hz, View.ld_unit_zero (S := S1x1) hz]
  funext j
  obtain ⟨n, m', rfl⟩ : ∃ (n : Fin 512) (m' : Fin 512), j = ix2 n m' := ⟨j 0, j 1, eq_ix2 j⟩
  obtain ⟨-, -, -, -, -, -, -, -, e0, e1⟩ := idx1 t
  have hemb : ((cfg1.win 4).blk t).view.emb (ix2 n m') = ix2 n m' := by
    funext a; apply Fin.ext
    match a with
    | ⟨0, _⟩ => show win1_4.index t (0 : Fin 2) * 512 + 1 * n.val = n.val; omega
    | ⟨1, _⟩ => show win1_4.index t (1 : Fin 2) * 512 + 1 * m'.val = m'.val; omega
  show Gen.k1_pay1 (F := Ideal) (Region1.iblk V c 2 t) (Region1.iblk V c 3 t) (Region1.iblk V c 0 t) (Region1.iblk V c 1 t) (ix2 n m')
    = G1 V c (((cfg1.win 4).blk t).view.emb (ix2 n m'))
  rw [hemb]
  refine (Cert.KernelIdeal.Payloads.k1_pay1_apply (Region1.iblk V c 2 t) (Region1.iblk V c 3 t) (Region1.iblk V c 0 t) (Region1.iblk V c 1 t) n m').trans ?_
  simp only [iblk1_0, iblk1_1, iblk1_2, iblk1_3]
  rfl

/-- An index of the result array is in the point's block iff each coordinate is in the block's range. -/
theorem mem_blk1 (t : Fin cfg1.N) (i : S512x512.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v7).slice (win1_4.rect t)).set ↔ _
  rw [View.set_slice_whole, Rect.mem_set_unit]
  exact Iff.rfl

/-- The one block covers the array. -/
theorem cover1 (i : S512x512.Idx) : ∃ t : Fin cfg1.N, (cfg1.win 4).flush t = true ∧ i ∈ ((cfg1.win 4).blk t).view.set := by
  refine ⟨t1_0, flush1_4 _, ?_⟩
  rw [mem_blk1]
  obtain ⟨-, -, -, -, -, -, -, -, e0, e1⟩ := idx1 t1_0
  intro a
  match a with
  | ⟨0, _⟩ => show win1_4.index t1_0 (0 : Fin 2) * 512 ≤ (i 0).val ∧ (i 0).val < win1_4.index t1_0 (0 : Fin 2) * 512 + 512; have := (i 0).isLt; have h512 : (i 0).val < 512 := this; omega
  | ⟨1, _⟩ => show win1_4.index t1_0 (1 : Fin 2) * 512 ≤ (i 1).val ∧ (i 1).val < win1_4.index t1_0 (1 : Fin 2) * 512 + 512; have := (i 1).isLt; have h512 : (i 1).val < 512 := this; omega

/-- THE ARRAY the region leaves: the kernel matrix of what it found. -/
theorem final1 (q : Fin cfg1.W → PosShare TreeShare) (c : Dev nD) : (Region1.dat (F := Ideal) V q c).arrAt 4 cfg1.N = G1 V c :=
  (Region1.dat (F := Ideal) V q c).arrAt_eq_of_cover 4 (G1 V c) (fun t _ => flushed1_eq V q c t) (cover1)

end Cert.KernelIdeal.Value

end
-- ==== Proof.KernelPayloadsGrad.lean ====
/-
  The gradient kernel's stored block read at an index: the one-hot vectors of the grid coordinate pick one
  column, one row and one length scale, and the block is a scaled difference times the kernel matrix.
-/
import proofs.«151589_j19816979103948_1_alg».proof.Proof.Gen.KernelIdeal.Skeleton
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.KernelIdeal.Payloads.Grad

open scoped BigOperators
open Idealize.ShloMosaic Idealize.ShloMosaic.ValueIdx Cert.KernelIdeal

/-! ## Layout operations read at an index given by coordinates -/

section Layout
variable {α : Type}

/-- A column [a, 1] broadcast to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array broadcast to [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An [a] array cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The entry (0, 0) extracted from a [1, 1] array. -/
theorem extractAt_00_11 (v : (⟨2, ![1, 1]⟩ : Shape).Idx → α)
    (h : ∀ ax, (![0, 0] : Fin 2 → Nat) ax < (⟨2, ![1, 1]⟩ : Shape).size ax) :
    extractAt ![0, 0] v h = v (ix2 (0 : Fin 1) (0 : Fin 1)) :=
  congrArg v (funext fun ax => by
    match ax with
    | ⟨0, _⟩ => rfl
    | ⟨1, _⟩ => rfl)

end Layout

/-! ## Sums: a row sum and a matrix product read at an index -/

/-- The sum over the columns of an [a, b] array, read at row r: the sum of the row's b entries. -/
theorem multiReduction_add_rows {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax; apply Fin.ext
  match ax with
  | ⟨0, _⟩ => rfl
  | ⟨1, _⟩ => rfl

/-- An [m, k] by [k, n] product into a zero accumulator, read at (a, b): the sum over the contracted
    coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-! ## One-hot vectors

The kernel builds the indicator of one coordinate d below 16 as: position counter, compared for equality with
the splat of d, widened from one bit to thirty-two, converted to a float. Read at position k it is 1 when
k = d and 0 otherwise. A sum of products against it keeps one term, because x * 0 = 0 and x * 1 = x for
every extended real. -/

/-- The 32-bit words of two numbers below 2^32 are equal exactly when the numbers are. -/
theorem ofNat32_beq (x y : ℕ) (hx : x < 2 ^ 32) (hy : y < 2 ^ 32) :
    (BitVec.ofNat 32 x == BitVec.ofNat 32 y) = decide (x = y) := by
  by_cases h : x = y
  · subst h; simp
  · have hne : BitVec.ofNat 32 x ≠ BitVec.ofNat 32 y := fun e => h (by
      have := congrArg BitVec.toNat e
      rwa [BitVec.toNat_ofNat, BitVec.toNat_ofNat, Nat.mod_eq_of_lt hx, Nat.mod_eq_of_lt hy] at this)
    simp [h, hne]

/-- The equality bit of two words, widened and converted, is the indicator of the two numbers being equal. -/
theorem onehot_word (x y : ℕ) (hx : x < 2 ^ 32) (hy : y < 2 ^ 32) :
    (FloatOps.sitofp (F := Ideal) .f32 ((IntOp.cmpi .eq (BitVec.ofNat 32 x) (BitVec.ofNat 32 y)).setWidth 32) : Ideal .f32)
      = if x = y then (1 : EReal) else 0 := by
  show (((((BitVec.ofBool (BitVec.ofNat 32 x == BitVec.ofNat 32 y)).setWidth 32).toInt : ℤ) : ℝ) : EReal) = _
  rw [ofNat32_beq x y hx hy]
  by_cases h : x = y
  · rw [if_pos h, decide_eq_true h]
    have e : ((BitVec.ofBool true).setWidth 32).toInt = 1 := by decide
    rw [e]; simp
  · rw [if_neg h, decide_eq_false h]
    have e : ((BitVec.ofBool false).setWidth 32).toInt = 0 := by decide
    rw [e]; simp

/-- The one-hot ROW: at (0, k) it is 1 when k = d and 0 otherwise. -/
theorem onehot_row_apply (hi : S1x16.Iotas .tc 32 [1]) (hlt : 1 < 32) (d : ℕ) (hd : d < 16) (k : Fin 16) :
    (sitofp .f32 (extui 32 (cmpi .eq (iota .tc S1x16 32 [1] hi) (broadcast S1x16 (BitVec.ofNat 32 d))) hlt)
        : FVec Ideal S1x16 .f32) (ix2 (0 : Fin 1) k)
      = if k.val = d then (1 : EReal) else 0 := by
  show (FloatOps.sitofp (F := Ideal) .f32
      ((IntOp.cmpi .eq (BitVec.ofNat 32 (0 * 16 + k.val)) (BitVec.ofNat 32 d)).setWidth 32) : Ideal .f32) = _
  rw [onehot_word _ _ (by omega) (by omega)]
  simp only [Nat.zero_mul, Nat.zero_add]

/-- The one-hot COLUMN: at (k, 0) it is 1 when k = d and 0 otherwise. -/
theorem onehot_col_apply (hi : S16x1.Iotas .tc 32 [0]) (hlt : 1 < 32) (d : ℕ) (hd : d < 16) (k : Fin 16) :
    (sitofp .f32 (extui 32 (cmpi .eq (iota .tc S16x1 32 [0] hi) (broadcast S16x1 (BitVec.ofNat 32 d))) hlt)
        : FVec Ideal S16x1 .f32) (ix2 k (0 : Fin 1))
      = if k.val = d then (1 : EReal) else 0 := by
  show (FloatOps.sitofp (F := Ideal) .f32
      ((IntOp.cmpi .eq (BitVec.ofNat 32 (0 * 16 + k.val)) (BitVec.ofNat 32 d)).setWidth 32) : Ideal .f32) = _
  rw [onehot_word _ _ (by omega) (by omega)]
  simp only [Nat.zero_mul, Nat.zero_add]

/-- A sum of sixteen products against the indicator of d, on the right, keeps the term at d. -/
theorem sum_mul_onehot (x : Fin 16 → EReal) (d : Fin 16) :
    (∑ k : Fin 16, x k * (if k.val = d.val then (1 : EReal) else 0)) = x d := by
  rw [Finset.sum_eq_single d]
  · rw [if_pos rfl, mul_one]
  · intro b _ hb; rw [if_neg (fun e => hb (Fin.ext e)), mul_zero]
  · intro h; exact absurd (Finset.mem_univ d) h

/-- A sum of sixteen products against the indicator of d, on the left, keeps the term at d. -/
theorem sum_onehot_mul (x : Fin 16 → EReal) (d : Fin 16) :
    (∑ k : Fin 16, (if k.val = d.val then (1 : EReal) else 0) * x k) = x d := by
  rw [Finset.sum_eq_single d]
  · rw [if_pos rfl, one_mul]
  · intro b _ hb; rw [if_neg (fun e => hb (Fin.ext e)), zero_mul]
  · intro h; exact absurd (Finset.mem_univ d) h

/-- ONE LENGTH SCALE PICKED by a lane sum: the row of length scales times the one-hot row, summed over its
    sixteen lanes and kept as a [1, 1] array, is the length scale at d. -/
theorem lane_pick_apply (v : FVec Ideal S1x16 .f32) (OH : FVec Ideal S1x16 .f32) (d : Fin 16)
    (hOH : ∀ k : Fin 16, OH (ix2 (0 : Fin 1) k) = if k.val = d.val then (1 : EReal) else 0)
    (hs : S1x16.ShapeCasts S1x16) (h : S1x16.Reduces [1] S1) (hφ : FKind.Formats .f32)
    (hacc : (0x00000000#32 : BitVec 32) = FKind.add.neutral .f32 hφ) (hs' : S1.ShapeCasts S1x1) :
    shapeCast S1x1 (multiReduction .add [1] S1 (mulf (shapeCast S1x16 v hs) OH) 0x00000000#32 h hφ hacc) hs'
        (ix2 (0 : Fin 1) (0 : Fin 1))
      = v (ix2 (0 : Fin 1) d) := by
  refine (shapeCast_a_a1_apply _ hs' 0 0).trans ((multiReduction_add_rows _ h hφ hacc 0).trans ?_)
  refine Eq.trans (Finset.sum_congr rfl fun k _ => ?_) (sum_mul_onehot (fun k => v (ix2 (0 : Fin 1) k)) d)
  show shapeCast S1x16 v hs (ix2 (0 : Fin 1) k) * OH (ix2 (0 : Fin 1) k) = _
  rw [shapeCast_self, hOH k]

/-- ONE COLUMN PICKED by a product: an [a, 16] array times the one-hot column, broadcast along the rows of an
    [a, c] array, reads at (n, m) the array's entry (n, d). -/
theorem col_pick_apply {a c : ℕ} (X : FVec Ideal ⟨2, ![a, 16]⟩ .f32) (OH : FVec Ideal S16x1 .f32) (d : Fin 16)
    (hOH : ∀ k : Fin 16, OH (ix2 k (0 : Fin 1)) = if k.val = d.val then (1 : EReal) else 0)
    (hb : (⟨2, ![a, 1]⟩ : Shape).Broadcasts ⟨2, ![a, c]⟩) (n : Fin a) (m : Fin c) :
    broadcastTo ⟨2, ![a, c]⟩
        (matmul (DotDims.plain a 16 1) none X OH (constant (F := Ideal) ⟨2, ![a, 1]⟩ .f32 0x00000000#32)) hb (ix2 n m)
      = X (ix2 n d) := by
  refine (broadcastTo_a1_ab_apply _ hb n m).trans ((matmul_plain_zero_apply none X OH n 0).trans ?_)
  refine Eq.trans (Finset.sum_congr rfl fun k _ => ?_) (sum_mul_onehot (fun k => X (ix2 n k)) d)
  rw [hOH k]

/-- ONE ROW PICKED by a product: the one-hot row times a [16, c] array, broadcast along the columns of an
    [a, c] array, reads at (n, m) the array's entry (d, m). -/
theorem row_pick_apply {a c : ℕ} (OH : FVec Ideal S1x16 .f32) (Y : FVec Ideal ⟨2, ![16, c]⟩ .f32) (d : Fin 16)
    (hOH : ∀ k : Fin 16, OH (ix2 (0 : Fin 1) k) = if k.val = d.val then (1 : EReal) else 0)
    (hs : (⟨2, ![16, c]⟩ : Shape).ShapeCasts ⟨2, ![16, c]⟩)
    (hb : (⟨2, ![1, c]⟩ : Shape).Broadcasts ⟨2, ![a, c]⟩) (n : Fin a) (m : Fin c) :
    broadcastTo ⟨2, ![a, c]⟩
        (matmul (DotDims.plain 1 16 c) none OH (shapeCast ⟨2, ![16, c]⟩ Y hs)
          (constant (F := Ideal) ⟨2, ![1, c]⟩ .f32 0x00000000#32)) hb (ix2 n m)
      = Y (ix2 d m) := by
  refine (broadcastTo_1b_ab_apply _ hb n m).trans ((matmul_plain_zero_apply none OH _ 0 m).trans ?_)
  refine Eq.trans (Finset.sum_congr rfl fun k _ => ?_) (sum_onehot_mul (fun k => Y (ix2 k m)) d)
  rw [shapeCast_self, hOH k]

end Cert.KernelIdeal.Payloads.Grad

namespace Cert.KernelIdeal.Payloads

open scoped BigOperators
open Idealize.ShloMosaic Idealize.ShloMosaic.ValueIdx Cert.KernelIdeal

/-! ## The gradient kernel's stored value at an index

At grid coordinate d the stored [512, 512] block is, at (n, m),
    ((-0.5 / (ls[d] * ls[d])) * (X[n, d] - X2t[d, m])) * K[n, m]:
column d of X, row d of the transposed X2 and the length scale at d are each picked by a product or a
lane sum against the one-hot vector of d. -/

/-- The pointwise frame of the stored value: ((c / R) * (T1 - T2)) * K read at an index, where the quotient is
    computed once on a [1, 1] array and broadcast. -/
theorem grad_assemble (R : FVec Ideal S1x1 .f32) (T1 T2 K : FVec Ideal S512x512 .f32) (j : S512x512.Idx) (ch : BitVec 32)
    (hb : S1x1.Broadcasts S512x512) (n m : Fin 512) (hj : j = ix2 n m)
    (r t1 t2 kk : EReal) (hR : R (ix2 (0 : Fin 1) (0 : Fin 1)) = r) (h1 : T1 j = t1) (h2 : T2 j = t2) (hK : K j = kk) :
    mulf (mulf (broadcastTo S512x512 (divf (broadcast S1x1 (Scalar.ofBits (F := Ideal) .f32 ch)) (mulf R R)) hb) (subf T1 T2)) K j
      = (Ideal.div (Ideal.ofBits .f32 ch) (r * r) * (t1 - t2)) * kk := by
  subst hj hR h1 h2 hK
  show (broadcastTo S512x512 (divf (broadcast S1x1 (Scalar.ofBits (F := Ideal) .f32 ch)) (mulf R R)) hb (ix2 n m)
      * (T1 (ix2 n m) - T2 (ix2 n m))) * K (ix2 n m) = _
  rw [Grad.broadcastTo_11_ab_apply]
  rfl

/-- THE GRADIENT PAYLOAD AT (n, m), for the grid coordinate d = i 0. -/
theorem k2_pay1_apply (i : grid2.Coords) (d : Fin 16) (hd : (i 0).val = d.val) (v10 : Vec Ideal S512x16 .f32)
    (v12 : Vec Ideal S16x512 .f32) (v15 : Vec Ideal S1x16 .f32) (v28 : Vec Ideal S512x512 .f32) (n m : Fin 512) :
    Gen.k2_pay1 (F := Ideal) i v10 v12 v15 v28 (ix2 n m)
      = (Ideal.div (Ideal.ofBits .f32 0xBF000000#32) (v15 (ix2 (0 : Fin 1) d) * v15 (ix2 (0 : Fin 1) d))
          * (v10 (ix2 n d) - v12 (ix2 d m)))
        * v28 (ix2 n m) := by
  have hrow : ∀ k : Fin 16, (sitofp .f32 (extui 32 (cmpi .eq (iota .tc S1x16 32 [1] Gen.iota_S1x16_d1_w32)
      (broadcast S1x16 (BitVec.ofNat 32 (i 0).val))) Gen.natLt_1_32) : FVec Ideal S1x16 .f32) (ix2 (0 : Fin 1) k)
      = if k.val = d.val then (1 : EReal) else 0 := fun k => by
    rw [hd]; exact Grad.onehot_row_apply _ _ d.val d.isLt k
  have hcol : ∀ k : Fin 16, (sitofp .f32 (extui 32 (cmpi .eq (iota .tc S16x1 32 [0] Gen.iota_S16x1_d0_w32)
      (broadcast S16x1 (BitVec.ofNat 32 (i 0).val))) Gen.natLt_1_32) : FVec Ideal S16x1 .f32) (ix2 k (0 : Fin 1))
      = if k.val = d.val then (1 : EReal) else 0 := fun k => by
    rw [hd]; exact Grad.onehot_col_apply _ _ d.val d.isLt k
  refine grad_assemble _ _ _ _ _ _ _ n m rfl _ _ _ _ ?_ ?_ ?_ ?_
  · exact Grad.lane_pick_apply v15 _ d hrow _ _ _ _ _
  · exact Grad.col_pick_apply v10 _ d hcol _ n m
  · exact Grad.row_pick_apply _ v12 d hrow _ _ n m
  · exact congrFun (shapeCast_self v28 _) (ix2 n m)

end Cert.KernelIdeal.Payloads

end
-- ==== Proof.KernelIdealValue2.lean ====
/-
  Region 2's result array, read: the pipeline has sixteen grid points; at point d every input window's block is its whole
  array and the output window's block is rows d·512 … d·512 + 511 of the 8192×512 result; the body's one store is the
  gradient arithmetic of the four blocks at coordinate d. So the array the region leaves is, entry by entry, the scaled
  difference of the two point sets' coordinate d times the kernel matrix entry, over the length scales it finds.
-/
import proofs.«151589_j19816979103948_1_alg».proof.Proof.KernelIdealRunData
import proofs.«151589_j19816979103948_1_alg».proof.Proof.KernelPayloadsGrad
import proofs.«151589_j19816979103948_1_alg».proof.Proof.ClosedArrays
import Idealize.ShloMosaic.Lib.Pipeline.Value
import Idealize.ShloMosaic.Lib.ValueIdx

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem
open Idealize.ShloMosaic.Pipeline (Dat)
open Idealize.SL Idealize.SL.RA

theorem hz2 : (![0, 0] : Fin 2 → Nat) = fun _ => 0 := funext fun a => by fin_cases a <;> rfl

variable (V : (c : Dev nD) → (b : Ref sig .tc) → Buf (Elt Ideal) ((c : Thread nD τ).loc b))

/-! ## Region 2 -/

/-- Every input window's block index is zero at every point; the output window's is the point's number on the rows and
    zero on the columns; the point's one coordinate is its number. -/
theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ ((grid2.coords t) 0).val = t.val :=
  (by decide +kernel : ∀ t : Fin grid2.N, _)

/-- Each input block is its array. -/
theorem iblk2_0 (c : Dev nD) (t : Fin cfg2.N) (n : Fin 512) (k : Fin 16) : Region2.iblk V c 0 t (ix2 n k) = V c main_arg0 (ix2 n k) := by
  obtain ⟨e0, e1, -⟩ := idx2 t
  show V c main_arg0 (((cfg2.win 0).blk t).view.emb (ix2 n k)) = V c main_arg0 (ix2 n k)
  refine congrArg _ (funext fun a => Fin.ext ?_)
  match a with
  | ⟨0, _⟩ => show win2_0.index t (0 : Fin 2) * 512 + 1 * n.val = n.val; omega
  | ⟨1, _⟩ => show win2_0.index t (1 : Fin 2) * 16 + 1 * k.val = k.val; omega
theorem iblk2_1 (c : Dev nD) (t : Fin cfg2.N) (k : Fin 16) (m : Fin 512) : Region2.iblk V c 1 t (ix2 k m) = V c main_v5 (ix2 k m) := by
  obtain ⟨-, -, e0, e1, -⟩ := idx2 t
  show V c main_v5 (((cfg2.win 1).blk t).view.emb (ix2 k m)) = V c main_v5 (ix2 k m)
  refine congrArg _ (funext fun a => Fin.ext ?_)
  match a with
  | ⟨0, _⟩ => show win2_1.index t (0 : Fin 2) * 16 + 1 * k.val = k.val; omega
  | ⟨1, _⟩ => show win2_1.index t (1 : Fin 2) * 512 + 1 * m.val = m.val; omega
theorem iblk2_2 (c : Dev nD) (t : Fin cfg2.N) (k : Fin 16) : Region2.iblk V c 2 t (ix2 (0 : Fin 1) k) = V c main_v2 (ix2 (0 : Fin 1) k) := by
  obtain ⟨-, -, -, -, e0, e1, -⟩ := idx2 t
  show V c main_v2 (((cfg2.win 2).blk t).view.emb (ix2 (0 : Fin 1) k)) = V c main_v2 (ix2 (0 : Fin 1) k)
  refine congrArg _ (funext fun a => Fin.ext ?_)
  match a with
  | ⟨0, _⟩ => show win2_2.index t (0 : Fin 2) * 1 + 1 * 0 = 0; omega
  | ⟨1, _⟩ => show win2_2.index t (1 : Fin 2) * 16 + 1 * k.val = k.val; omega
theorem iblk2_3 (c : Dev nD) (t : Fin cfg2.N) (n : Fin 512) (m : Fin 512) : Region2.iblk V c 3 t (ix2 n m) = V c main_v6 (ix2 n m) := by
  obtain ⟨-, -, -, -, -, -, e0, e1, -⟩ := idx2 t
  show V c main_v6 (((cfg2.win 3).blk t).view.emb (ix2 n m)) = V c main_v6 (ix2 n m)
  refine congrArg _ (funext fun a => Fin.ext ?_)
  match a with
  | ⟨0, _⟩ => show win2_3.index t (0 : Fin 2) * 512 + 1 * n.val = n.val; omega
  | ⟨1, _⟩ => show win2_3.index t (1 : Fin 2) * 512 + 1 * m.val = m.val; omega

/-- Entry `(d · 512 + n, m)` of the gradient of a point set `X`, a transposed point set `Y`, a row of length scales `L` and
    a kernel matrix `K`: `((-½ / l_d²) · (X[n, d] − Y[d, m])) · K[n, m]`. -/
def gradEntry (X : (⟨2, ![512, 16]⟩ : Shape).Idx → EReal) (Y : (⟨2, ![16, 512]⟩ : Shape).Idx → EReal) (L : (⟨2, ![1, 16]⟩ : Shape).Idx → EReal) (K : (⟨2, ![512, 512]⟩ : Shape).Idx → EReal)
    (d : Fin 16) (n m : Fin 512) : EReal :=
  (Ideal.div Cert.ClosedForms.ch (L (ix2 (0 : Fin 1) d) * L (ix2 (0 : Fin 1) d)) * (X (ix2 n d) - Y (ix2 d m))) * K (ix2 n m)

/-- The whole gradient array: a row below 8192 read as its quotient and remainder by 512. -/
def gradArr (X : (⟨2, ![512, 16]⟩ : Shape).Idx → EReal) (Y : (⟨2, ![16, 512]⟩ : Shape).Idx → EReal) (L : (⟨2, ![1, 16]⟩ : Shape).Idx → EReal) (K : (⟨2, ![512, 512]⟩ : Shape).Idx → EReal) : (⟨2, ![8192, 512]⟩ : Shape).Idx → EReal :=
  fun i => gradEntry X Y L K (Cert.ClosedForms.rowD (i 0)) (Cert.ClosedForms.rowN (i 0)) (i 1)

/-- The gradient of the arrays the region finds. -/
def G2 (c : Dev nD) : S8192x512.Idx → EReal :=
  gradArr (V c main_arg0) (V c main_v5) (V c main_v2) (V c main_v6)

/-- `G2` at an index given by its coordinates. -/
theorem G2_apply (c : Dev nD) (r : Fin 8192) (m : Fin 512) :
    G2 V c (ix2 r m) = gradEntry (V c main_arg0) (V c main_v5) (V c main_v2) (V c main_v6)
      (Cert.ClosedForms.rowD r) (Cert.ClosedForms.rowN r) m := rfl

/-- What point `t` writes back is its block of `G2`. -/
theorem flushed2_eq (q : Fin cfg2.W → PosShare TreeShare) (c : Dev nD) (t : Fin cfg2.N) :
    (Region2.dat (F := Ideal) V q c).flushed 4 t = ((cfg2.win 4).blk t).view.read (Elt Ideal) (G2 V c) := by
  show (cfg2.win 4).cut (grid2.coords t) ((Region2.dat (F := Ideal) V q c).after 4 t) = _
  rw [Region2.after_4]
  unfold Region2.out
  rw [View.canon_unit_zero hz2]
  simp only [View.ld_unit_zero (S := S512x16) hz2, View.ld_unit_zero (S := S16x512) hz2, View.ld_unit_zero (S := S1x16) hz2,
    View.ld_unit_zero (S := S512x512) hz2]
  funext j
  obtain ⟨n, m', rfl⟩ : ∃ (n : Fin 512) (m' : Fin 512), j = ix2 n m' := ⟨j 0, j 1, eq_ix2 j⟩
  obtain ⟨-, -, -, -, -, -, -, -, e0, e1, ec⟩ := idx2 t
  have hlt : t.val < grid2.N := t.isLt
  rw [N_2] at hlt
  obtain ⟨d, hd⟩ : ∃ d : Fin 16, d.val = t.val := ⟨⟨t.val, hlt⟩, rfl⟩
  have hr : d.val * 512 + n.val < 8192 := by have := d.isLt; have := n.isLt; omega
  have hemb : ((cfg2.win 4).blk t).view.emb (ix2 n m') = ix2 (⟨d.val * 512 + n.val, hr⟩ : Fin 8192) m' := by
    funext a; apply Fin.ext
    match a with
    | ⟨0, _⟩ => show win2_4.index t (0 : Fin 2) * 512 + 1 * n.val = d.val * 512 + n.val; omega
    | ⟨1, _⟩ => show win2_4.index t (1 : Fin 2) * 512 + 1 * m'.val = m'.val; omega
  show Gen.k2_pay1 (F := Ideal) (grid2.coords t) (Region2.iblk V c 0 t) (Region2.iblk V c 1 t) (Region2.iblk V c 2 t) (Region2.iblk V c 3 t) (ix2 n m')
    = G2 V c (((cfg2.win 4).blk t).view.emb (ix2 n m'))
  rw [hemb, G2_apply, Cert.ClosedForms.rowD_mk d n hr, Cert.ClosedForms.rowN_mk d n hr]
  refine (Cert.KernelIdeal.Payloads.k2_pay1_apply (grid2.coords t) d (ec.trans hd.symm) (Region2.iblk V c 0 t) (Region2.iblk V c 1 t)
    (Region2.iblk V c 2 t) (Region2.iblk V c 3 t) n m').trans ?_
  simp only [iblk2_0, iblk2_1, iblk2_2, iblk2_3]
  rfl

/-- An index of the result array is in the point's block iff each coordinate is in the block's range. -/
theorem mem_blk2 (t : Fin cfg2.N) (i : S8192x512.Idx) :
    i ∈ ((cfg2.win 4).blk t).view.set ↔ ∀ a : Fin 2, win2_4.index t a * S512x512.size a ≤ (i a).val ∧ (i a).val < win2_4.index t a * S512x512.size a + S512x512.size a := by
  show i ∈ ((View.whole main_v8).slice (win2_4.rect t)).set ↔ _
  rw [View.set_slice_whole, Rect.mem_set_unit]
  exact Iff.rfl

/-- The sixteen blocks cover the array: row `r` lies in the block of point `r / 512`. -/
theorem cover2 (i : S8192x512.Idx) : ∃ t : Fin cfg2.N, (cfg2.win 4).flush t = true ∧ i ∈ ((cfg2.win 4).blk t).view.set := by
  have h0 : (i 0).val < 8192 := (i 0).isLt
  have h1 : (i 1).val < 512 := (i 1).isLt
  have hq : (i 0).val / 512 < grid2.N := by rw [N_2]; omega
  obtain ⟨tt, htt⟩ : ∃ tt : Fin cfg2.N, tt.val = (i 0).val / 512 := ⟨⟨(i 0).val / 512, hq⟩, rfl⟩
  refine ⟨tt, flush2_4 _, ?_⟩
  rw [mem_blk2]
  obtain ⟨-, -, -, -, -, -, -, -, e0, e1, -⟩ := idx2 tt
  intro a
  match a with
  | ⟨0, _⟩ => show win2_4.index tt (0 : Fin 2) * 512 ≤ (i 0).val ∧ (i 0).val < win2_4.index tt (0 : Fin 2) * 512 + 512; omega
  | ⟨1, _⟩ => show win2_4.index tt (1 : Fin 2) * 512 ≤ (i 1).val ∧ (i 1).val < win2_4.index tt (1 : Fin 2) * 512 + 512; omega

/-- THE ARRAY the region leaves: the gradient of what it found. -/
theorem final2 (q : Fin cfg2.W → PosShare TreeShare) (c : Dev nD) : (Region2.dat (F := Ideal) V q c).arrAt 4 cfg2.N = G2 V c :=
  (Region2.dat (F := Ideal) V q c).arrAt_eq_of_cover 4 (G2 V c) (fun t _ => flushed2_eq V q c t) (cover2)

end Cert.KernelIdeal.Value

end
-- ==== Proof.KernelPayloadsHess.lean ====
/-
  The Hessian kernel's stored block read at an index: the one-hot vectors of the two grid coordinates pick two
  columns, two rows and two length scales, and the block is the kernel matrix times a diagonal term minus a
  product of two scaled differences.
-/
import proofs.«151589_j19816979103948_1_alg».proof.Proof.Gen.KernelIdeal.Skeleton
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.KernelIdeal.Payloads.Hess

open scoped BigOperators
open Idealize.ShloMosaic Idealize.ShloMosaic.ValueIdx Cert.KernelIdeal

/-! ## Layout operations read at an index given by coordinates -/

section Layout
variable {α : Type}

/-- A column [a, 1] broadcast to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array broadcast to [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An [a] array cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The entry (0, 0) extracted from a [1, 1] array. -/
theorem extractAt_00_11 (v : (⟨2, ![1, 1]⟩ : Shape).Idx → α)
    (h : ∀ ax, (![0, 0] : Fin 2 → Nat) ax < (⟨2, ![1, 1]⟩ : Shape).size ax) :
    extractAt ![0, 0] v h = v (ix2 (0 : Fin 1) (0 : Fin 1)) :=
  congrArg v (funext fun ax => by
    match ax with
    | ⟨0, _⟩ => rfl
    | ⟨1, _⟩ => rfl)

end Layout

/-! ## Sums: a row sum and a matrix product read at an index -/

/-- The sum over the columns of an [a, b] array, read at row r: the sum of the row's b entries. -/
theorem multiReduction_add_rows {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax; apply Fin.ext
  match ax with
  | ⟨0, _⟩ => rfl
  | ⟨1, _⟩ => rfl

/-- An [m, k] by [k, n] product into a zero accumulator, read at (a, b): the sum over the contracted
    coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-! ## One-hot vectors

The kernel builds the indicator of one coordinate d below 16 as: position counter, compared for equality with
the splat of d, widened from one bit to thirty-two, converted to a float. Read at position k it is 1 when
k = d and 0 otherwise. A sum of products against it keeps one term, because x * 0 = 0 and x * 1 = x for
every extended real. -/

/-- The 32-bit words of two numbers below 2^32 are equal exactly when the numbers are. -/
theorem ofNat32_beq (x y : ℕ) (hx : x < 2 ^ 32) (hy : y < 2 ^ 32) :
    (BitVec.ofNat 32 x == BitVec.ofNat 32 y) = decide (x = y) := by
  by_cases h : x = y
  · subst h; simp
  · have hne : BitVec.ofNat 32 x ≠ BitVec.ofNat 32 y := fun e => h (by
      have := congrArg BitVec.toNat e
      rwa [BitVec.toNat_ofNat, BitVec.toNat_ofNat, Nat.mod_eq_of_lt hx, Nat.mod_eq_of_lt hy] at this)
    simp [h, hne]

/-- The equality bit of two words, widened and converted, is the indicator of the two numbers being equal. -/
theorem onehot_word (x y : ℕ) (hx : x < 2 ^ 32) (hy : y < 2 ^ 32) :
    (FloatOps.sitofp (F := Ideal) .f32 ((IntOp.cmpi .eq (BitVec.ofNat 32 x) (BitVec.ofNat 32 y)).setWidth 32) : Ideal .f32)
      = if x = y then (1 : EReal) else 0 := by
  show (((((BitVec.ofBool (BitVec.ofNat 32 x == BitVec.ofNat 32 y)).setWidth 32).toInt : ℤ) : ℝ) : EReal) = _
  rw [ofNat32_beq x y hx hy]
  by_cases h : x = y
  · rw [if_pos h, decide_eq_true h]
    have e : ((BitVec.ofBool true).setWidth 32).toInt = 1 := by decide
    rw [e]; simp
  · rw [if_neg h, decide_eq_false h]
    have e : ((BitVec.ofBool false).setWidth 32).toInt = 0 := by decide
    rw [e]; simp

/-- The one-hot ROW: at (0, k) it is 1 when k = d and 0 otherwise. -/
theorem onehot_row_apply (hi : S1x16.Iotas .tc 32 [1]) (hlt : 1 < 32) (d : ℕ) (hd : d < 16) (k : Fin 16) :
    (sitofp .f32 (extui 32 (cmpi .eq (iota .tc S1x16 32 [1] hi) (broadcast S1x16 (BitVec.ofNat 32 d))) hlt)
        : FVec Ideal S1x16 .f32) (ix2 (0 : Fin 1) k)
      = if k.val = d then (1 : EReal) else 0 := by
  show (FloatOps.sitofp (F := Ideal) .f32
      ((IntOp.cmpi .eq (BitVec.ofNat 32 (0 * 16 + k.val)) (BitVec.ofNat 32 d)).setWidth 32) : Ideal .f32) = _
  rw [onehot_word _ _ (by omega) (by omega)]
  simp only [Nat.zero_mul, Nat.zero_add]

/-- The one-hot COLUMN: at (k, 0) it is 1 when k = d and 0 otherwise. -/
theorem onehot_col_apply (hi : S16x1.Iotas .tc 32 [0]) (hlt : 1 < 32) (d : ℕ) (hd : d < 16) (k : Fin 16) :
    (sitofp .f32 (extui 32 (cmpi .eq (iota .tc S16x1 32 [0] hi) (broadcast S16x1 (BitVec.ofNat 32 d))) hlt)
        : FVec Ideal S16x1 .f32) (ix2 k (0 : Fin 1))
      = if k.val = d then (1 : EReal) else 0 := by
  show (FloatOps.sitofp (F := Ideal) .f32
      ((IntOp.cmpi .eq (BitVec.ofNat 32 (0 * 16 + k.val)) (BitVec.ofNat 32 d)).setWidth 32) : Ideal .f32) = _
  rw [onehot_word _ _ (by omega) (by omega)]
  simp only [Nat.zero_mul, Nat.zero_add]

/-- A sum of sixteen products against the indicator of d, on the right, keeps the term at d. -/
theorem sum_mul_onehot (x : Fin 16 → EReal) (d : Fin 16) :
    (∑ k : Fin 16, x k * (if k.val = d.val then (1 : EReal) else 0)) = x d := by
  rw [Finset.sum_eq_single d]
  · rw [if_pos rfl, mul_one]
  · intro b _ hb; rw [if_neg (fun e => hb (Fin.ext e)), mul_zero]
  · intro h; exact absurd (Finset.mem_univ d) h

/-- A sum of sixteen products against the indicator of d, on the left, keeps the term at d. -/
theorem sum_onehot_mul (x : Fin 16 → EReal) (d : Fin 16) :
    (∑ k : Fin 16, (if k.val = d.val then (1 : EReal) else 0) * x k) = x d := by
  rw [Finset.sum_eq_single d]
  · rw [if_pos rfl, one_mul]
  · intro b _ hb; rw [if_neg (fun e => hb (Fin.ext e)), zero_mul]
  · intro h; exact absurd (Finset.mem_univ d) h

/-- ONE LENGTH SCALE PICKED by a lane sum: the row of length scales times the one-hot row, summed over its
    sixteen lanes and kept as a [1, 1] array, is the length scale at d. -/
theorem lane_pick_apply (v : FVec Ideal S1x16 .f32) (OH : FVec Ideal S1x16 .f32) (d : Fin 16)
    (hOH : ∀ k : Fin 16, OH (ix2 (0 : Fin 1) k) = if k.val = d.val then (1 : EReal) else 0)
    (hs : S1x16.ShapeCasts S1x16) (h : S1x16.Reduces [1] S1) (hφ : FKind.Formats .f32)
    (hacc : (0x00000000#32 : BitVec 32) = FKind.add.neutral .f32 hφ) (hs' : S1.ShapeCasts S1x1) :
    shapeCast S1x1 (multiReduction .add [1] S1 (mulf (shapeCast S1x16 v hs) OH) 0x00000000#32 h hφ hacc) hs'
        (ix2 (0 : Fin 1) (0 : Fin 1))
      = v (ix2 (0 : Fin 1) d) := by
  refine (shapeCast_a_a1_apply _ hs' 0 0).trans ((multiReduction_add_rows _ h hφ hacc 0).trans ?_)
  refine Eq.trans (Finset.sum_congr rfl fun k _ => ?_) (sum_mul_onehot (fun k => v (ix2 (0 : Fin 1) k)) d)
  show shapeCast S1x16 v hs (ix2 (0 : Fin 1) k) * OH (ix2 (0 : Fin 1) k) = _
  rw [shapeCast_self, hOH k]

/-- ONE COLUMN PICKED by a product: an [a, 16] array times the one-hot column, broadcast along the rows of an
    [a, c] array, reads at (n, m) the array's entry (n, d). -/
theorem col_pick_apply {a c : ℕ} (X : FVec Ideal ⟨2, ![a, 16]⟩ .f32) (OH : FVec Ideal S16x1 .f32) (d : Fin 16)
    (hOH : ∀ k : Fin 16, OH (ix2 k (0 : Fin 1)) = if k.val = d.val then (1 : EReal) else 0)
    (hb : (⟨2, ![a, 1]⟩ : Shape).Broadcasts ⟨2, ![a, c]⟩) (n : Fin a) (m : Fin c) :
    broadcastTo ⟨2, ![a, c]⟩
        (matmul (DotDims.plain a 16 1) none X OH (constant (F := Ideal) ⟨2, ![a, 1]⟩ .f32 0x00000000#32)) hb (ix2 n m)
      = X (ix2 n d) := by
  refine (broadcastTo_a1_ab_apply _ hb n m).trans ((matmul_plain_zero_apply none X OH n 0).trans ?_)
  refine Eq.trans (Finset.sum_congr rfl fun k _ => ?_) (sum_mul_onehot (fun k => X (ix2 n k)) d)
  rw [hOH k]

/-- ONE ROW PICKED by a product: the one-hot row times a [16, c] array, broadcast along the columns of an
    [a, c] array, reads at (n, m) the array's entry (d, m). -/
theorem row_pick_apply {a c : ℕ} (OH : FVec Ideal S1x16 .f32) (Y : FVec Ideal ⟨2, ![16, c]⟩ .f32) (d : Fin 16)
    (hOH : ∀ k : Fin 16, OH (ix2 (0 : Fin 1) k) = if k.val = d.val then (1 : EReal) else 0)
    (hs : (⟨2, ![16, c]⟩ : Shape).ShapeCasts ⟨2, ![16, c]⟩)
    (hb : (⟨2, ![1, c]⟩ : Shape).Broadcasts ⟨2, ![a, c]⟩) (n : Fin a) (m : Fin c) :
    broadcastTo ⟨2, ![a, c]⟩
        (matmul (DotDims.plain 1 16 c) none OH (shapeCast ⟨2, ![16, c]⟩ Y hs)
          (constant (F := Ideal) ⟨2, ![1, c]⟩ .f32 0x00000000#32)) hb (ix2 n m)
      = Y (ix2 d m) := by
  refine (broadcastTo_1b_ab_apply _ hb n m).trans ((matmul_plain_zero_apply none OH _ 0 m).trans ?_)
  refine Eq.trans (Finset.sum_congr rfl fun k _ => ?_) (sum_onehot_mul (fun k => Y (ix2 k m)) d)
  rw [shapeCast_self, hOH k]

/-- ONE COLUMN PICKED by a product, read in the [a, 1] result: entry (n, d) of the array. -/
theorem col_pick0_apply {a : ℕ} (X : FVec Ideal ⟨2, ![a, 16]⟩ .f32) (OH : FVec Ideal S16x1 .f32) (d : Fin 16)
    (hOH : ∀ k : Fin 16, OH (ix2 k (0 : Fin 1)) = if k.val = d.val then (1 : EReal) else 0) (n : Fin a) :
    matmul (DotDims.plain a 16 1) none X OH (constant (F := Ideal) ⟨2, ![a, 1]⟩ .f32 0x00000000#32) (ix2 n (0 : Fin 1))
      = X (ix2 n d) := by
  refine (matmul_plain_zero_apply none X OH n 0).trans ?_
  refine Eq.trans (Finset.sum_congr rfl fun k _ => ?_) (sum_mul_onehot (fun k => X (ix2 n k)) d)
  rw [hOH k]

/-- ONE ROW PICKED by a product, read in the [1, c] result: entry (d, m) of the array. -/
theorem row_pick0_apply {c : ℕ} (OH : FVec Ideal S1x16 .f32) (Y : FVec Ideal ⟨2, ![16, c]⟩ .f32) (d : Fin 16)
    (hOH : ∀ k : Fin 16, OH (ix2 (0 : Fin 1) k) = if k.val = d.val then (1 : EReal) else 0)
    (hs : (⟨2, ![16, c]⟩ : Shape).ShapeCasts ⟨2, ![16, c]⟩) (m : Fin c) :
    matmul (DotDims.plain 1 16 c) none OH (shapeCast ⟨2, ![16, c]⟩ Y hs)
        (constant (F := Ideal) ⟨2, ![1, c]⟩ .f32 0x00000000#32) (ix2 (0 : Fin 1) m)
      = Y (ix2 d m) := by
  refine (matmul_plain_zero_apply none OH _ 0 m).trans ?_
  refine Eq.trans (Finset.sum_congr rfl fun k _ => ?_) (sum_onehot_mul (fun k => Y (ix2 k m)) d)
  rw [shapeCast_self, hOH k]

/-- A select between two arrays on the equality bit of two words, read at an index. -/
theorem select_cmpi_eq_apply {s : Shape} {α : Type} (x y : BitVec 32) (A B : s.Idx → α) (i : s.Idx) :
    (Scalar.select (Scalar.cmpi .eq x y) A B) i = if x = y then A i else B i := by
  show (if BitVec.ofBool (x == y) = 1#1 then A else B) i = _
  by_cases h : x = y
  · have hb : (x == y) = true := beq_iff_eq.2 h
    rw [hb, if_pos h]
    exact congrFun (if_pos (show BitVec.ofBool true = 1#1 from rfl)) i
  · have hb : (x == y) = false := beq_eq_false_iff_ne.2 h
    rw [hb, if_neg h]
    exact congrFun (if_neg (show ¬ (BitVec.ofBool false = 1#1) by decide)) i

/-- The words of two coordinates below 16 are equal exactly when the coordinates are. -/
theorem ofNat32_eq_iff (x y : ℕ) (hx : x < 16) (hy : y < 16) : BitVec.ofNat 32 x = BitVec.ofNat 32 y ↔ x = y := by
  constructor
  · intro e
    have := congrArg BitVec.toNat e
    rwa [BitVec.toNat_ofNat, BitVec.toNat_ofNat, Nat.mod_eq_of_lt (by omega), Nat.mod_eq_of_lt (by omega)] at this
  · intro e; rw [e]

end Cert.KernelIdeal.Payloads.Hess

namespace Cert.KernelIdeal.Payloads

open scoped BigOperators
open Idealize.ShloMosaic Idealize.ShloMosaic.ValueIdx Cert.KernelIdeal

/-! ## The Hessian kernel's stored value at an index

At grid coordinates (a, b) the stored [512, 512] block is, at (p, q),
    kNN[p, q] * (diag - (0.25 * s_a) * s_b),  s_d = (X[p, d] - Xt[d, q]) * (1 / (ls[d] * ls[d])),
    diag = 0.5 * (1 / (ls[a] * ls[a])) when a = b and 0 otherwise.
First the value over the operands the body computes before it (columns, rows and length scales already
picked); then those operands, each a product or a lane sum against a one-hot vector. -/

/-- The pointwise frame of the stored value, the eight array operands named by what they read at the index. -/
theorem hess_frame (Kx T66 T46 T47 T49 T51 T52 T54 : FVec Ideal S512x512 .f32) (c025 : BitVec 32) (j : S512x512.Idx)
    (kx t66 t46 t47 t49 t51 t52 t54 : EReal) (hK : Kx j = kx) (h66 : T66 j = t66) (h46 : T46 j = t46) (h47 : T47 j = t47)
    (h49 : T49 j = t49) (h51 : T51 j = t51) (h52 : T52 j = t52) (h54 : T54 j = t54) :
    mulf Kx (subf T66
        (mulf (mulf (broadcast S512x512 (Scalar.ofBits (F := Ideal) .f32 c025)) (mulf (subf T46 T47) T49))
          (mulf (subf T51 T52) T54))) j
      = kx * (t66 - (Ideal.ofBits .f32 c025 * ((t46 - t47) * t49)) * ((t51 - t52) * t54)) := by
  subst hK h66 h46 h47 h49 h51 h52 h54; rfl

/-- THE HESSIAN PAYLOAD AT (p, q), over the operands computed before it. -/
theorem k3_pay1_apply (arg0 arg1 : BitVec 32) (v21 : FVec Ideal S512x1 .f32) (v24 : FVec Ideal S1x512 .f32)
    (v26 : FVec Ideal S512x1 .f32) (v29 : FVec Ideal S1x512 .f32) (v34 v39 : FVec Ideal S1x1 .f32)
    (v61 : Vec Ideal S512x512 .f32) (p q : Fin 512) :
    Gen.k3_pay1 (F := Ideal) arg0 arg1 v21 v24 v26 v29 v34 v39 v61 (ix2 p q)
      = v61 (ix2 p q)
        * ((if arg0 = arg1 then
              Ideal.ofBits .f32 0x3F000000#32
                * Ideal.div (Ideal.ofBits .f32 0x3F800000#32)
                    (v34 (ix2 (0 : Fin 1) (0 : Fin 1)) * v34 (ix2 (0 : Fin 1) (0 : Fin 1)))
            else Ideal.ofBits .f32 0x00000000#32)
          - (Ideal.ofBits .f32 0x3E800000#32
              * ((v21 (ix2 p (0 : Fin 1)) - v24 (ix2 (0 : Fin 1) q))
                * Ideal.div (Ideal.ofBits .f32 0x3F800000#32)
                    (v34 (ix2 (0 : Fin 1) (0 : Fin 1)) * v34 (ix2 (0 : Fin 1) (0 : Fin 1)))))
            * ((v26 (ix2 p (0 : Fin 1)) - v29 (ix2 (0 : Fin 1) q))
              * Ideal.div (Ideal.ofBits .f32 0x3F800000#32)
                  (v39 (ix2 (0 : Fin 1) (0 : Fin 1)) * v39 (ix2 (0 : Fin 1) (0 : Fin 1))))) := by
  refine hess_frame _ _ _ _ _ _ _ _ _ _ _ _ _ _ _ _ _ _ ?_ ?_ ?_ ?_ ?_ ?_ ?_ ?_
  · exact congrFun (shapeCast_self v61 _) (ix2 p q)
  · exact (Hess.broadcastTo_11_ab_apply _ _ p q).trans (Hess.select_cmpi_eq_apply _ _ _ _ _)
  · exact Hess.broadcastTo_a1_ab_apply v21 _ p q
  · exact broadcastTo_1b_ab_apply v24 _ p q
  · exact Hess.broadcastTo_11_ab_apply _ _ p q
  · exact Hess.broadcastTo_a1_ab_apply v26 _ p q
  · exact broadcastTo_1b_ab_apply v29 _ p q
  · exact Hess.broadcastTo_11_ab_apply _ _ p q

/-! ### The operands: one-hot picks at the two grid coordinates -/

/-- The one-hot row of the first grid coordinate. -/
theorem k3_pay2_apply (i : grid3.Coords) (a : Fin 16) (ha : (i 0).val = a.val) (k : Fin 16) :
    Gen.k3_pay2 (F := Ideal) i (ix2 (0 : Fin 1) k) = if k.val = a.val then (1 : EReal) else 0 := by
  rw [← ha]; exact Hess.onehot_row_apply _ _ (i 0).val (by have := a.isLt; omega) k

/-- The one-hot row of the second grid coordinate. -/
theorem k3_pay3_apply (i : grid3.Coords) (b : Fin 16) (hb : (i 1).val = b.val) (k : Fin 16) :
    Gen.k3_pay3 (F := Ideal) i (ix2 (0 : Fin 1) k) = if k.val = b.val then (1 : EReal) else 0 := by
  rw [← hb]; exact Hess.onehot_row_apply _ _ (i 1).val (by have := b.isLt; omega) k

/-- Column a of X, as the [512, 1] product with the one-hot column. -/
theorem k3_pay4_apply (i : grid3.Coords) (a : Fin 16) (ha : (i 0).val = a.val) (x0 : Vec Ideal S512x16 .f32) (p : Fin 512) :
    Gen.k3_pay4 (F := Ideal) i x0 (ix2 p (0 : Fin 1)) = x0 (ix2 p a) := by
  refine Hess.col_pick0_apply x0 _ a (fun k => ?_) p
  rw [← ha]; exact Hess.onehot_col_apply _ _ (i 0).val (by have := a.isLt; omega) k

/-- Row a of the transposed X, as the [1, 512] product with the one-hot row. -/
theorem k3_pay5_apply (i : grid3.Coords) (a : Fin 16) (ha : (i 0).val = a.val) (x1 : Vec Ideal S16x512 .f32) (q : Fin 512) :
    Gen.k3_pay5 (F := Ideal) i x1 (ix2 (0 : Fin 1) q) = x1 (ix2 a q) :=
  Hess.row_pick0_apply (Gen.k3_pay2 (F := Ideal) i) x1 a (k3_pay2_apply i a ha) _ q

/-- Column b of X. -/
theorem k3_pay6_apply (i : grid3.Coords) (b : Fin 16) (hb : (i 1).val = b.val) (x0 : Vec Ideal S512x16 .f32) (p : Fin 512) :
    Gen.k3_pay6 (F := Ideal) i x0 (ix2 p (0 : Fin 1)) = x0 (ix2 p b) := by
  refine Hess.col_pick0_apply x0 _ b (fun k => ?_) p
  rw [← hb]; exact Hess.onehot_col_apply _ _ (i 1).val (by have := b.isLt; omega) k

/-- Row b of the transposed X. -/
theorem k3_pay7_apply (i : grid3.Coords) (b : Fin 16) (hb : (i 1).val = b.val) (x1 : Vec Ideal S16x512 .f32) (q : Fin 512) :
    Gen.k3_pay7 (F := Ideal) i x1 (ix2 (0 : Fin 1) q) = x1 (ix2 b q) :=
  Hess.row_pick0_apply (Gen.k3_pay3 (F := Ideal) i) x1 b (k3_pay3_apply i b hb) _ q

/-- The length scale at a, as the lane sum against the one-hot row. -/
theorem k3_pay8_apply (i : grid3.Coords) (a : Fin 16) (ha : (i 0).val = a.val) (x2 : Vec Ideal S1x16 .f32) :
    Gen.k3_pay8 (F := Ideal) i x2 (ix2 (0 : Fin 1) (0 : Fin 1)) = x2 (ix2 (0 : Fin 1) a) :=
  Hess.lane_pick_apply x2 (Gen.k3_pay2 (F := Ideal) i) a (k3_pay2_apply i a ha) _ _ _ _ _

/-- The length scale at b. -/
theorem k3_pay9_apply (i : grid3.Coords) (b : Fin 16) (hb : (i 1).val = b.val) (x2 : Vec Ideal S1x16 .f32) :
    Gen.k3_pay9 (F := Ideal) i x2 (ix2 (0 : Fin 1) (0 : Fin 1)) = x2 (ix2 (0 : Fin 1) b) :=
  Hess.lane_pick_apply x2 (Gen.k3_pay3 (F := Ideal) i) b (k3_pay3_apply i b hb) _ _ _ _ _

/-- THE HESSIAN BLOCK AT (p, q) for the grid coordinates a = i 0, b = i 1: the body's payloads composed as the
    body composes them. -/
theorem hess_apply (i : grid3.Coords) (a b : Fin 16) (ha : (i 0).val = a.val) (hb : (i 1).val = b.val)
    (x0 : Vec Ideal S512x16 .f32) (x1 : Vec Ideal S16x512 .f32) (x2 : Vec Ideal S1x16 .f32)
    (x3 : Vec Ideal S512x512 .f32) (p q : Fin 512) :
    Gen.k3_pay1 (F := Ideal) (BitVec.ofNat 32 (i 0).val) (BitVec.ofNat 32 (i 1).val) (Gen.k3_pay4 i x0) (Gen.k3_pay5 i x1)
        (Gen.k3_pay6 i x0) (Gen.k3_pay7 i x1) (Gen.k3_pay8 i x2) (Gen.k3_pay9 i x2) x3 (ix2 p q)
      = x3 (ix2 p q)
        * ((if a = b then
              Ideal.ofBits .f32 0x3F000000#32
                * Ideal.div (Ideal.ofBits .f32 0x3F800000#32) (x2 (ix2 (0 : Fin 1) a) * x2 (ix2 (0 : Fin 1) a))
            else Ideal.ofBits .f32 0x00000000#32)
          - (Ideal.ofBits .f32 0x3E800000#32
              * ((x0 (ix2 p a) - x1 (ix2 a q))
                * Ideal.div (Ideal.ofBits .f32 0x3F800000#32) (x2 (ix2 (0 : Fin 1) a) * x2 (ix2 (0 : Fin 1) a))))
            * ((x0 (ix2 p b) - x1 (ix2 b q))
              * Ideal.div (Ideal.ofBits .f32 0x3F800000#32) (x2 (ix2 (0 : Fin 1) b) * x2 (ix2 (0 : Fin 1) b)))) := by
  have hc : (BitVec.ofNat 32 (i 0).val = BitVec.ofNat 32 (i 1).val) ↔ a = b := by
    rw [Hess.ofNat32_eq_iff _ _ (by have := a.isLt; omega) (by have := b.isLt; omega), ha, hb]
    exact ⟨fun e => Fin.ext e, fun e => congrArg Fin.val e⟩
  rw [k3_pay1_apply, k3_pay4_apply i a ha, k3_pay5_apply i a ha, k3_pay6_apply i b hb, k3_pay7_apply i b hb,
    k3_pay8_apply i a ha, k3_pay9_apply i b hb]
  simp only [hc]

end Cert.KernelIdeal.Payloads

end
-- ==== Proof.KernelIdealValue3.lean ====
/-
  Region 3's result array, read: the pipeline has 16 × 16 grid points; at point (a, b) every input window's block is
  its whole array and the output window's block is rows a·512 … a·512 + 511, columns b·512 … b·512 + 511 of the
  8192×8192 result; the body's one store is the Hessian arithmetic of the four blocks at the coordinates (a, b). So the
  array the region leaves is, entry by entry, the kernel matrix entry times the diagonal term minus the product of the two
  scaled coordinate differences, over the length scales it finds.
-/
import proofs.«151589_j19816979103948_1_alg».proof.Proof.KernelIdealRunData
import proofs.«151589_j19816979103948_1_alg».proof.Proof.KernelPayloadsHess
import proofs.«151589_j19816979103948_1_alg».proof.Proof.ClosedArrays
import Idealize.ShloMosaic.Lib.Pipeline.Value
import Idealize.ShloMosaic.Lib.ValueIdx

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem
open Idealize.ShloMosaic.Pipeline (Dat)
open Idealize.SL Idealize.SL.RA

theorem hz3 : (![0, 0] : Fin 2 → Nat) = fun _ => 0 := funext fun a => by fin_cases a <;> rfl

variable (V : (c : Dev nD) → (b : Ref sig .tc) → Buf (Elt Ideal) ((c : Thread nD τ).loc b))

/-! ## Region 3 -/

/-- Every input window's block index is zero at every point; the output window's is the point's two coordinates, which
    are the quotient and the remainder of its number by sixteen. -/
theorem idx3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val / 16 ∧ win3_4.index t (1 : Fin 2) = t.val % 16
    ∧ ((grid3.coords t) 0).val = t.val / 16 ∧ ((grid3.coords t) 1).val = t.val % 16 :=
  (by decide +kernel : ∀ t : Fin grid3.N, _)

/-- Each input block is its array. -/
theorem iblk3_0 (c : Dev nD) (t : Fin cfg3.N) (n : Fin 512) (k : Fin 16) : Region3.iblk V c 0 t (ix2 n k) = V c main_arg0 (ix2 n k) := by
  obtain ⟨e0, e1, -⟩ := idx3 t
  show V c main_arg0 (((cfg3.win 0).blk t).view.emb (ix2 n k)) = V c main_arg0 (ix2 n k)
  refine congrArg _ (funext fun a => Fin.ext ?_)
  match a with
  | ⟨0, _⟩ => show win3_0.index t (0 : Fin 2) * 512 + 1 * n.val = n.val; omega
  | ⟨1, _⟩ => show win3_0.index t (1 : Fin 2) * 16 + 1 * k.val = k.val; omega
theorem iblk3_1 (c : Dev nD) (t : Fin cfg3.N) (k : Fin 16) (m : Fin 512) : Region3.iblk V c 1 t (ix2 k m) = V c main_v4 (ix2 k m) := by
  obtain ⟨-, -, e0, e1, -⟩ := idx3 t
  show V c main_v4 (((cfg3.win 1).blk t).view.emb (ix2 k m)) = V c main_v4 (ix2 k m)
  refine congrArg _ (funext fun a => Fin.ext ?_)
  match a with
  | ⟨0, _⟩ => show win3_1.index t (0 : Fin 2) * 16 + 1 * k.val = k.val; omega
  | ⟨1, _⟩ => show win3_1.index t (1 : Fin 2) * 512 + 1 * m.val = m.val; omega
theorem iblk3_2 (c : Dev nD) (t : Fin cfg3.N) (k : Fin 16) : Region3.iblk V c 2 t (ix2 (0 : Fin 1) k) = V c main_v2 (ix2 (0 : Fin 1) k) := by
  obtain ⟨-, -, -, -, e0, e1, -⟩ := idx3 t
  show V c main_v2 (((cfg3.win 2).blk t).view.emb (ix2 (0 : Fin 1) k)) = V c main_v2 (ix2 (0 : Fin 1) k)
  refine congrArg _ (funext fun a => Fin.ext ?_)
  match a with
  | ⟨0, _⟩ => show win3_2.index t (0 : Fin 2) * 1 + 1 * 0 = 0; omega
  | ⟨1, _⟩ => show win3_2.index t (1 : Fin 2) * 16 + 1 * k.val = k.val; omega
theorem iblk3_3 (c : Dev nD) (t : Fin cfg3.N) (n : Fin 512) (m : Fin 512) : Region3.iblk V c 3 t (ix2 n m) = V c main_v7 (ix2 n m) := by
  obtain ⟨-, -, -, -, -, -, e0, e1, -⟩ := idx3 t
  show V c main_v7 (((cfg3.win 3).blk t).view.emb (ix2 n m)) = V c main_v7 (ix2 n m)
  refine congrArg _ (funext fun a => Fin.ext ?_)
  match a with
  | ⟨0, _⟩ => show win3_3.index t (0 : Fin 2) * 512 + 1 * n.val = n.val; omega
  | ⟨1, _⟩ => show win3_3.index t (1 : Fin 2) * 512 + 1 * m.val = m.val; omega

/-- Entry `(a · 512 + p, b · 512 + q)` of the Hessian of a point set `X`, its transpose `Y`, a row of length scales `L` and
    a kernel matrix `K`: `K[p, q] · (δ_ab · (½ · (1 / l_a²)) − (¼ · ((X[p, a] − Y[a, q]) · (1 / l_a²))) · ((X[p, b] − Y[b, q]) · (1 / l_b²)))`. -/
def hessEntry (X : (⟨2, ![512, 16]⟩ : Shape).Idx → EReal) (Y : (⟨2, ![16, 512]⟩ : Shape).Idx → EReal) (L : (⟨2, ![1, 16]⟩ : Shape).Idx → EReal) (K : (⟨2, ![512, 512]⟩ : Shape).Idx → EReal)
    (a : Fin 16) (p : Fin 512) (b : Fin 16) (q : Fin 512) : EReal :=
  K (ix2 p q)
    * ((if a = b then Cert.ClosedForms.c05 * Ideal.div Cert.ClosedForms.c1 (L (ix2 (0 : Fin 1) a) * L (ix2 (0 : Fin 1) a))
        else Cert.ClosedForms.cz)
      - (Cert.ClosedForms.c025
          * ((X (ix2 p a) - Y (ix2 a q)) * Ideal.div Cert.ClosedForms.c1 (L (ix2 (0 : Fin 1) a) * L (ix2 (0 : Fin 1) a))))
        * ((X (ix2 p b) - Y (ix2 b q)) * Ideal.div Cert.ClosedForms.c1 (L (ix2 (0 : Fin 1) b) * L (ix2 (0 : Fin 1) b))))

/-- The whole Hessian array: a row or column below 8192 read as its quotient and remainder by 512. -/
def hessArr (X : (⟨2, ![512, 16]⟩ : Shape).Idx → EReal) (Y : (⟨2, ![16, 512]⟩ : Shape).Idx → EReal) (L : (⟨2, ![1, 16]⟩ : Shape).Idx → EReal) (K : (⟨2, ![512, 512]⟩ : Shape).Idx → EReal) : (⟨2, ![8192, 8192]⟩ : Shape).Idx → EReal :=
  fun i => hessEntry X Y L K (Cert.ClosedForms.rowD (i 0)) (Cert.ClosedForms.rowN (i 0)) (Cert.ClosedForms.rowD (i 1)) (Cert.ClosedForms.rowN (i 1))

/-- The Hessian of the arrays the region finds. -/
def G3 (c : Dev nD) : S8192x8192.Idx → EReal :=
  hessArr (V c main_arg0) (V c main_v4) (V c main_v2) (V c main_v7)

/-- `G3` at an index given by its coordinates. -/
theorem G3_apply (c : Dev nD) (r s : Fin 8192) :
    G3 V c (ix2 r s) = hessEntry (V c main_arg0) (V c main_v4) (V c main_v2) (V c main_v7)
      (Cert.ClosedForms.rowD r) (Cert.ClosedForms.rowN r) (Cert.ClosedForms.rowD s) (Cert.ClosedForms.rowN s) := rfl

/-- What point `t` writes back is its block of `G3`. -/
theorem flushed3_eq (q : Fin cfg3.W → PosShare TreeShare) (c : Dev nD) (t : Fin cfg3.N) :
    (Region3.dat (F := Ideal) V q c).flushed 4 t = ((cfg3.win 4).blk t).view.read (Elt Ideal) (G3 V c) := by
  show (cfg3.win 4).cut (grid3.coords t) ((Region3.dat (F := Ideal) V q c).after 4 t) = _
  rw [Region3.after_4]
  unfold Region3.out
  rw [View.canon_unit_zero hz3]
  simp only [View.ld_unit_zero (S := S512x16) hz3, View.ld_unit_zero (S := S16x512) hz3, View.ld_unit_zero (S := S1x16) hz3,
    View.ld_unit_zero (S := S512x512) hz3]
  funext j
  obtain ⟨p, q', rfl⟩ : ∃ (p : Fin 512) (q' : Fin 512), j = ix2 p q' := ⟨j 0, j 1, eq_ix2 j⟩
  obtain ⟨-, -, -, -, -, -, -, -, e0, e1, ec0, ec1⟩ := idx3 t
  have hlt : t.val < grid3.N := t.isLt
  rw [N_3] at hlt
  obtain ⟨a, ha⟩ : ∃ a : Fin 16, a.val = t.val / 16 := ⟨⟨t.val / 16, by omega⟩, rfl⟩
  obtain ⟨b, hb⟩ : ∃ b : Fin 16, b.val = t.val % 16 := ⟨⟨t.val % 16, by omega⟩, rfl⟩
  have hr : a.val * 512 + p.val < 8192 := by have := a.isLt; have := p.isLt; omega
  have hs : b.val * 512 + q'.val < 8192 := by have := b.isLt; have := q'.isLt; omega
  have hemb : ((cfg3.win 4).blk t).view.emb (ix2 p q')
      = ix2 (⟨a.val * 512 + p.val, hr⟩ : Fin 8192) (⟨b.val * 512 + q'.val, hs⟩ : Fin 8192) := by
    funext x; apply Fin.ext
    match x with
    | ⟨0, _⟩ => show win3_4.index t (0 : Fin 2) * 512 + 1 * p.val = a.val * 512 + p.val; omega
    | ⟨1, _⟩ => show win3_4.index t (1 : Fin 2) * 512 + 1 * q'.val = b.val * 512 + q'.val; omega
  show Gen.k3_pay1 (F := Ideal) (BitVec.ofNat 32 ((grid3.coords t) 0).val) (BitVec.ofNat 32 ((grid3.coords t) 1).val)
      (Gen.k3_pay4 (grid3.coords t) (Region3.iblk V c 0 t)) (Gen.k3_pay5 (grid3.coords t) (Region3.iblk V c 1 t))
      (Gen.k3_pay6 (grid3.coords t) (Region3.iblk V c 0 t)) (Gen.k3_pay7 (grid3.coords t) (Region3.iblk V c 1 t))
      (Gen.k3_pay8 (grid3.coords t) (Region3.iblk V c 2 t)) (Gen.k3_pay9 (grid3.coords t) (Region3.iblk V c 2 t))
      (Region3.iblk V c 3 t) (ix2 p q')
    = G3 V c (((cfg3.win 4).blk t).view.emb (ix2 p q'))
  rw [hemb, G3_apply, Cert.ClosedForms.rowD_mk a p hr, Cert.ClosedForms.rowN_mk a p hr,
    Cert.ClosedForms.rowD_mk b q' hs, Cert.ClosedForms.rowN_mk b q' hs]
  refine (Cert.KernelIdeal.Payloads.hess_apply (grid3.coords t) a b (ec0.trans ha.symm) (ec1.trans hb.symm)
    (Region3.iblk V c 0 t) (Region3.iblk V c 1 t) (Region3.iblk V c 2 t) (Region3.iblk V c 3 t) p q').trans ?_
  simp only [iblk3_0, iblk3_1, iblk3_2, iblk3_3]
  rfl

/-- An index of the result array is in the point's block iff each coordinate is in the block's range. -/
theorem mem_blk3 (t : Fin cfg3.N) (i : S8192x8192.Idx) :
    i ∈ ((cfg3.win 4).blk t).view.set ↔ ∀ a : Fin 2, win3_4.index t a * S512x512.size a ≤ (i a).val ∧ (i a).val < win3_4.index t a * S512x512.size a + S512x512.size a := by
  show i ∈ ((View.whole main_v9).slice (win3_4.rect t)).set ↔ _
  rw [View.set_slice_whole, Rect.mem_set_unit]
  exact Iff.rfl

/-- The 256 blocks cover the array: entry `(r, s)` lies in the block of point `(r / 512) · 16 + s / 512`. -/
theorem cover3 (i : S8192x8192.Idx) : ∃ t : Fin cfg3.N, (cfg3.win 4).flush t = true ∧ i ∈ ((cfg3.win 4).blk t).view.set := by
  have h0 : (i 0).val < 8192 := (i 0).isLt
  have h1 : (i 1).val < 8192 := (i 1).isLt
  have hq : (i 0).val / 512 * 16 + (i 1).val / 512 < grid3.N := by rw [N_3]; omega
  obtain ⟨tt, htt⟩ : ∃ tt : Fin cfg3.N, tt.val = (i 0).val / 512 * 16 + (i 1).val / 512 :=
    ⟨⟨(i 0).val / 512 * 16 + (i 1).val / 512, hq⟩, rfl⟩
  refine ⟨tt, flush3_4 _, ?_⟩
  rw [mem_blk3]
  obtain ⟨-, -, -, -, -, -, -, -, e0, e1, -, -⟩ := idx3 tt
  intro x
  match x with
  | ⟨0, _⟩ => show win3_4.index tt (0 : Fin 2) * 512 ≤ (i 0).val ∧ (i 0).val < win3_4.index tt (0 : Fin 2) * 512 + 512; omega
  | ⟨1, _⟩ => show win3_4.index tt (1 : Fin 2) * 512 ≤ (i 1).val ∧ (i 1).val < win3_4.index tt (1 : Fin 2) * 512 + 512; omega

/-- THE ARRAY the region leaves: the Hessian of what it found. -/
theorem final3 (q : Fin cfg3.W → PosShare TreeShare) (c : Dev nD) : (Region3.dat (F := Ideal) V q c).arrAt 4 cfg3.N = G3 V c :=
  (Region3.dat (F := Ideal) V q c).arrAt_eq_of_cover 4 (G3 V c) (fun t _ => flushed3_eq V q c t) (cover3)

end Cert.KernelIdeal.Value

end
-- ==== Proof.LibSoftplus.lean ====
/-
  The softplus chain at a real number is a positive real.

  The chain is: with z the constant of bit pattern 0 (the real 0), d = x - z,
      select (d ≠ d) (x + z) (max x z + log1p (exp (-|d|))),   |d| = max d (-d).
  In the extended reals d ≠ d is never true, so the select takes its second branch; at x a real r
  that branch is max r 0 + log (1 + e^(-|r|)), a real, and positive because max r 0 ≥ 0 and
  1 + e^(-|r|) > 1.
-/
import Idealize.ShloMosaic.PureOps.Ideal
import Idealize.ShloMosaic.Lib.ValueIdx
import Mathlib.Analysis.SpecialFunctions.Log.Basic

noncomputable section

namespace Cert.LibSoftplus

open Idealize.ShloMosaic

/-- The bit pattern 0 denotes the real 0. -/
theorem ofBits_zero : Ideal.ofBits .f32 0x00000000#32 = (0 : EReal) := by
  simp [Ideal.ofBits, Ideal.ieee]

/-- The softplus chain on one extended real, written with the scalar operations of the extended reals:
    z is the constant 0 (as its bit pattern), d = x - z, and the result is
    select (d ≠ d) (x + z) (max x z + log1p (exp (-(max d (-d))))). -/
def chain (x : EReal) : EReal :=
  Scalar.select
    (Ideal.cmp .une (x - Ideal.ofBits .f32 0x00000000#32) (x - Ideal.ofBits .f32 0x00000000#32))
    (x + Ideal.ofBits .f32 0x00000000#32)
    (max x (Ideal.ofBits .f32 0x00000000#32)
      + Ideal.log1p (Ideal.exp (-(max (x - Ideal.ofBits .f32 0x00000000#32)
          (-(x - Ideal.ofBits .f32 0x00000000#32))))))

/-- The same chain written with the float operations of the instance (the form the thirteen
    operations take on one element): it is the chain above, by unfolding. -/
theorem ops_eq_chain (x : Ideal .f32) :
    Scalar.select
      (FloatOps.cmpf .une (FloatOps.subf x (FloatOps.ofBits (F := Ideal) .f32 0x00000000#32))
        (FloatOps.subf x (FloatOps.ofBits (F := Ideal) .f32 0x00000000#32)))
      (FloatOps.addf x (FloatOps.ofBits (F := Ideal) .f32 0x00000000#32))
      (FloatOps.addf (FloatOps.maximumf x (FloatOps.ofBits (F := Ideal) .f32 0x00000000#32))
        (FloatOps.hostUnary .log1p (FloatOps.hostUnary .exp (FloatOps.hostNegf (FloatOps.hostAbsf
          (FloatOps.subf x (FloatOps.ofBits (F := Ideal) .f32 0x00000000#32)))))))
      = chain x := rfl

/-- The vector form: the thirteen operations on an array of any shape, read at an index, are the chain
    at that element (the constant 0 broadcast from the rank-0 shape). -/
theorem vec_apply {s : Shape} (hb : (⟨0, ![]⟩ : Shape).BroadcastsInDim s (![] : Fin 0 → Fin s.rank))
    (x : FVec Ideal s .f32) (i : s.Idx) :
    select
      (cmpf .une (subf x (broadcastInDim s ![] hb (constant (F := Ideal) ⟨0, ![]⟩ .f32 0x00000000#32)))
        (subf x (broadcastInDim s ![] hb (constant (F := Ideal) ⟨0, ![]⟩ .f32 0x00000000#32))))
      (addf x (broadcastInDim s ![] hb (constant (F := Ideal) ⟨0, ![]⟩ .f32 0x00000000#32)))
      (addf (maximumf x (broadcastInDim s ![] hb (constant (F := Ideal) ⟨0, ![]⟩ .f32 0x00000000#32)))
        (Host.log1p (Host.exp (Host.negf (Host.absf
          (subf x (broadcastInDim s ![] hb (constant (F := Ideal) ⟨0, ![]⟩ .f32 0x00000000#32))))))))
      i
      = chain (x i) := rfl

/-- In the extended reals a ≠ a is false: the compare answers 0. -/
theorem cmp_une_self (a : EReal) : Ideal.cmp .une a a = 0#1 := by
  unfold Ideal.cmp
  simp

/-- The chain is always its second branch: max x 0 + log1p (exp (-(max x (-x)))). -/
theorem chain_eq (x : EReal) :
    chain x = max x 0 + Ideal.log1p (Ideal.exp (-(max x (-x)))) := by
  unfold chain
  rw [cmp_une_self, ValueIdx.select_zero, ofBits_zero, sub_zero]

/-- The value of the chain at a real r: max r 0 + log (1 + e^(-|r|)). -/
theorem chain_coe (r : ℝ) :
    chain (r : EReal) = ((max r 0 + Real.log (1 + Real.exp (-(max r (-r)))) : ℝ) : EReal) := by
  have hpos : (0 : ℝ) < 1 + Real.exp (-(max r (-r))) := by positivity
  have hmax : max (r : EReal) (-(r : EReal)) = ((max r (-r) : ℝ) : EReal) := by
    rw [← EReal.coe_neg]; exact (EReal.coe_strictMono.monotone.map_max).symm
  have hmax0 : max (r : EReal) 0 = ((max r 0 : ℝ) : EReal) := by
    rw [← EReal.coe_zero]; exact (EReal.coe_strictMono.monotone.map_max).symm
  rw [chain_eq, hmax, hmax0, ← EReal.coe_neg, Ideal.exp_coe, Ideal.log1p, ← EReal.coe_one,
    ← EReal.coe_add, Ideal.log_coe, if_neg (not_le.2 hpos), ← EReal.coe_add]

/-- max r 0 + log (1 + e^(-|r|)) is positive. -/
theorem value_pos (r : ℝ) : 0 < max r 0 + Real.log (1 + Real.exp (-(max r (-r)))) := by
  have h1 : (1 : ℝ) < 1 + Real.exp (-(max r (-r))) := by
    have := Real.exp_pos (-(max r (-r))); linarith
  exact add_pos_of_nonneg_of_pos (le_max_right r 0) (Real.log_pos h1)

/-- The softplus chain at a real number is a positive real. -/
theorem chain_pos_real (r : ℝ) : ∃ s : ℝ, 0 < s ∧ chain (r : EReal) = (s : EReal) :=
  ⟨_, value_pos r, chain_coe r⟩

/-- The same, for an extended real known to be a real. -/
theorem chain_pos_real_of_real {x : EReal} (hx : ∃ r : ℝ, x = (r : EReal)) :
    ∃ s : ℝ, 0 < s ∧ chain x = (s : EReal) := by
  obtain ⟨r, rfl⟩ := hx
  exact chain_pos_real r

end Cert.LibSoftplus

end
-- ==== Proof.KernelIdealHostValues.lean ====
/-
  What the kernel regions find in the buffers the host operations write before them: the length scales
  and the variance after softplus, reshaped to a row and to a cell, and the two point sets transposed.
-/
import proofs.«151589_j19816979103948_1_alg».proof.Proof.Gen.KernelIdeal.Regions
import proofs.«151589_j19816979103948_1_alg».proof.Proof.LibSoftplus
import Idealize.ShloMosaic.Lib.ValueIdx
import Idealize.ShloMosaic.Lib.ValueLayout
import Idealize.ShloMosaic.Lib.Pipeline.Value

noncomputable section

namespace Cert.KernelIdeal.HostValues

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-! ## Arrays no host operation writes -/

/-- The first point set is as launched when the regions start. -/
theorem arg0_kept : V3 m c main_arg0 = m ((c.tc : Thread nD τ).loc main_arg0) :=
  (V3_of m c main_arg0 (by decide)).trans <| (V2_of m c main_arg0 (by decide)).trans <|
    (V1_of m c main_arg0 (by decide)).trans rfl

/-- The second point set is as launched when the regions start. -/
theorem arg1_kept : V3 m c main_arg1 = m ((c.tc : Thread nD τ).loc main_arg1) :=
  (V3_of m c main_arg1 (by decide)).trans <| (V2_of m c main_arg1 (by decide)).trans <|
    (V1_of m c main_arg1 (by decide)).trans rfl

/-- The raw length scales are as launched when the regions start. -/
theorem arg2_kept : V3 m c main_arg2 = m ((c.tc : Thread nD τ).loc main_arg2) :=
  (V3_of m c main_arg2 (by decide)).trans <| (V2_of m c main_arg2 (by decide)).trans <|
    (V1_of m c main_arg2 (by decide)).trans rfl

/-- The raw variance is as launched when the regions start. -/
theorem arg3_kept : V3 m c main_arg3 = m ((c.tc : Thread nD τ).loc main_arg3) :=
  (V3_of m c main_arg3 (by decide)).trans <| (V2_of m c main_arg3 (by decide)).trans <|
    (V1_of m c main_arg3 (by decide)).trans rfl

/-! ## Each stretch of host operations over ANY contents before it

Stated over an arbitrary valuation W of the buffers, so that reading one stretch never opens the stretches
before it. -/

/-- The first stretch leaves in the length-scale vector, at k, the softplus chain of the raw value at k. -/
theorem softplus_ls_of (W : Valuation τ sig (Elt Ideal)) (k : Fin 16) :
    (StableHlo.after hostOps0 W (Proc.devRef .tc main_v0) : S16.Idx → EReal) (ix1 k)
      = Cert.LibSoftplus.chain ((W (Proc.devRef .tc main_arg2) : S16.Idx → EReal) (ix1 k)) := by
  after_results
  exact Cert.LibSoftplus.vec_apply (s := S16) Gen.bcast_S_S16 (W (Proc.devRef .tc main_arg2)) (ix1 k)

/-- The second stretch leaves in the variance vector the softplus chain of the raw variance. -/
theorem softplus_var_of (W : Valuation τ sig (Elt Ideal)) (u : Fin 1) :
    (StableHlo.after hostOps0_1 W (Proc.devRef .tc main_v1) : S1.Idx → EReal) (ix1 u)
      = Cert.LibSoftplus.chain ((W (Proc.devRef .tc main_arg3) : S1.Idx → EReal) (ix1 u)) := by
  after_results
  exact Cert.LibSoftplus.vec_apply (s := S1) Gen.bcast_S_S1 (W (Proc.devRef .tc main_arg3)) (ix1 u)

/-- The third stretch's first reshape: the [16] vector as the row [1, 16]. -/
theorem reshape_ls_of (W : Valuation τ sig (Elt Ideal)) (k : Fin 16) :
    (StableHlo.after hostOps0_2 W (Proc.devRef .tc main_v2) : S1x16.Idx → EReal) (ix2 (0 : Fin 1) k)
      = (W (Proc.devRef .tc main_v0) : S16.Idx → EReal) (ix1 k) := by
  after_results
  exact shapeCast_a_1a_apply (W (Proc.devRef .tc main_v0) : S16.Idx → EReal) _ (0 : Fin 1) k

/-- The third stretch's second reshape: the [1] vector as the cell [1, 1]. -/
theorem reshape_var_of (W : Valuation τ sig (Elt Ideal)) :
    (StableHlo.after hostOps0_2 W (Proc.devRef .tc main_v3) : S1x1.Idx → EReal) (ix2 (0 : Fin 1) (0 : Fin 1))
      = (W (Proc.devRef .tc main_v1) : S1.Idx → EReal) (ix1 (0 : Fin 1)) := by
  after_results
  exact shapeCast_a_1a_apply (W (Proc.devRef .tc main_v1) : S1.Idx → EReal) _ (0 : Fin 1) (0 : Fin 1)

/-- The third stretch's first transpose: entry (k, n) is the operand's entry (n, k). -/
theorem transpose_x_of (W : Valuation τ sig (Elt Ideal)) (k : Fin 16) (n : Fin 512) :
    (StableHlo.after hostOps0_2 W (Proc.devRef .tc main_v4) : S16x512.Idx → EReal) (ix2 k n)
      = (W (Proc.devRef .tc main_arg0) : S512x16.Idx → EReal) (ix2 n k) := by
  after_results
  exact transpose_ix2_apply (W (Proc.devRef .tc main_arg0) : S512x16.Idx → EReal) _ k n

/-- The third stretch's second transpose. -/
theorem transpose_x2_of (W : Valuation τ sig (Elt Ideal)) (k : Fin 16) (n : Fin 512) :
    (StableHlo.after hostOps0_2 W (Proc.devRef .tc main_v5) : S16x512.Idx → EReal) (ix2 k n)
      = (W (Proc.devRef .tc main_arg1) : S512x16.Idx → EReal) (ix2 n k) := by
  after_results
  exact transpose_ix2_apply (W (Proc.devRef .tc main_arg1) : S512x16.Idx → EReal) _ k n

/-! ## The stretches chained from the launch contents -/

/-- After the first stretch the length-scale vector holds, at k, the softplus chain of the raw value at k. -/
theorem main_v0_apply (k : Fin 16) :
    (V1 m c main_v0 : S16.Idx → EReal) (ix1 k)
      = Cert.LibSoftplus.chain (m ((c.tc : Thread nD τ).loc main_arg2) (ix1 k)) :=
  softplus_ls_of (V0 m c) k

/-- After the second stretch the variance vector holds the softplus chain of the raw variance. -/
theorem main_v1_apply (u : Fin 1) :
    (V2 m c main_v1 : S1.Idx → EReal) (ix1 u)
      = Cert.LibSoftplus.chain (m ((c.tc : Thread nD τ).loc main_arg3) (ix1 u)) :=
  (softplus_var_of (V1 m c) u).trans
    (congrArg Cert.LibSoftplus.chain
      (congrFun (α := S1.Idx) (β := fun _ => EReal) ((V1_of m c main_arg3 (by decide)).trans rfl) (ix1 u)))

/-- THE LENGTH-SCALE ROW: entry (0, k) is the softplus chain of the raw length scale at k. -/
theorem ls_row (k : Fin 16) :
    (V3 m c main_v2 : S1x16.Idx → EReal) (ix2 (0 : Fin 1) k)
      = Cert.LibSoftplus.chain (m ((c.tc : Thread nD τ).loc main_arg2) (ix1 k)) :=
  (reshape_ls_of (V2 m c) k).trans
    ((congrFun (α := S16.Idx) (β := fun _ => EReal) (V2_of m c main_v0 (by decide)) (ix1 k)).trans (main_v0_apply m c k))

/-- THE VARIANCE CELL: entry (0, 0) is the softplus chain of the raw variance. -/
theorem var_cell :
    (V3 m c main_v3 : S1x1.Idx → EReal) (ix2 (0 : Fin 1) (0 : Fin 1))
      = Cert.LibSoftplus.chain (m ((c.tc : Thread nD τ).loc main_arg3) (ix1 (0 : Fin 1))) :=
  (reshape_var_of (V2 m c)).trans (main_v1_apply m c 0)

/-- THE FIRST POINT SET TRANSPOSED: entry (k, n) is the launched entry (n, k). -/
theorem xT (k : Fin 16) (n : Fin 512) :
    (V3 m c main_v4 : S16x512.Idx → EReal) (ix2 k n) = m ((c.tc : Thread nD τ).loc main_arg0) (ix2 n k) :=
  (transpose_x_of (V2 m c) k n).trans
    (congrFun (α := S512x16.Idx) (β := fun _ => EReal)
      ((V2_of m c main_arg0 (by decide)).trans <| (V1_of m c main_arg0 (by decide)).trans rfl) (ix2 n k))

/-- THE SECOND POINT SET TRANSPOSED: entry (k, n) is the launched entry (n, k). -/
theorem x2T (k : Fin 16) (n : Fin 512) :
    (V3 m c main_v5 : S16x512.Idx → EReal) (ix2 k n) = m ((c.tc : Thread nD τ).loc main_arg1) (ix2 n k) :=
  (transpose_x2_of (V2 m c) k n).trans
    (congrFun (α := S512x16.Idx) (β := fun _ => EReal)
      ((V2_of m c main_arg1 (by decide)).trans <| (V1_of m c main_arg1 (by decide)).trans rfl) (ix2 n k))

end Cert.KernelIdeal.HostValues

end
-- ==== Proof.KernelIdealValueAll.lean ====
/-
  The four regions' result arrays as closed forms of the ARGUMENT arrays: each region's array is the closed
  form of what the region finds in its input buffers, and what it finds is what the host operations and the
  regions before it left there — the launched point sets, their transposes, and the softplus of the raw
  length scales and of the raw variance.
-/
import proofs.«151589_j19816979103948_1_alg».proof.Proof.KernelIdealValue01
import proofs.«151589_j19816979103948_1_alg».proof.Proof.KernelIdealValue2
import proofs.«151589_j19816979103948_1_alg».proof.Proof.KernelIdealValue3
import proofs.«151589_j19816979103948_1_alg».proof.Proof.KernelIdealHostValues

set_option maxRecDepth 16384

noncomputable section

namespace Cert.KernelIdeal.Value

open Cert.KernelIdeal Cert.KernelIdeal.Gen
open Idealize.ShloMosaic Idealize.ShloMosaic.TcCoe Idealize.ShloMosaic.ValueIdx
open Cert.ClosedForms (arrK arrG arrH kerK kerG kerH rowD rowN)

variable (m : (ℓ : Loc nD τ sig) → Buf (Elt Ideal) ℓ) (c : Dev nD)

/-! ## The arguments as the closed forms read them -/

/-- The first point set as launched. -/
abbrev Xof : Cert.ClosedForms.Pts := m ((c.tc : Thread nD τ).loc main_arg0)
/-- The second point set as launched. -/
abbrev X2of : Cert.ClosedForms.Pts := m ((c.tc : Thread nD τ).loc main_arg1)
/-- The length scales: softplus of the raw ones, coordinate by coordinate. -/
abbrev lOf : Fin 16 → EReal := fun k : Fin 16 => Cert.LibSoftplus.chain (m ((c.tc : Thread nD τ).loc main_arg2) (ix1 k))
/-- The variance: softplus of the raw one. -/
abbrev vOf : EReal := Cert.LibSoftplus.chain (m ((c.tc : Thread nD τ).loc main_arg3) (ix1 (0 : Fin 1)))

/-- The kernel matrix depends only on its four operands. -/
theorem arrK_congr {X X' X2 X2' : Cert.ClosedForms.Pts} {l l' : Fin 16 → EReal} {v v' : EReal}
    (hX : X = X') (hX2 : X2 = X2') (hl : l = l') (hv : v = v') : arrK X X2 l v = arrK X' X2' l' v' := by
  subst hX hX2 hl hv; rfl

/-! ## Regions 0 and 1: the kernel matrices -/

/-- What region 0 finds in its four input buffers. -/
theorem E0_arg0 : (Run.E0 m c main_arg0 : S512x16.Idx → EReal) = Xof m c := HostValues.arg0_kept m c
theorem E0_arg1 : (Run.E0 m c main_arg1 : S512x16.Idx → EReal) = X2of m c := HostValues.arg1_kept m c
theorem E0_ls : (fun k : Fin 16 => (Run.E0 m c main_v2 : S1x16.Idx → EReal) (ix2 (0 : Fin 1) k)) = lOf m c :=
  funext fun k => HostValues.ls_row m c k
theorem E0_var : (Run.E0 m c main_v3 : S1x1.Idx → EReal) (ix2 (0 : Fin 1) (0 : Fin 1)) = vOf m c := HostValues.var_cell m c

/-- REGION 0's ARRAY: the kernel matrix of the two launched point sets. -/
theorem o0_eq : Run.o0 m c = arrK (Xof m c) (X2of m c) (lOf m c) (vOf m c) :=
  (final0 (Run.E0 m) Run.qFull c).trans (arrK_congr (E0_arg0 m c) (E0_arg1 m c) (E0_ls m c) (E0_var m c))

/-- What region 1 finds: region 0 changed none of its inputs. -/
theorem E1_arg0 : (Run.E1 m c main_arg0 : S512x16.Idx → EReal) = Xof m c :=
  (Run.B4_of_ne m c main_arg0 (by decide)).trans (HostValues.arg0_kept m c)
theorem E1_ls : (fun k : Fin 16 => (Run.E1 m c main_v2 : S1x16.Idx → EReal) (ix2 (0 : Fin 1) k)) = lOf m c :=
  funext fun k => (congrFun (α := S1x16.Idx) (β := fun _ => EReal) (Run.B4_of_ne m c main_v2 (by decide)) (ix2 (0 : Fin 1) k)).trans
    (HostValues.ls_row m c k)
theorem E1_var : (Run.E1 m c main_v3 : S1x1.Idx → EReal) (ix2 (0 : Fin 1) (0 : Fin 1)) = vOf m c :=
  (congrFun (α := S1x1.Idx) (β := fun _ => EReal) (Run.B4_of_ne m c main_v3 (by decide)) (ix2 (0 : Fin 1) (0 : Fin 1))).trans
    (HostValues.var_cell m c)

/-- REGION 1's ARRAY: the kernel matrix of the first launched point set against itself. -/
theorem o1_eq : Run.o1 m c = arrK (Xof m c) (Xof m c) (lOf m c) (vOf m c) :=
  (final1 (Run.E1 m) Run.qHalves c).trans (arrK_congr (E1_arg0 m c) (E1_arg0 m c) (E1_ls m c) (E1_var m c))

/-! ## Region 2: the gradient -/

/-- The gradient array over what region 2 finds is the gradient of the arguments, once what it finds is
    named: the transposed second point set, the row of length scales, and the kernel matrix of region 0. -/
theorem gradArr_eq {Xv : (⟨2, ![512, 16]⟩ : Shape).Idx → EReal} {Yv : (⟨2, ![16, 512]⟩ : Shape).Idx → EReal}
    {Lv : (⟨2, ![1, 16]⟩ : Shape).Idx → EReal} {Kv : (⟨2, ![512, 512]⟩ : Shape).Idx → EReal}
    {X X2 : Cert.ClosedForms.Pts} {l : Fin 16 → EReal} {v : EReal}
    (hX : Xv = X) (hY : ∀ (d : Fin 16) (j : Fin 512), Yv (ix2 d j) = X2 (ix2 j d))
    (hL : ∀ d : Fin 16, Lv (ix2 (0 : Fin 1) d) = l d) (hK : Kv = arrK X X2 l v) :
    gradArr Xv Yv Lv Kv = arrG X X2 l v := by
  subst hX hK
  funext i
  obtain ⟨r, j, rfl⟩ : ∃ (r : Fin 8192) (j : Fin 512), i = ix2 r j := ⟨i 0, i 1, eq_ix2 i⟩
  show gradEntry Xv Yv Lv (arrK Xv X2 l v) (rowD r) (rowN r) j = kerG Xv X2 l v (rowD r) (rowN r) j
  unfold gradEntry kerG
  simp only [hY, hL]
  rfl

/-- What region 2 finds: regions 0 and 1 changed only their own result arrays. -/
theorem E2_arg0 : (Run.E2 m c main_arg0 : S512x16.Idx → EReal) = Xof m c :=
  (Run.B5_of_ne m c main_arg0 (by decide)).trans (E1_arg0 m c)
theorem E2_v5 (d : Fin 16) (j : Fin 512) : (Run.E2 m c main_v5 : S16x512.Idx → EReal) (ix2 d j) = X2of m c (ix2 j d) :=
  (congrFun (α := S16x512.Idx) (β := fun _ => EReal)
    ((Run.B5_of_ne m c main_v5 (by decide)).trans (Run.B4_of_ne m c main_v5 (by decide))) (ix2 d j)).trans
    (HostValues.x2T m c d j)
theorem E2_ls (d : Fin 16) : (Run.E2 m c main_v2 : S1x16.Idx → EReal) (ix2 (0 : Fin 1) d) = lOf m c d :=
  (congrFun (α := S1x16.Idx) (β := fun _ => EReal)
    ((Run.B5_of_ne m c main_v2 (by decide)).trans (Run.B4_of_ne m c main_v2 (by decide))) (ix2 (0 : Fin 1) d)).trans
    (HostValues.ls_row m c d)
theorem E2_v6 : (Run.E2 m c main_v6 : S512x512.Idx → EReal) = arrK (Xof m c) (X2of m c) (lOf m c) (vOf m c) :=
  (Run.B5_of_ne m c main_v6 (by decide)).trans ((Run.B4_out m c).trans (o0_eq m c))

/-- REGION 2's ARRAY: the gradient of the kernel matrix of the two launched point sets. -/
theorem o2_eq : Run.o2 m c = arrG (Xof m c) (X2of m c) (lOf m c) (vOf m c) :=
  (final2 (Run.E2 m) Run.qFull c).trans (gradArr_eq (E2_arg0 m c) (E2_v5 m c) (E2_ls m c) (E2_v6 m c))

/-! ## Region 3: the Hessian -/

/-- The Hessian array over what region 3 finds is the Hessian of the arguments, once what it finds is named:
    the transposed first point set, the row of length scales, and the kernel matrix of region 1. -/
theorem hessArr_eq {Xv : (⟨2, ![512, 16]⟩ : Shape).Idx → EReal} {Yv : (⟨2, ![16, 512]⟩ : Shape).Idx → EReal}
    {Lv : (⟨2, ![1, 16]⟩ : Shape).Idx → EReal} {Kv : (⟨2, ![512, 512]⟩ : Shape).Idx → EReal}
    {X : Cert.ClosedForms.Pts} {l : Fin 16 → EReal} {v : EReal}
    (hX : Xv = X) (hY : ∀ (d : Fin 16) (j : Fin 512), Yv (ix2 d j) = X (ix2 j d))
    (hL : ∀ d : Fin 16, Lv (ix2 (0 : Fin 1) d) = l d) (hK : Kv = arrK X X l v) :
    hessArr Xv Yv Lv Kv = arrH X l v := by
  subst hX hK
  funext i
  show hessEntry Xv Yv Lv (arrK Xv Xv l v) (rowD (i 0)) (rowN (i 0)) (rowD (i 1)) (rowN (i 1))
    = kerH Xv l v (rowD (i 0)) (rowN (i 0)) (rowD (i 1)) (rowN (i 1))
  unfold hessEntry kerH
  simp only [hY, hL]
  rfl

/-- What region 3 finds: regions 0, 1 and 2 changed only their own result arrays. -/
theorem E3_arg0 : (Run.E3 m c main_arg0 : S512x16.Idx → EReal) = Xof m c :=
  (Run.B6_of_ne m c main_arg0 (by decide)).trans (E2_arg0 m c)
theorem E3_v4 (d : Fin 16) (j : Fin 512) : (Run.E3 m c main_v4 : S16x512.Idx → EReal) (ix2 d j) = Xof m c (ix2 j d) :=
  (congrFun (α := S16x512.Idx) (β := fun _ => EReal)
    ((Run.B6_of_ne m c main_v4 (by decide)).trans <| (Run.B5_of_ne m c main_v4 (by decide)).trans
      (Run.B4_of_ne m c main_v4 (by decide))) (ix2 d j)).trans
    (HostValues.xT m c d j)
theorem E3_ls (d : Fin 16) : (Run.E3 m c main_v2 : S1x16.Idx → EReal) (ix2 (0 : Fin 1) d) = lOf m c d :=
  (congrFun (α := S1x16.Idx) (β := fun _ => EReal) (Run.B6_of_ne m c main_v2 (by decide)) (ix2 (0 : Fin 1) d)).trans
    (E2_ls m c d)
theorem E3_v7 : (Run.E3 m c main_v7 : S512x512.Idx → EReal) = arrK (Xof m c) (Xof m c) (lOf m c) (vOf m c) :=
  (Run.B6_of_ne m c main_v7 (by decide)).trans ((Run.B5_out m c).trans (o1_eq m c))

/-- REGION 3's ARRAY: the Hessian blocks of the kernel matrix of the first launched point set against itself. -/
theorem o3_eq : Run.o3 m c = arrH (Xof m c) (lOf m c) (vOf m c) :=
  (final3 (Run.E3 m) Run.qFull c).trans (hessArr_eq (E3_arg0 m c) (E3_v4 m c) (E3_ls m c) (E3_v7 m c))

end Cert.KernelIdeal.Value

end
-- ==== Proof.RefRun.lean ====
/- The reference program's @main as the list of its 140 host operations, in order, and its run read back.
   @main calls three outlined functions (softplus on the 16 length scales, softplus on the one variance, and the
   diagonal-matrix builder, which itself calls a select helper); each callee's operations are listed at its call site
   over that call's own buffers, which is the flat program that runs. Every weakly fair execution terminates with the
   three result buffers at named pure terms of the four argument arrays — the kernel matrix `resK`, its gradient
   `resG` and its Hessian `resH` — and the argument buffers unchanged. -/
import proofs.«151589_j19816979103948_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 140 operations, in order: its own 99, and at the three call sites the callee's (14, 14, and 10 + 3). -/
abbrev ops : List (HloOp τ sig (Elt F)) :=
  [ nullary main_call0_cst (constant S_ .f32 0x00000000#32),
    unary main_call0_cst main_call0_v0 (broadcastInDim S16 ![] bcast_S_S16 : (⟨S_, .f32⟩ : BufTy).Contents (Elt F) → (⟨S16, .f32⟩ : BufTy).Contents (Elt F)),
    binary main_arg2 main_call0_v0 main_call0_v1 (maximumf : (⟨S16, .f32⟩ : BufTy).Contents (Elt F) → (⟨S16, .f32⟩ : BufTy).Contents (Elt F) → (⟨S16, .f32⟩ : BufTy).Contents (Elt F)),
    unary main_call0_cst main_call0_v2 (broadcastInDim S16 ![] bcast_S_S16 : (⟨S_, .f32⟩ : BufTy).Contents (Elt F) → (⟨S16, .f32⟩ : BufTy).Contents (Elt F)),
    binary main_arg2 main_call0_v2 main_call0_v3 (subf : (⟨S16, .f32⟩ : BufTy).Contents (Elt F) → (⟨S16, .f32⟩ : BufTy).Contents (Elt F) → (⟨S16, .f32⟩ : BufTy).Contents (Elt F)),
    binary main_call0_v3 main_call0_v3 main_call0_v4 (cmpf .une : (⟨S16, .f32⟩ : BufTy).Contents (Elt F) → (⟨S16, .f32⟩ : BufTy).Contents (Elt F) → (⟨S16, .i1⟩ : BufTy).Contents (Elt F)),
    unary main_call0_cst main_call0_v5 (broadcastInDim S16 ![] bcast_S_S16 : (⟨S_, .f32⟩ : BufTy).Contents (Elt F) → (⟨S16, .f32⟩ : BufTy).Contents (Elt F)),
    binary main_arg2 main_call0_v5 main_call0_v6 (addf : (⟨S16, .f32⟩ : BufTy).Contents (Elt F) → (⟨S16, .f32⟩ : BufTy).Contents (Elt F) → (⟨S16, .f32⟩ : BufTy).Contents (Elt F)),
    unary main_call0_v3 main_call0_v7 (Host.absf : (⟨S16, .f32⟩ : BufTy).Contents (Elt F) → (⟨S16, .f32⟩ : BufTy).Contents (Elt F)),
    unary main_call0_v7 main_call0_v8 (Host.negf : (⟨S16, .f32⟩ : BufTy).Contents (Elt F) → (⟨S16, .f32⟩ : BufTy).Contents (Elt F)),
    unary main_call0_v8 main_call0_v9 (Host.exp : (⟨S16, .f32⟩ : BufTy).Contents (Elt F) → (⟨S16, .f32⟩ : BufTy).Contents (Elt F)),
    unary main_call0_v9 main_call0_v10 (Host.log1p : (⟨S16, .f32⟩ : BufTy).Contents (Elt F) → (⟨S16, .f32⟩ : BufTy).Contents (Elt F)),
    binary main_call0_v1 main_call0_v10 main_call0_v11 (addf : (⟨S16, .f32⟩ : BufTy).Contents (Elt F) → (⟨S16, .f32⟩ : BufTy).Contents (Elt F) → (⟨S16, .f32⟩ : BufTy).Contents (Elt F)),
    ternary main_call0_v4 main_call0_v6 main_call0_v11 main_v0 (select : (⟨S16, .i1⟩ : BufTy).Contents (Elt F) → (⟨S16, .f32⟩ : BufTy).Contents (Elt F) → (⟨S16, .f32⟩ : BufTy).Contents (Elt F) → (⟨S16, .f32⟩ : BufTy).Contents (Elt F)),
    nullary main_call1_cst (constant S_ .f32 0x00000000#32),
    unary main_call1_cst main_call1_v0 (broadcastInDim S1 ![] bcast_S_S1 : (⟨S_, .f32⟩ : BufTy).Contents (Elt F) → (⟨S1, .f32⟩ : BufTy).Contents (Elt F)),
    binary main_arg3 main_call1_v0 main_call1_v1 (maximumf : (⟨S1, .f32⟩ : BufTy).Contents (Elt F) → (⟨S1, .f32⟩ : BufTy).Contents (Elt F) → (⟨S1, .f32⟩ : BufTy).Contents (Elt F)),
    unary main_call1_cst main_call1_v2 (broadcastInDim S1 ![] bcast_S_S1 : (⟨S_, .f32⟩ : BufTy).Contents (Elt F) → (⟨S1, .f32⟩ : BufTy).Contents (Elt F)),
    binary main_arg3 main_call1_v2 main_call1_v3 (subf : (⟨S1, .f32⟩ : BufTy).Contents (Elt F) → (⟨S1, .f32⟩ : BufTy).Contents (Elt F) → (⟨S1, .f32⟩ : BufTy).Contents (Elt F)),
    binary main_call1_v3 main_call1_v3 main_call1_v4 (cmpf .une : (⟨S1, .f32⟩ : BufTy).Contents (Elt F) → (⟨S1, .f32⟩ : BufTy).Contents (Elt F) → (⟨S1, .i1⟩ : BufTy).Contents (Elt F)),
    unary main_call1_cst main_call1_v5 (broadcastInDim S1 ![] bcast_S_S1 : (⟨S_, .f32⟩ : BufTy).Contents (Elt F) → (⟨S1, .f32⟩ : BufTy).Contents (Elt F)),
    binary main_arg3 main_call1_v5 main_call1_v6 (addf : (⟨S1, .f32⟩ : BufTy).Contents (Elt F) → (⟨S1, .f32⟩ : BufTy).Contents (Elt F) → (⟨S1, .f32⟩ : BufTy).Contents (Elt F)),
    unary main_call1_v3 main_call1_v7 (Host.absf : (⟨S1, .f32⟩ : BufTy).Contents (Elt F) → (⟨S1, .f32⟩ : BufTy).Contents (Elt F)),
    unary main_call1_v7 main_call1_v8 (Host.negf : (⟨S1, .f32⟩ : BufTy).Contents (Elt F) → (⟨S1, .f32⟩ : BufTy).Contents (Elt F)),
    unary main_call1_v8 main_call1_v9 (Host.exp : (⟨S1, .f32⟩ : BufTy).Contents (Elt F) → (⟨S1, .f32⟩ : BufTy).Contents (Elt F)),
    unary main_call1_v9 main_call1_v10 (Host.log1p : (⟨S1, .f32⟩ : BufTy).Contents (Elt F) → (⟨S1, .f32⟩ : BufTy).Contents (Elt F)),
    binary main_call1_v1 main_call1_v10 main_call1_v11 (addf : (⟨S1, .f32⟩ : BufTy).Contents (Elt F) → (⟨S1, .f32⟩ : BufTy).Contents (Elt F) → (⟨S1, .f32⟩ : BufTy).Contents (Elt F)),
    ternary main_call1_v4 main_call1_v6 main_call1_v11 main_v1 (select : (⟨S1, .i1⟩ : BufTy).Contents (Elt F) → (⟨S1, .f32⟩ : BufTy).Contents (Elt F) → (⟨S1, .f32⟩ : BufTy).Contents (Elt F) → (⟨S1, .f32⟩ : BufTy).Contents (Elt F)),
    reshape main_v1 main_v2 rfl shapeCasts_S1_S_,
    unary main_v0 main_v3 (broadcastInDim S1x16 ![1] bcast_S16_S1x16_1 : (⟨S16, .f32⟩ : BufTy).Contents (Elt F) → (⟨S1x16, .f32⟩ : BufTy).Contents (Elt F)),
    unary main_v3 main_v4 (broadcastInDim S512x16 ![0, 1] bcast_S1x16_S512x16_0_1 : (⟨S1x16, .f32⟩ : BufTy).Contents (Elt F) → (⟨S512x16, .f32⟩ : BufTy).Contents (Elt F)),
    binary main_arg0 main_v4 main_v5 (Host.divf : (⟨S512x16, .f32⟩ : BufTy).Contents (Elt F) → (⟨S512x16, .f32⟩ : BufTy).Contents (Elt F) → (⟨S512x16, .f32⟩ : BufTy).Contents (Elt F)),
    unary main_v0 main_v6 (broadcastInDim S1x16 ![1] bcast_S16_S1x16_1 : (⟨S16, .f32⟩ : BufTy).Contents (Elt F) → (⟨S1x16, .f32⟩ : BufTy).Contents (Elt F)),
    unary main_v6 main_v7 (broadcastInDim S512x16 ![0, 1] bcast_S1x16_S512x16_0_1 : (⟨S1x16, .f32⟩ : BufTy).Contents (Elt F) → (⟨S512x16, .f32⟩ : BufTy).Contents (Elt F)),
    binary main_arg1 main_v7 main_v8 (Host.divf : (⟨S512x16, .f32⟩ : BufTy).Contents (Elt F) → (⟨S512x16, .f32⟩ : BufTy).Contents (Elt F) → (⟨S512x16, .f32⟩ : BufTy).Contents (Elt F)),
    binary main_v5 main_v5 main_v9 (mulf : (⟨S512x16, .f32⟩ : BufTy).Contents (Elt F) → (⟨S512x16, .f32⟩ : BufTy).Contents (Elt F) → (⟨S512x16, .f32⟩ : BufTy).Contents (Elt F)),
    nullary main_cst (constant S_ .f32 0x00000000#32),
    binary main_v9 main_cst main_v10 ((fun x v => Host.reduceAdd x v reducesTo_S512x16_S512_d1 h_S_) : (⟨S512x16, .f32⟩ : BufTy).Contents (Elt F) → (⟨S_, .f32⟩ : BufTy).Contents (Elt F) → (⟨S512, .f32⟩ : BufTy).Contents (Elt F)),
    unary main_v10 main_v11 (broadcastInDim S512x1 ![0] bcast_S512_S512x1_0 : (⟨S512, .f32⟩ : BufTy).Contents (Elt F) → (⟨S512x1, .f32⟩ : BufTy).Contents (Elt F)),
    nullary main_cst_0 (constant S_ .f32 0x40000000#32),
    unary main_cst_0 main_v12 (broadcastInDim S512x16 ![] bcast_S_S512x16 : (⟨S_, .f32⟩ : BufTy).Contents (Elt F) → (⟨S512x16, .f32⟩ : BufTy).Contents (Elt F)),
    binary main_v12 main_v5 main_v13 (mulf : (⟨S512x16, .f32⟩ : BufTy).Contents (Elt F) → (⟨S512x16, .f32⟩ : BufTy).Contents (Elt F) → (⟨S512x16, .f32⟩ : BufTy).Contents (Elt F)),
    unary main_v8 main_v14 ((transpose S16x512 [1, 0] · transposes_S512x16_S16x512_1_0) : (⟨S512x16, .f32⟩ : BufTy).Contents (Elt F) → (⟨S16x512, .f32⟩ : BufTy).Contents (Elt F)),
    binary main_v13 main_v14 main_v15 ((fun l r => Host.dotGeneral dot_S512x16_S16x512_S512x512_1_0_0_1_n_n none l r) : (⟨S512x16, .f32⟩ : BufTy).Contents (Elt F) → (⟨S16x512, .f32⟩ : BufTy).Contents (Elt F) → (⟨S512x512, .f32⟩ : BufTy).Contents (Elt F)),
    unary main_v11 main_v16 (broadcastInDim S512x512 ![0, 1] bcast_S512x1_S512x512_0_1 : (⟨S512x1, .f32⟩ : BufTy).Contents (Elt F) → (⟨S512x512, .f32⟩ : BufTy).Contents (Elt F)),
    binary main_v16 main_v15 main_v17 (subf : (⟨S512x512, .f32⟩ : BufTy).Contents (Elt F) → (⟨S512x512, .f32⟩ : BufTy).Contents (Elt F) → (⟨S512x512, .f32⟩ : BufTy).Contents (Elt F)),
    binary main_v8 main_v8 main_v18 (mulf : (⟨S512x16, .f32⟩ : BufTy).Contents (Elt F) → (⟨S512x16, .f32⟩ : BufTy).Contents (Elt F) → (⟨S512x16, .f32⟩ : BufTy).Contents (Elt F)),
    nullary main_cst_1 (constant S_ .f32 0x00000000#32),
    binary main_v18 main_cst_1 main_v19 ((fun x v => Host.reduceAdd x v reducesTo_S512x16_S512_d1 h_S_) : (⟨S512x16, .f32⟩ : BufTy).Contents (Elt F) → (⟨S_, .f32⟩ : BufTy).Contents (Elt F) → (⟨S512, .f32⟩ : BufTy).Contents (Elt F)),
    unary main_v19 main_v20 (broadcastInDim S1x512 ![1] bcast_S512_S1x512_1 : (⟨S512, .f32⟩ : BufTy).Contents (Elt F) → (⟨S1x512, .f32⟩ : BufTy).Contents (Elt F)),
    unary main_v20 main_v21 (broadcastInDim S512x512 ![0, 1] bcast_S1x512_S512x512_0_1 : (⟨S1x512, .f32⟩ : BufTy).Contents (Elt F) → (⟨S512x512, .f32⟩ : BufTy).Contents (Elt F)),
    binary main_v17 main_v21 main_v22 (addf : (⟨S512x512, .f32⟩ : BufTy).Contents (Elt F) → (⟨S512x512, .f32⟩ : BufTy).Contents (Elt F) → (⟨S512x512, .f32⟩ : BufTy).Contents (Elt F)),
    nullary main_cst_2 (constant S_ .f32 0xBE800000#32),
    unary main_cst_2 main_v23 (broadcastInDim S512x512 ![] bcast_S_S512x512 : (⟨S_, .f32⟩ : BufTy).Contents (Elt F) → (⟨S512x512, .f32⟩ : BufTy).Contents (Elt F)),
    binary main_v23 main_v22 main_v24 (mulf : (⟨S512x512, .f32⟩ : BufTy).Contents (Elt F) → (⟨S512x512, .f32⟩ : BufTy).Contents (Elt F) → (⟨S512x512, .f32⟩ : BufTy).Contents (Elt F)),
    unary main_v24 main_v25 (Host.exp : (⟨S512x512, .f32⟩ : BufTy).Contents (Elt F) → (⟨S512x512, .f32⟩ : BufTy).Contents (Elt F)),
    unary main_v2 main_v26 (broadcastInDim S512x512 ![] bcast_S_S512x512 : (⟨S_, .f32⟩ : BufTy).Contents (Elt F) → (⟨S512x512, .f32⟩ : BufTy).Contents (Elt F)),
    binary main_v26 main_v25 main_v27 (mulf : (⟨S512x512, .f32⟩ : BufTy).Contents (Elt F) → (⟨S512x512, .f32⟩ : BufTy).Contents (Elt F) → (⟨S512x512, .f32⟩ : BufTy).Contents (Elt F)),
    unary main_arg0 main_v28 (broadcastInDim S512x1x16 ![0, 2] bcast_S512x16_S512x1x16_0_2 : (⟨S512x16, .f32⟩ : BufTy).Contents (Elt F) → (⟨S512x1x16, .f32⟩ : BufTy).Contents (Elt F)),
    unary main_arg1 main_v29 (broadcastInDim S1x512x16 ![1, 2] bcast_S512x16_S1x512x16_1_2 : (⟨S512x16, .f32⟩ : BufTy).Contents (Elt F) → (⟨S1x512x16, .f32⟩ : BufTy).Contents (Elt F)),
    unary main_v28 main_v30 (broadcastInDim S512x512x16 ![0, 1, 2] bcast_S512x1x16_S512x512x16_0_1_2 : (⟨S512x1x16, .f32⟩ : BufTy).Contents (Elt F) → (⟨S512x512x16, .f32⟩ : BufTy).Contents (Elt F)),
    unary main_v29 main_v31 (broadcastInDim S512x512x16 ![0, 1, 2] bcast_S1x512x16_S512x512x16_0_1_2 : (⟨S1x512x16, .f32⟩ : BufTy).Contents (Elt F) → (⟨S512x512x16, .f32⟩ : BufTy).Contents (Elt F)),
    binary main_v30 main_v31 main_v32 (subf : (⟨S512x512x16, .f32⟩ : BufTy).Contents (Elt F) → (⟨S512x512x16, .f32⟩ : BufTy).Contents (Elt F) → (⟨S512x512x16, .f32⟩ : BufTy).Contents (Elt F)),
    binary main_v0 main_v0 main_v33 (mulf : (⟨S16, .f32⟩ : BufTy).Contents (Elt F) → (⟨S16, .f32⟩ : BufTy).Contents (Elt F) → (⟨S16, .f32⟩ : BufTy).Contents (Elt F)),
    unary main_v33 main_v34 (broadcastInDim S1x1x16 ![2] bcast_S16_S1x1x16_2 : (⟨S16, .f32⟩ : BufTy).Contents (Elt F) → (⟨S1x1x16, .f32⟩ : BufTy).Contents (Elt F)),
    unary main_v34 main_v35 (broadcastInDim S512x512x16 ![0, 1, 2] bcast_S1x1x16_S512x512x16_0_1_2 : (⟨S1x1x16, .f32⟩ : BufTy).Contents (Elt F) → (⟨S512x512x16, .f32⟩ : BufTy).Contents (Elt F)),
    binary main_v32 main_v35 main_v36 (Host.divf : (⟨S512x512x16, .f32⟩ : BufTy).Contents (Elt F) → (⟨S512x512x16, .f32⟩ : BufTy).Contents (Elt F) → (⟨S512x512x16, .f32⟩ : BufTy).Contents (Elt F)),
    nullary main_cst_3 (constant S_ .f32 0xBF000000#32),
    unary main_cst_3 main_v37 (broadcastInDim S512x512x16 ![] bcast_S_S512x512x16 : (⟨S_, .f32⟩ : BufTy).Contents (Elt F) → (⟨S512x512x16, .f32⟩ : BufTy).Contents (Elt F)),
    binary main_v37 main_v36 main_v38 (mulf : (⟨S512x512x16, .f32⟩ : BufTy).Contents (Elt F) → (⟨S512x512x16, .f32⟩ : BufTy).Contents (Elt F) → (⟨S512x512x16, .f32⟩ : BufTy).Contents (Elt F)),
    unary main_v27 main_v39 (broadcastInDim S512x512x1 ![0, 1] bcast_S512x512_S512x512x1_0_1 : (⟨S512x512, .f32⟩ : BufTy).Contents (Elt F) → (⟨S512x512x1, .f32⟩ : BufTy).Contents (Elt F)),
    unary main_v39 main_v40 (broadcastInDim S512x512x16 ![0, 1, 2] bcast_S512x512x1_S512x512x16_0_1_2 : (⟨S512x512x1, .f32⟩ : BufTy).Contents (Elt F) → (⟨S512x512x16, .f32⟩ : BufTy).Contents (Elt F)),
    binary main_v38 main_v40 main_v41 (mulf : (⟨S512x512x16, .f32⟩ : BufTy).Contents (Elt F) → (⟨S512x512x16, .f32⟩ : BufTy).Contents (Elt F) → (⟨S512x512x16, .f32⟩ : BufTy).Contents (Elt F)),
    unary main_v41 main_v42 ((transpose S16x512x512 [2, 0, 1] · transposes_S512x512x16_S16x512x512_2_0_1) : (⟨S512x512x16, .f32⟩ : BufTy).Contents (Elt F) → (⟨S16x512x512, .f32⟩ : BufTy).Contents (Elt F)),
    reshape main_v42 main_v43 rfl shapeCasts_S16x512x512_S8192x512,
    binary main_v5 main_v5 main_v44 (mulf : (⟨S512x16, .f32⟩ : BufTy).Contents (Elt F) → (⟨S512x16, .f32⟩ : BufTy).Contents (Elt F) → (⟨S512x16, .f32⟩ : BufTy).Contents (Elt F)),
    nullary main_cst_4 (constant S_ .f32 0x00000000#32),
    binary main_v44 main_cst_4 main_v45 ((fun x v => Host.reduceAdd x v reducesTo_S512x16_S512_d1 h_S_) : (⟨S512x16, .f32⟩ : BufTy).Contents (Elt F) → (⟨S_, .f32⟩ : BufTy).Contents (Elt F) → (⟨S512, .f32⟩ : BufTy).Contents (Elt F)),
    unary main_v45 main_v46 (broadcastInDim S512x1 ![0] bcast_S512_S512x1_0 : (⟨S512, .f32⟩ : BufTy).Contents (Elt F) → (⟨S512x1, .f32⟩ : BufTy).Contents (Elt F)),
    nullary main_cst_5 (constant S_ .f32 0x40000000#32),
    unary main_cst_5 main_v47 (broadcastInDim S512x16 ![] bcast_S_S512x16 : (⟨S_, .f32⟩ : BufTy).Contents (Elt F) → (⟨S512x16, .f32⟩ : BufTy).Contents (Elt F)),
    binary main_v47 main_v5 main_v48 (mulf : (⟨S512x16, .f32⟩ : BufTy).Contents (Elt F) → (⟨S512x16, .f32⟩ : BufTy).Contents (Elt F) → (⟨S512x16, .f32⟩ : BufTy).Contents (Elt F)),
    unary main_v5 main_v49 ((transpose S16x512 [1, 0] · transposes_S512x16_S16x512_1_0) : (⟨S512x16, .f32⟩ : BufTy).Contents (Elt F) → (⟨S16x512, .f32⟩ : BufTy).Contents (Elt F)),
    binary main_v48 main_v49 main_v50 ((fun l r => Host.dotGeneral dot_S512x16_S16x512_S512x512_1_0_0_1_n_n none l r) : (⟨S512x16, .f32⟩ : BufTy).Contents (Elt F) → (⟨S16x512, .f32⟩ : BufTy).Contents (Elt F) → (⟨S512x512, .f32⟩ : BufTy).Contents (Elt F)),
    unary main_v46 main_v51 (broadcastInDim S512x512 ![0, 1] bcast_S512x1_S512x512_0_1 : (⟨S512x1, .f32⟩ : BufTy).Contents (Elt F) → (⟨S512x512, .f32⟩ : BufTy).Contents (Elt F)),
    binary main_v51 main_v50 main_v52 (subf : (⟨S512x512, .f32⟩ : BufTy).Contents (Elt F) → (⟨S512x512, .f32⟩ : BufTy).Contents (Elt F) → (⟨S512x512, .f32⟩ : BufTy).Contents (Elt F)),
    binary main_v5 main_v5 main_v53 (mulf : (⟨S512x16, .f32⟩ : BufTy).Contents (Elt F) → (⟨S512x16, .f32⟩ : BufTy).Contents (Elt F) → (⟨S512x16, .f32⟩ : BufTy).Contents (Elt F)),
    nullary main_cst_6 (constant S_ .f32 0x00000000#32),
    binary main_v53 main_cst_6 main_v54 ((fun x v => Host.reduceAdd x v reducesTo_S512x16_S512_d1 h_S_) : (⟨S512x16, .f32⟩ : BufTy).Contents (Elt F) → (⟨S_, .f32⟩ : BufTy).Contents (Elt F) → (⟨S512, .f32⟩ : BufTy).Contents (Elt F)),
    unary main_v54 main_v55 (broadcastInDim S1x512 ![1] bcast_S512_S1x512_1 : (⟨S512, .f32⟩ : BufTy).Contents (Elt F) → (⟨S1x512, .f32⟩ : BufTy).Contents (Elt F)),
    unary main_v55 main_v56 (broadcastInDim S512x512 ![0, 1] bcast_S1x512_S512x512_0_1 : (⟨S1x512, .f32⟩ : BufTy).Contents (Elt F) → (⟨S512x512, .f32⟩ : BufTy).Contents (Elt F)),
    binary main_v52 main_v56 main_v57 (addf : (⟨S512x512, .f32⟩ : BufTy).Contents (Elt F) → (⟨S512x512, .f32⟩ : BufTy).Contents (Elt F) → (⟨S512x512, .f32⟩ : BufTy).Contents (Elt F)),
    nullary main_cst_7 (constant S_ .f32 0xBE800000#32),
    unary main_cst_7 main_v58 (broadcastInDim S512x512 ![] bcast_S_S512x512 : (⟨S_, .f32⟩ : BufTy).Contents (Elt F) → (⟨S512x512, .f32⟩ : BufTy).Contents (Elt F)),
    binary main_v58 main_v57 main_v59 (mulf : (⟨S512x512, .f32⟩ : BufTy).Contents (Elt F) → (⟨S512x512, .f32⟩ : BufTy).Contents (Elt F) → (⟨S512x512, .f32⟩ : BufTy).Contents (Elt F)),
    unary main_v59 main_v60 (Host.exp : (⟨S512x512, .f32⟩ : BufTy).Contents (Elt F) → (⟨S512x512, .f32⟩ : BufTy).Contents (Elt F)),
    unary main_v2 main_v61 (broadcastInDim S512x512 ![] bcast_S_S512x512 : (⟨S_, .f32⟩ : BufTy).Contents (Elt F) → (⟨S512x512, .f32⟩ : BufTy).Contents (Elt F)),
    binary main_v61 main_v60 main_v62 (mulf : (⟨S512x512, .f32⟩ : BufTy).Contents (Elt F) → (⟨S512x512, .f32⟩ : BufTy).Contents (Elt F) → (⟨S512x512, .f32⟩ : BufTy).Contents (Elt F)),
    unary main_arg0 main_v63 (broadcastInDim S512x1x16 ![0, 2] bcast_S512x16_S512x1x16_0_2 : (⟨S512x16, .f32⟩ : BufTy).Contents (Elt F) → (⟨S512x1x16, .f32⟩ : BufTy).Contents (Elt F)),
    unary main_arg0 main_v64 (broadcastInDim S1x512x16 ![1, 2] bcast_S512x16_S1x512x16_1_2 : (⟨S512x16, .f32⟩ : BufTy).Contents (Elt F) → (⟨S1x512x16, .f32⟩ : BufTy).Contents (Elt F)),
    unary main_v63 main_v65 (broadcastInDim S512x512x16 ![0, 1, 2] bcast_S512x1x16_S512x512x16_0_1_2 : (⟨S512x1x16, .f32⟩ : BufTy).Contents (Elt F) → (⟨S512x512x16, .f32⟩ : BufTy).Contents (Elt F)),
    unary main_v64 main_v66 (broadcastInDim S512x512x16 ![0, 1, 2] bcast_S1x512x16_S512x512x16_0_1_2 : (⟨S1x512x16, .f32⟩ : BufTy).Contents (Elt F) → (⟨S512x512x16, .f32⟩ : BufTy).Contents (Elt F)),
    binary main_v65 main_v66 main_v67 (subf : (⟨S512x512x16, .f32⟩ : BufTy).Contents (Elt F) → (⟨S512x512x16, .f32⟩ : BufTy).Contents (Elt F) → (⟨S512x512x16, .f32⟩ : BufTy).Contents (Elt F)),
    binary main_v0 main_v0 main_v68 (mulf : (⟨S16, .f32⟩ : BufTy).Contents (Elt F) → (⟨S16, .f32⟩ : BufTy).Contents (Elt F) → (⟨S16, .f32⟩ : BufTy).Contents (Elt F)),
    unary main_v68 main_v69 (broadcastInDim S1x1x16 ![2] bcast_S16_S1x1x16_2 : (⟨S16, .f32⟩ : BufTy).Contents (Elt F) → (⟨S1x1x16, .f32⟩ : BufTy).Contents (Elt F)),
    unary main_v69 main_v70 (broadcastInDim S512x512x16 ![0, 1, 2] bcast_S1x1x16_S512x512x16_0_1_2 : (⟨S1x1x16, .f32⟩ : BufTy).Contents (Elt F) → (⟨S512x512x16, .f32⟩ : BufTy).Contents (Elt F)),
    binary main_v67 main_v70 main_v71 (Host.divf : (⟨S512x512x16, .f32⟩ : BufTy).Contents (Elt F) → (⟨S512x512x16, .f32⟩ : BufTy).Contents (Elt F) → (⟨S512x512x16, .f32⟩ : BufTy).Contents (Elt F)),
    binary main_v0 main_v0 main_v72 (mulf : (⟨S16, .f32⟩ : BufTy).Contents (Elt F) → (⟨S16, .f32⟩ : BufTy).Contents (Elt F) → (⟨S16, .f32⟩ : BufTy).Contents (Elt F)),
    nullary main_cst_8 (constant S_ .f32 0x3F000000#32),
    unary main_cst_8 main_v73 (broadcastInDim S16 ![] bcast_S_S16 : (⟨S_, .f32⟩ : BufTy).Contents (Elt F) → (⟨S16, .f32⟩ : BufTy).Contents (Elt F)),
    binary main_v73 main_v72 main_v74 (Host.divf : (⟨S16, .f32⟩ : BufTy).Contents (Elt F) → (⟨S16, .f32⟩ : BufTy).Contents (Elt F) → (⟨S16, .f32⟩ : BufTy).Contents (Elt F)),
    nullary main_call2_cst (constant S_ .f32 0x00000000#32),
    binary main_v74 main_call2_cst main_call2_v0 ((fun x v => pad S16 ![0] ![0] ![0] x v pads_S16_S16_000 h_S_) : (⟨S16, .f32⟩ : BufTy).Contents (Elt F) → (⟨S_, .f32⟩ : BufTy).Contents (Elt F) → (⟨S16, .f32⟩ : BufTy).Contents (Elt F)),
    nullary main_call2_v1 (iotaInDim S16x16 32 0),
    nullary main_call2_v2 (iotaInDim S16x16 32 1),
    nullary main_call2_c (constantI S_ 32 0#32),
    unary main_call2_c main_call2_v3 (broadcastInDim S16x16 ![] bcast_S_S16x16 : (⟨S_, .i32⟩ : BufTy).Contents (Elt F) → (⟨S16x16, .i32⟩ : BufTy).Contents (Elt F)),
    binary main_call2_v1 main_call2_v3 main_call2_v4 (addi : (⟨S16x16, .i32⟩ : BufTy).Contents (Elt F) → (⟨S16x16, .i32⟩ : BufTy).Contents (Elt F) → (⟨S16x16, .i32⟩ : BufTy).Contents (Elt F)),
    binary main_call2_v4 main_call2_v2 main_call2_v5 (cmpi .eq : (⟨S16x16, .i32⟩ : BufTy).Contents (Elt F) → (⟨S16x16, .i32⟩ : BufTy).Contents (Elt F) → (⟨S16x16, .i1⟩ : BufTy).Contents (Elt F)),
    unary main_call2_v0 main_call2_v6 (broadcastInDim S16x1 ![0] bcast_S16_S16x1_0 : (⟨S16, .f32⟩ : BufTy).Contents (Elt F) → (⟨S16x1, .f32⟩ : BufTy).Contents (Elt F)),
    nullary main_call2_cst_0 (constant S_ .f32 0x00000000#32),
    unary main_call2_v6 main_call2_call0_v0 (broadcastInDim S16x16 ![0, 1] bcast_S16x1_S16x16_0_1 : (⟨S16x1, .f32⟩ : BufTy).Contents (Elt F) → (⟨S16x16, .f32⟩ : BufTy).Contents (Elt F)),
    unary main_call2_cst_0 main_call2_call0_v1 (broadcastInDim S16x16 ![] bcast_S_S16x16 : (⟨S_, .f32⟩ : BufTy).Contents (Elt F) → (⟨S16x16, .f32⟩ : BufTy).Contents (Elt F)),
    ternary main_call2_v5 main_call2_call0_v0 main_call2_call0_v1 main_v75 (select : (⟨S16x16, .i1⟩ : BufTy).Contents (Elt F) → (⟨S16x16, .f32⟩ : BufTy).Contents (Elt F) → (⟨S16x16, .f32⟩ : BufTy).Contents (Elt F) → (⟨S16x16, .f32⟩ : BufTy).Contents (Elt F)),
    unary main_v62 main_v76 (broadcastInDim S512x512x1x1 ![0, 1] bcast_S512x512_S512x512x1x1_0_1 : (⟨S512x512, .f32⟩ : BufTy).Contents (Elt F) → (⟨S512x512x1x1, .f32⟩ : BufTy).Contents (Elt F)),
    unary main_v75 main_v77 (broadcastInDim S1x1x16x16 ![2, 3] bcast_S16x16_S1x1x16x16_2_3 : (⟨S16x16, .f32⟩ : BufTy).Contents (Elt F) → (⟨S1x1x16x16, .f32⟩ : BufTy).Contents (Elt F)),
    unary main_v71 main_v78 (broadcastInDim S512x512x16x1 ![0, 1, 2] bcast_S512x512x16_S512x512x16x1_0_1_2 : (⟨S512x512x16, .f32⟩ : BufTy).Contents (Elt F) → (⟨S512x512x16x1, .f32⟩ : BufTy).Contents (Elt F)),
    nullary main_cst_9 (constant S_ .f32 0x3E800000#32),
    unary main_cst_9 main_v79 (broadcastInDim S512x512x16x1 ![] bcast_S_S512x512x16x1 : (⟨S_, .f32⟩ : BufTy).Contents (Elt F) → (⟨S512x512x16x1, .f32⟩ : BufTy).Contents (Elt F)),
    binary main_v79 main_v78 main_v80 (mulf : (⟨S512x512x16x1, .f32⟩ : BufTy).Contents (Elt F) → (⟨S512x512x16x1, .f32⟩ : BufTy).Contents (Elt F) → (⟨S512x512x16x1, .f32⟩ : BufTy).Contents (Elt F)),
    unary main_v71 main_v81 (broadcastInDim S512x512x1x16 ![0, 1, 3] bcast_S512x512x16_S512x512x1x16_0_1_3 : (⟨S512x512x16, .f32⟩ : BufTy).Contents (Elt F) → (⟨S512x512x1x16, .f32⟩ : BufTy).Contents (Elt F)),
    unary main_v80 main_v82 (broadcastInDim S512x512x16x16 ![0, 1, 2, 3] bcast_S512x512x16x1_S512x512x16x16_0_1_2_3 : (⟨S512x512x16x1, .f32⟩ : BufTy).Contents (Elt F) → (⟨S512x512x16x16, .f32⟩ : BufTy).Contents (Elt F)),
    unary main_v81 main_v83 (broadcastInDim S512x512x16x16 ![0, 1, 2, 3] bcast_S512x512x1x16_S512x512x16x16_0_1_2_3 : (⟨S512x512x1x16, .f32⟩ : BufTy).Contents (Elt F) → (⟨S512x512x16x16, .f32⟩ : BufTy).Contents (Elt F)),
    binary main_v82 main_v83 main_v84 (mulf : (⟨S512x512x16x16, .f32⟩ : BufTy).Contents (Elt F) → (⟨S512x512x16x16, .f32⟩ : BufTy).Contents (Elt F) → (⟨S512x512x16x16, .f32⟩ : BufTy).Contents (Elt F)),
    unary main_v77 main_v85 (broadcastInDim S512x512x16x16 ![0, 1, 2, 3] bcast_S1x1x16x16_S512x512x16x16_0_1_2_3 : (⟨S1x1x16x16, .f32⟩ : BufTy).Contents (Elt F) → (⟨S512x512x16x16, .f32⟩ : BufTy).Contents (Elt F)),
    binary main_v85 main_v84 main_v86 (subf : (⟨S512x512x16x16, .f32⟩ : BufTy).Contents (Elt F) → (⟨S512x512x16x16, .f32⟩ : BufTy).Contents (Elt F) → (⟨S512x512x16x16, .f32⟩ : BufTy).Contents (Elt F)),
    unary main_v76 main_v87 (broadcastInDim S512x512x16x16 ![0, 1, 2, 3] bcast_S512x512x1x1_S512x512x16x16_0_1_2_3 : (⟨S512x512x1x1, .f32⟩ : BufTy).Contents (Elt F) → (⟨S512x512x16x16, .f32⟩ : BufTy).Contents (Elt F)),
    binary main_v87 main_v86 main_v88 (mulf : (⟨S512x512x16x16, .f32⟩ : BufTy).Contents (Elt F) → (⟨S512x512x16x16, .f32⟩ : BufTy).Contents (Elt F) → (⟨S512x512x16x16, .f32⟩ : BufTy).Contents (Elt F)),
    unary main_v88 main_v89 ((transpose S16x512x16x512 [2, 0, 3, 1] · transposes_S512x512x16x16_S16x512x16x512_2_0_3_1) : (⟨S512x512x16x16, .f32⟩ : BufTy).Contents (Elt F) → (⟨S16x512x16x512, .f32⟩ : BufTy).Contents (Elt F)),
    reshape main_v89 main_v90 rfl shapeCasts_S16x512x16x512_S8192x8192 ]

-- one hundred and forty binds re-associated: the rewrite under the chain recurses once per statement
set_option maxRecDepth 8192 in
set_option maxHeartbeats 40000000 in
/-- @main is that straight line: the two windows and the callees' bodies unfolded at their calls, both sides are one
    chain of operation steps once sequencing is reassociated. -/
theorem main_eq (c : Dev nD) : main (F := F) c = seq ops := by
  simp only [main, main_part0, main_part1, fn_softplus.body, fn_softplus_0.body, fn_diag.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., reshape_bufs_sub .., unary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., unary_bufs_sub .., unary_bufs_sub .., unary_bufs_sub .., nullary_bufs_sub .., unary_bufs_sub .., binary_bufs_sub .., unary_bufs_sub .., unary_bufs_sub .., unary_bufs_sub .., binary_bufs_sub .., unary_bufs_sub .., binary_bufs_sub .., unary_bufs_sub .., binary_bufs_sub .., unary_bufs_sub .., reshape_bufs_sub ..⟩

/-- The contents of an f32 array of shape `s`. -/
abbrev Arr (F : FTy → Type) (s : Shape) : Type := (⟨s, .f32⟩ : BufTy).Contents (Elt F)

/-- The length scales: softplus of the 16 unconstrained values, as the program's thirteen elementwise
    operations compute it (`max(u,0) + log1p(exp(-|u|))`, or `u + 0` where `u - 0` is not equal to itself). -/
def ls (u : Arr F S16) : Arr F S16 :=
  select (cmpf .une (subf u (broadcastInDim S16 ![] bcast_S_S16 (constant S_ .f32 0x00000000#32))) (subf u (broadcastInDim S16 ![] bcast_S_S16 (constant S_ .f32 0x00000000#32)))) (addf u (broadcastInDim S16 ![] bcast_S_S16 (constant S_ .f32 0x00000000#32))) (addf (maximumf u (broadcastInDim S16 ![] bcast_S_S16 (constant S_ .f32 0x00000000#32))) (Host.log1p (Host.exp (Host.negf (Host.absf (subf u (broadcastInDim S16 ![] bcast_S_S16 (constant S_ .f32 0x00000000#32))))))))

/-- The same softplus of the one unconstrained variance. -/
def var1 (u : Arr F S1) : Arr F S1 :=
  select (cmpf .une (subf u (broadcastInDim S1 ![] bcast_S_S1 (constant S_ .f32 0x00000000#32))) (subf u (broadcastInDim S1 ![] bcast_S_S1 (constant S_ .f32 0x00000000#32)))) (addf u (broadcastInDim S1 ![] bcast_S_S1 (constant S_ .f32 0x00000000#32))) (addf (maximumf u (broadcastInDim S1 ![] bcast_S_S1 (constant S_ .f32 0x00000000#32))) (Host.log1p (Host.exp (Host.negf (Host.absf (subf u (broadcastInDim S1 ![] bcast_S_S1 (constant S_ .f32 0x00000000#32))))))))

/-- The variance as a scalar: the one-element array read as a rank-0 one. -/
def var (u : Arr F S1) : Arr F S_ :=
  shapeCast S_ (var1 u) shapeCasts_S1_S_

/-- A point array divided, column by column, by the length scales `l`. -/
def scaled (X : Arr F S512x16) (l : Arr F S16) : Arr F S512x16 :=
  Host.divf X (broadcastInDim S512x16 ![0, 1] bcast_S1x16_S512x16_0_1 (broadcastInDim S1x16 ![1] bcast_S16_S1x16_1 l))

/-- Each row's sum of squares. -/
def sqNorm (a : Arr F S512x16) : Arr F S512 :=
  Host.reduceAdd (mulf a a) (constant S_ .f32 0x00000000#32) reducesTo_S512x16_S512_d1 h_S_

/-- The squared distances between the rows of `a` and of `b`:
    `|a n|² - Σ k, (2 * a n k) * b m k + |b m|²`. -/
def sqDist (a b : Arr F S512x16) : Arr F S512x512 :=
  addf (subf (broadcastInDim S512x512 ![0, 1] bcast_S512x1_S512x512_0_1 (broadcastInDim S512x1 ![0] bcast_S512_S512x1_0 (sqNorm a)))
      (Host.dotGeneral dot_S512x16_S16x512_S512x512_1_0_0_1_n_n none (mulf (broadcastInDim S512x16 ![] bcast_S_S512x16 (constant S_ .f32 0x40000000#32)) a) (transpose S16x512 [1, 0] b transposes_S512x16_S16x512_1_0)))
    (broadcastInDim S512x512 ![0, 1] bcast_S1x512_S512x512_0_1 (broadcastInDim S1x512 ![1] bcast_S512_S1x512_1 (sqNorm b)))

/-- The kernel matrix of scaled points: `v * exp (-0.25 * sqDist a b)`. -/
def kern (v : Arr F S_) (a b : Arr F S512x16) : Arr F S512x512 :=
  mulf (broadcastInDim S512x512 ![] bcast_S_S512x512 v) (Host.exp (mulf (broadcastInDim S512x512 ![] bcast_S_S512x512 (constant S_ .f32 0xBE800000#32)) (sqDist a b)))

/-- First result: the kernel matrix of `X` against `X2`. -/
def resK (X X2 : Arr F S512x16) (uls : Arr F S16) (uvar : Arr F S1) : Arr F S512x512 :=
  kern (var uvar) (scaled X (ls uls)) (scaled X2 (ls uls))

/-- The coordinate differences `(X n d - Y m d) / (l d * l d)`, as a `512 × 512 × 16` array. -/
def sdiff (X Y : Arr F S512x16) (l : Arr F S16) : Arr F S512x512x16 :=
  Host.divf (subf (broadcastInDim S512x512x16 ![0, 1, 2] bcast_S512x1x16_S512x512x16_0_1_2 (broadcastInDim S512x1x16 ![0, 2] bcast_S512x16_S512x1x16_0_2 X))
      (broadcastInDim S512x512x16 ![0, 1, 2] bcast_S1x512x16_S512x512x16_0_1_2 (broadcastInDim S1x512x16 ![1, 2] bcast_S512x16_S1x512x16_1_2 Y)))
    (broadcastInDim S512x512x16 ![0, 1, 2] bcast_S1x1x16_S512x512x16_0_1_2 (broadcastInDim S1x1x16 ![2] bcast_S16_S1x1x16_2 (mulf l l)))

/-- The gradient before its transposition: `(-0.5 * sdiff) * K`, indexed `[n, m, d]`. -/
def gradPre (X X2 : Arr F S512x16) (l : Arr F S16) (K : Arr F S512x512) : Arr F S512x512x16 :=
  mulf (mulf (broadcastInDim S512x512x16 ![] bcast_S_S512x512x16 (constant S_ .f32 0xBF000000#32)) (sdiff X X2 l))
    (broadcastInDim S512x512x16 ![0, 1, 2] bcast_S512x512x1_S512x512x16_0_1_2 (broadcastInDim S512x512x1 ![0, 1] bcast_S512x512_S512x512x1_0_1 K))

/-- Second result: the gradient, axes reordered to `[d, n, m]` and the first two merged. -/
def resG (X X2 : Arr F S512x16) (uls : Arr F S16) (uvar : Arr F S1) : Arr F S8192x512 :=
  shapeCast S8192x512 (transpose S16x512x512 [2, 0, 1] (gradPre X X2 (ls uls) (resK X X2 uls uvar)) transposes_S512x512x16_S16x512x512_2_0_1)
    shapeCasts_S16x512x512_S8192x512

/-- `0.5 / (l d * l d)`. -/
def halfInvSq (l : Arr F S16) : Arr F S16 :=
  Host.divf (broadcastInDim S16 ![] bcast_S_S16 (constant S_ .f32 0x3F000000#32)) (mulf l l)

/-- The `16 × 16` matrix with `v` on its diagonal and zero elsewhere, as the program builds it: `v` padded by
    nothing, broadcast along rows, and selected where the row index (plus zero) equals the column index. -/
def diagOf (v : Arr F S16) : Arr F S16x16 :=
  select (cmpi .eq (addi (iotaInDim S16x16 32 0) (broadcastInDim S16x16 ![] bcast_S_S16x16 (constantI S_ 32 0#32))) (iotaInDim S16x16 32 1))
    (broadcastInDim S16x16 ![0, 1] bcast_S16x1_S16x16_0_1 (broadcastInDim S16x1 ![0] bcast_S16_S16x1_0 (pad S16 ![0] ![0] ![0] v (constant S_ .f32 0x00000000#32) pads_S16_S16_000 h_S_)))
    (broadcastInDim S16x16 ![] bcast_S_S16x16 (constant S_ .f32 0x00000000#32))

/-- The Hessian before its transposition: `kNN * (diag - (0.25 * s a) * s b)`, indexed `[i, j, a, b]`. -/
def hessPre (X : Arr F S512x16) (l : Arr F S16) (kNN : Arr F S512x512) : Arr F S512x512x16x16 :=
  mulf (broadcastInDim S512x512x16x16 ![0, 1, 2, 3] bcast_S512x512x1x1_S512x512x16x16_0_1_2_3 (broadcastInDim S512x512x1x1 ![0, 1] bcast_S512x512_S512x512x1x1_0_1 kNN))
    (subf (broadcastInDim S512x512x16x16 ![0, 1, 2, 3] bcast_S1x1x16x16_S512x512x16x16_0_1_2_3 (broadcastInDim S1x1x16x16 ![2, 3] bcast_S16x16_S1x1x16x16_2_3 (diagOf (halfInvSq l))))
      (mulf (broadcastInDim S512x512x16x16 ![0, 1, 2, 3] bcast_S512x512x16x1_S512x512x16x16_0_1_2_3 (mulf (broadcastInDim S512x512x16x1 ![] bcast_S_S512x512x16x1 (constant S_ .f32 0x3E800000#32)) (broadcastInDim S512x512x16x1 ![0, 1, 2] bcast_S512x512x16_S512x512x16x1_0_1_2 (sdiff X X l))))
        (broadcastInDim S512x512x16x16 ![0, 1, 2, 3] bcast_S512x512x1x16_S512x512x16x16_0_1_2_3 (broadcastInDim S512x512x1x16 ![0, 1, 3] bcast_S512x512x16_S512x512x1x16_0_1_3 (sdiff X X l)))))

/-- Third result: the Hessian of `X` against itself, axes reordered to `[a, i, b, j]` and merged in pairs.
    (It does not read `X2`; the argument is kept so that the three results take the same four arrays.) -/
def resH (X X2 : Arr F S512x16) (uls : Arr F S16) (uvar : Arr F S1) : Arr F S8192x8192 :=
  shapeCast S8192x8192 (transpose S16x512x16x512 [2, 0, 3, 1]
      (hessPre X (ls uls) (kern (var uvar) (scaled X (ls uls)) (scaled X (ls uls)))) transposes_S512x512x16x16_S16x512x16x512_2_0_3_1)
    shapeCasts_S16x512x16x512_S8192x8192

/-! ## The fold at each result and argument buffer -/

set_option maxRecDepth 8192 in
set_option maxHeartbeats 200000000 in
/-- The operations' fold at the first result buffer is `resK` of the argument buffers' contents. -/
theorem after_v27 (V : Valuation τ sig (Elt F)) :
    after ops V (main_v27 : DevRef τ sig) = resK (V (main_arg0 : DevRef τ sig)) (V (main_arg1 : DevRef τ sig)) (V (main_arg2 : DevRef τ sig)) (V (main_arg3 : DevRef τ sig)) := by
  after_results_simp <;> rfl

set_option maxRecDepth 8192 in
set_option maxHeartbeats 200000000 in
/-- The fold at the second result buffer is `resG`. -/
theorem after_v43 (V : Valuation τ sig (Elt F)) :
    after ops V (main_v43 : DevRef τ sig) = resG (V (main_arg0 : DevRef τ sig)) (V (main_arg1 : DevRef τ sig)) (V (main_arg2 : DevRef τ sig)) (V (main_arg3 : DevRef τ sig)) := by
  after_results_simp <;> rfl

set_option maxRecDepth 8192 in
set_option maxHeartbeats 200000000 in
/-- The fold at the third result buffer is `resH`. -/
theorem after_v90 (V : Valuation τ sig (Elt F)) :
    after ops V (main_v90 : DevRef τ sig) = resH (V (main_arg0 : DevRef τ sig)) (V (main_arg1 : DevRef τ sig)) (V (main_arg2 : DevRef τ sig)) (V (main_arg3 : DevRef τ sig)) := by
  after_results_simp <;> rfl

set_option maxRecDepth 8192 in
set_option maxHeartbeats 200000000 in
/-- No operation writes argument 0's buffer. -/
theorem after_arg0 (V : Valuation τ sig (Elt F)) :
    after ops V (main_arg0 : DevRef τ sig) = V (main_arg0 : DevRef τ sig) := by
  after_results_simp <;> rfl

set_option maxRecDepth 8192 in
set_option maxHeartbeats 200000000 in
/-- No operation writes argument 1's buffer. -/
theorem after_arg1 (V : Valuation τ sig (Elt F)) :
    after ops V (main_arg1 : DevRef τ sig) = V (main_arg1 : DevRef τ sig) := by
  after_results_simp <;> rfl

set_option maxRecDepth 8192 in
set_option maxHeartbeats 200000000 in
/-- No operation writes argument 2's buffer. -/
theorem after_arg2 (V : Valuation τ sig (Elt F)) :
    after ops V (main_arg2 : DevRef τ sig) = V (main_arg2 : DevRef τ sig) := by
  after_results_simp <;> rfl

set_option maxRecDepth 8192 in
set_option maxHeartbeats 200000000 in
/-- No operation writes argument 3's buffer. -/
theorem after_arg3 (V : Valuation τ sig (Elt F)) :
    after ops V (main_arg3 : DevRef τ sig) = V (main_arg3 : DevRef τ sig) := by
  after_results_simp <;> rfl

/-! ## The run -/

/-- On every device, for any float values, from any memory with zero counters: every weakly fair execution of @main
    terminates with the three results at `resK`, `resG`, `resH` of the arguments' launch contents and the four
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = resK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v43) = resG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v90) = resH (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v27).trans (after_v27 _), (h c main_v43).trans (after_v43 _),
      (h c main_v90).trans (after_v90 _), (h c main_arg0).trans (after_arg0 _), (h c main_arg1).trans (after_arg1 _),
      (h c main_arg2).trans (after_arg2 _), (h c main_arg3).trans (after_arg3 _)⟩)
    (run_seq scopedRefs_eq scopedSems_eq defs main (fun _ => ops) main_eq (fun _ => ops_sub) m ρ)

end Cert.ReferenceIdeal.RefRun

end
-- ==== Proof.RefValue.lean ====
/- The reference's three results read index by index, at the ideal values (a float an extended real, every
   operation exact). Each named piece of the run's result terms is read at coordinates — the scaled points, the
   row sums of squares, the squared distances (the one-axis contraction re-indexed by its coordinate), the kernel
   matrix, the coordinate differences, the diagonal matrix — and the three results follow: entry `(n, m)` of the
   kernel matrix, entry `(d * 512 + n, m)` of the gradient and entry `(a * 512 + i, b * 512 + j)` of the Hessian
   as closed formulas over the coordinates. The length scales `ls uls` and the variance `var uvar` stay named:
   nothing here opens the softplus. -/
import proofs.«151589_j19816979103948_1_alg».proof.Proof.RefRun
import Idealize.ShloMosaic.Lib.IdealHost
import Idealize.ShloMosaic.Lib.ValueLayout
import Idealize.ShloMosaic.Lib.Pipeline.Value
import Idealize.ShloMosaic.Lib.KernelVsHost

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## Read at an index, at the ideal values -/

theorem scaled_apply (X : Arr Ideal S512x16) (l : Arr Ideal S16) (n : Fin 512) (k : Fin 16) :
    scaled X l (ix2 n k) = Ideal.div (X (ix2 n k)) (l (ix1 k)) := by
  unfold scaled
  rw [hostDivf_apply]
  congr 1
  refine (broadcastInDim_apply _ _ _ (ix2 n k) (ix2 (0 : Fin 1) k) ?_).trans ?_
  · intro a; match a with | ⟨0, _⟩ => rfl | ⟨1, _⟩ => rfl
  · exact broadcastInDim_apply _ _ _ _ (ix1 k) (by intro a; match a with | ⟨0, _⟩ => rfl)

theorem sqNorm_apply (a : Arr Ideal S512x16) (n : Fin 512) :
    sqNorm a (ix1 n) = ∑ k : Fin 16, a (ix2 n k) * a (ix2 n k) := by
  unfold sqNorm
  rw [hostReduceAdd_apply]
  have h : Shape.Reduces S512x16 [1] S512 := by decide
  refine (Ideal.hostReduceAdd_single reducesTo_S512x16_S512_d1 h _ _ (ix1 n)).trans ?_
  rw [constant_apply, Ideal.ofBits_zero_f32, zero_add]
  refine Finset.sum_congr rfl fun k _ => ?_
  have hidx : h.lift (ix1 n) k = ix2 n k := by
    funext d; match d with | ⟨0, _⟩ => rfl | ⟨1, _⟩ => rfl
  rw [mulf_apply, hidx]
  rfl

/-- The literal two. -/
abbrev two : EReal := Ideal.ofBits .f32 0x40000000#32
/-- The literal minus one quarter. -/
abbrev negQuarter : EReal := Ideal.ofBits .f32 0xBE800000#32

theorem sqDist_apply (a b : Arr Ideal S512x16) (n m : Fin 512) :
    sqDist a b (ix2 n m)
      = sqNorm a (ix1 n) - (∑ k : Fin 16, (two * a (ix2 n k)) * b (ix2 m k)) + sqNorm b (ix1 m) := by
  unfold sqDist
  rw [addf_apply, subf_apply]
  congr 1
  · congr 1
    · refine (broadcastInDim_apply _ _ _ (ix2 n m) (ix2 n (0 : Fin 1)) ?_).trans ?_
      · intro a; match a with | ⟨0, _⟩ => rfl | ⟨1, _⟩ => rfl
      · exact broadcastInDim_apply _ _ _ _ (ix1 n) (by intro a; match a with | ⟨0, _⟩ => rfl)
    · simp only [Host.dotGeneral]
      rw [Ideal.dotGeneral_apply]
      rw [← Equiv.sum_comp (contrEquiv1 dot_S512x16_S16x512_S512x512_1_0_0_1_n_n 16 rfl rfl).symm]
      refine Finset.sum_congr rfl fun k _ => ?_
      have hl : dot_S512x16_S16x512_S512x512_1_0_0_1_n_n.lhsIdx (ix2 n m)
          ((contrEquiv1 dot_S512x16_S16x512_S512x512_1_0_0_1_n_n 16 rfl rfl).symm k) = ix2 n k := by
        funext d; match d with
        | ⟨0, _⟩ => rfl
        | ⟨1, _⟩ => exact Fin.ext ((DotDims.lhsIdx_val_of_single _ rfl _ _).trans (contrEquiv1_symm_val _ 16 rfl rfl k))
      rw [hl, mulf_apply, broadcastInDim_scalar_apply, constant_apply]
      congr 1
      refine transpose_apply _ _ _ _ (ix2 m k) ?_
      intro d; match d with
      | ⟨0, _⟩ => exact ((DotDims.rhsIdx_val_of_single _ rfl _ _).trans (contrEquiv1_symm_val _ 16 rfl rfl k)).symm
      | ⟨1, _⟩ => rfl
  · refine (broadcastInDim_apply _ _ _ (ix2 n m) (ix2 (0 : Fin 1) m) ?_).trans ?_
    · intro a; match a with | ⟨0, _⟩ => rfl | ⟨1, _⟩ => rfl
    · exact broadcastInDim_apply _ _ _ _ (ix1 m) (by intro a; match a with | ⟨0, _⟩ => rfl)

theorem kern_apply (v : Arr Ideal S_) (a b : Arr Ideal S512x16) (n m : Fin 512) :
    kern v a b (ix2 n m) = v ix0 * Ideal.exp (negQuarter * sqDist a b (ix2 n m)) := by
  unfold kern
  rw [mulf_apply, broadcastInDim_scalar_apply]
  rfl

/-- The first result at row `n`, column `m`: the variance times the exponential of minus a quarter of the squared
    distance between the scaled rows. -/
theorem resK_apply (X X2 : Arr Ideal S512x16) (uls : Arr Ideal S16) (uvar : Arr Ideal S1) (n m : Fin 512) :
    resK X X2 uls uvar (ix2 n m)
      = var uvar ix0 * Ideal.exp (negQuarter *
          ((∑ k : Fin 16, Ideal.div (X (ix2 n k)) (ls uls (ix1 k)) * Ideal.div (X (ix2 n k)) (ls uls (ix1 k)))
            - (∑ k : Fin 16, (two * Ideal.div (X (ix2 n k)) (ls uls (ix1 k))) * Ideal.div (X2 (ix2 m k)) (ls uls (ix1 k)))
            + (∑ k : Fin 16, Ideal.div (X2 (ix2 m k)) (ls uls (ix1 k)) * Ideal.div (X2 (ix2 m k)) (ls uls (ix1 k))))) := by
  unfold resK
  rw [kern_apply, sqDist_apply, sqNorm_apply, sqNorm_apply]
  simp only [scaled_apply]

/-- The literal minus one half. -/
abbrev negHalf : EReal := Ideal.ofBits .f32 0xBF000000#32

theorem sdiff_apply (X Y : Arr Ideal S512x16) (l : Arr Ideal S16) (n m : Fin 512) (d : Fin 16) :
    RefRun.sdiff X Y l (ix3 n m d) = Ideal.div (X (ix2 n d) - Y (ix2 m d)) (l (ix1 d) * l (ix1 d)) := by
  unfold RefRun.sdiff
  rw [hostDivf_apply, subf_apply]
  congr 1
  · congr 1
    · refine (broadcastInDim_apply _ _ _ (ix3 n m d) (ix3 n (0 : Fin 1) d) ?_).trans ?_
      · intro a; match a with | ⟨0, _⟩ => rfl | ⟨1, _⟩ => rfl | ⟨2, _⟩ => rfl
      · exact broadcastInDim_apply _ _ _ _ (ix2 n d) (by intro a; match a with | ⟨0, _⟩ => rfl | ⟨1, _⟩ => rfl)
    · refine (broadcastInDim_apply _ _ _ (ix3 n m d) (ix3 (0 : Fin 1) m d) ?_).trans ?_
      · intro a; match a with | ⟨0, _⟩ => rfl | ⟨1, _⟩ => rfl | ⟨2, _⟩ => rfl
      · exact broadcastInDim_apply _ _ _ _ (ix2 m d) (by intro a; match a with | ⟨0, _⟩ => rfl | ⟨1, _⟩ => rfl)
  · refine (broadcastInDim_apply _ _ _ (ix3 n m d) (ix3 (0 : Fin 1) (0 : Fin 1) d) ?_).trans ?_
    · intro a; match a with | ⟨0, _⟩ => rfl | ⟨1, _⟩ => rfl | ⟨2, _⟩ => rfl
    · refine (broadcastInDim_apply _ _ _ _ (ix1 d) (by intro a; match a with | ⟨0, _⟩ => rfl)).trans ?_
      rw [mulf_apply]

theorem gradPre_apply (X X2 : Arr Ideal S512x16) (l : Arr Ideal S16) (K : Arr Ideal S512x512) (n m : Fin 512) (d : Fin 16) :
    gradPre X X2 l K (ix3 n m d) = (negHalf * RefRun.sdiff X X2 l (ix3 n m d)) * K (ix2 n m) := by
  unfold gradPre
  rw [mulf_apply, mulf_apply, broadcastInDim_scalar_apply, constant_apply]
  congr 1
  refine (broadcastInDim_apply _ _ _ (ix3 n m d) (ix3 n m (0 : Fin 1)) ?_).trans ?_
  · intro a; match a with | ⟨0, _⟩ => rfl | ⟨1, _⟩ => rfl | ⟨2, _⟩ => rfl
  · exact broadcastInDim_apply _ _ _ _ (ix2 n m) (by intro a; match a with | ⟨0, _⟩ => rfl | ⟨1, _⟩ => rfl)

/-- Row `d * 512 + n` of the `8192 × 512` gradient. -/
abbrev rowG (d : Fin 16) (n : Fin 512) : Fin 8192 := ⟨d.val * 512 + n.val, by omega⟩

theorem resG_eq_gradPre (X X2 : Arr Ideal S512x16) (uls : Arr Ideal S16) (uvar : Arr Ideal S1) (d : Fin 16) (n m : Fin 512) :
    resG X X2 uls uvar (ix2 (rowG d n) m) = gradPre X X2 (ls uls) (resK X X2 uls uvar) (ix3 n m d) := by
  unfold resG
  refine (shapeCast_apply _ _ (ix2 (rowG d n) m) (ix3 d n m) ?_).trans ?_
  · rw [Shape.rowMajor_val_three, Shape.rowMajor_val_two]
    rfl
  · exact transpose_apply _ _ _ (ix3 d n m) (ix3 n m d) (by intro b; match b with | ⟨0, _⟩ => rfl | ⟨1, _⟩ => rfl | ⟨2, _⟩ => rfl)

/-- The second result at row `d * 512 + n`, column `m`. -/
theorem resG_apply (X X2 : Arr Ideal S512x16) (uls : Arr Ideal S16) (uvar : Arr Ideal S1) (d : Fin 16) (n m : Fin 512) :
    resG X X2 uls uvar (ix2 (rowG d n) m)
      = (negHalf * Ideal.div (X (ix2 n d) - X2 (ix2 m d)) (ls uls (ix1 d) * ls uls (ix1 d))) * resK X X2 uls uvar (ix2 n m) := by
  rw [resG_eq_gradPre, gradPre_apply, sdiff_apply]

/-- The literal one half. -/
abbrev half : EReal := Ideal.ofBits .f32 0x3F000000#32
/-- The literal one quarter. -/
abbrev quarter : EReal := Ideal.ofBits .f32 0x3E800000#32

/-- The variance scalar is the one entry of the one-element softplus. -/
theorem var_apply (uvar : Arr Ideal S1) : var uvar ix0 = var1 uvar (ix1 (0 : Fin 1)) := by
  unfold var
  exact shapeCast_apply _ _ ix0 (ix1 (0 : Fin 1)) rfl

theorem halfInvSq_apply (l : Arr Ideal S16) (a : Fin 16) :
    halfInvSq l (ix1 a) = Ideal.div half (l (ix1 a) * l (ix1 a)) := by
  unfold halfInvSq
  rw [hostDivf_apply, broadcastInDim_scalar_apply, constant_apply, mulf_apply]

/-- The 32-bit comparison of the row number plus zero with the column number decides equality of the two
    coordinates below sixteen. -/
theorem diag_cond (a b : Fin 16) :
    IntOp.cmpi .eq (IntOp.addi (BitVec.ofNat 32 a.val) 0#32) (BitVec.ofNat 32 b.val) = BitVec.ofBool (decide (a = b)) := by
  revert a b; decide

theorem diagOf_apply (v : Arr Ideal S16) (a b : Fin 16) :
    diagOf v (ix2 a b) = if a = b then v (ix1 a) else 0 := by
  unfold diagOf
  rw [select_apply]
  simp only [broadcastInDim_scalar_apply]
  show Scalar.select (IntOp.cmpi .eq (IntOp.addi (BitVec.ofNat 32 a.val) 0#32) (BitVec.ofNat 32 b.val)) _ _ = _
  rw [diag_cond]
  by_cases hab : a = b
  · subst hab
    rw [if_pos rfl, decide_eq_true rfl]
    show Scalar.select 1#1 _ _ = _
    rw [select_one]
    refine (broadcastInDim_apply _ _ _ (ix2 a a) (ix2 a (0 : Fin 1)) (by intro c'; match c' with | ⟨0, _⟩ => rfl | ⟨1, _⟩ => rfl)).trans ?_
    refine (broadcastInDim_apply _ _ _ _ (ix1 a) (by intro c'; match c' with | ⟨0, _⟩ => rfl)).trans ?_
    exact pad_apply_of_inside _ _ _ _ _ _ _ (ix1 a) (ix1 a)
      (by intro c; match c with | ⟨0, _⟩ => exact (by show a.val = 0 + a.val * (0 + 1); omega))
  · rw [if_neg hab, decide_eq_false hab]
    show Scalar.select 0#1 _ _ = _
    rw [select_zero, broadcastInDim_scalar_apply, constant_apply, Ideal.ofBits_zero_f32]

theorem hessPre_apply (X : Arr Ideal S512x16) (l : Arr Ideal S16) (kNN : Arr Ideal S512x512) (i j : Fin 512) (a b : Fin 16) :
    hessPre X l kNN (ix4 i j a b)
      = kNN (ix2 i j) * (diagOf (halfInvSq l) (ix2 a b) - (quarter * RefRun.sdiff X X l (ix3 i j a)) * RefRun.sdiff X X l (ix3 i j b)) := by
  unfold hessPre
  rw [mulf_apply, subf_apply, mulf_apply]
  congr 1
  · refine (broadcastInDim_apply _ _ _ (ix4 i j a b) (ix4 i j (0 : Fin 1) (0 : Fin 1)) (by intro c'; match c' with | ⟨0, _⟩ => rfl | ⟨1, _⟩ => rfl | ⟨2, _⟩ => rfl | ⟨3, _⟩ => rfl)).trans ?_
    exact broadcastInDim_apply _ _ _ _ (ix2 i j) (by intro c'; match c' with | ⟨0, _⟩ => rfl | ⟨1, _⟩ => rfl)
  · congr 1
    · refine (broadcastInDim_apply _ _ _ (ix4 i j a b) (ix4 (0 : Fin 1) (0 : Fin 1) a b) (by intro c'; match c' with | ⟨0, _⟩ => rfl | ⟨1, _⟩ => rfl | ⟨2, _⟩ => rfl | ⟨3, _⟩ => rfl)).trans ?_
      exact broadcastInDim_apply _ _ _ _ (ix2 a b) (by intro c'; match c' with | ⟨0, _⟩ => rfl | ⟨1, _⟩ => rfl)
    · congr 1
      · refine (broadcastInDim_apply _ _ _ (ix4 i j a b) (ix4 i j a (0 : Fin 1)) (by intro c'; match c' with | ⟨0, _⟩ => rfl | ⟨1, _⟩ => rfl | ⟨2, _⟩ => rfl | ⟨3, _⟩ => rfl)).trans ?_
        rw [mulf_apply, broadcastInDim_scalar_apply, constant_apply]
        congr 1
        exact broadcastInDim_apply _ _ _ _ (ix3 i j a) (by intro c'; match c' with | ⟨0, _⟩ => rfl | ⟨1, _⟩ => rfl | ⟨2, _⟩ => rfl)
      · refine (broadcastInDim_apply _ _ _ (ix4 i j a b) (ix4 i j (0 : Fin 1) b) (by intro c'; match c' with | ⟨0, _⟩ => rfl | ⟨1, _⟩ => rfl | ⟨2, _⟩ => rfl | ⟨3, _⟩ => rfl)).trans ?_
        exact broadcastInDim_apply _ _ _ _ (ix3 i j b) (by intro c'; match c' with | ⟨0, _⟩ => rfl | ⟨1, _⟩ => rfl | ⟨2, _⟩ => rfl)

theorem resH_eq_hessPre (X X2 : Arr Ideal S512x16) (uls : Arr Ideal S16) (uvar : Arr Ideal S1)
    (a : Fin 16) (i : Fin 512) (b : Fin 16) (j : Fin 512) :
    resH X X2 uls uvar (ix2 (rowG a i) (rowG b j)) = hessPre X (ls uls) (resK X X uls uvar) (ix4 i j a b) := by
  unfold resH
  refine (shapeCast_apply _ _ (ix2 (rowG a i) (rowG b j)) (ix4 a i b j) ?_).trans ?_
  · rw [Shape.rowMajor_val_four, Shape.rowMajor_val_two]
    show ((a.val * 512 + i.val) * 16 + b.val) * 512 + j.val = (a.val * 512 + i.val) * 8192 + (b.val * 512 + j.val)
    omega
  · exact transpose_apply _ _ _ (ix4 a i b j) (ix4 i j a b) (by intro c'; match c' with | ⟨0, _⟩ => rfl | ⟨1, _⟩ => rfl | ⟨2, _⟩ => rfl | ⟨3, _⟩ => rfl)

/-- The third result at row `a * 512 + i`, column `b * 512 + j`. -/
theorem resH_apply (X X2 : Arr Ideal S512x16) (uls : Arr Ideal S16) (uvar : Arr Ideal S1)
    (a : Fin 16) (i : Fin 512) (b : Fin 16) (j : Fin 512) :
    resH X X2 uls uvar (ix2 (rowG a i) (rowG b j))
      = resK X X uls uvar (ix2 i j)
        * ((if a = b then Ideal.div half (ls uls (ix1 a) * ls uls (ix1 a)) else 0)
          - (quarter * Ideal.div (X (ix2 i a) - X (ix2 j a)) (ls uls (ix1 a) * ls uls (ix1 a)))
            * Ideal.div (X (ix2 i b) - X (ix2 j b)) (ls uls (ix1 b) * ls uls (ix1 b))) := by
  rw [resH_eq_hessPre, hessPre_apply, diagOf_apply, sdiff_apply, sdiff_apply, halfInvSq_apply]

end Cert.ReferenceIdeal.RefValue

end
-- ==== Proof.LibERealLaws.lean ====
/-
  General laws of the extended reals used by the certificate: one-hot sums, a non-negative finite
  scalar distributing over a finite sum, and division by a positive real.
-/
import Idealize.ShloMosaic.PureOps.Ideal
import Mathlib.Data.EReal.Operations
import Mathlib.Data.EReal.Inv

namespace Cert.LibERealLaws

open scoped BigOperators
open Idealize.ShloMosaic

/-! ### One-hot sums

x * 0 = 0 and x * 1 = x hold for EVERY extended real (also at the infinities), so a sum against a
one-hot vector picks out one term with no finiteness hypothesis. -/

/-- ∑ k, x k * [k = d] = x d, for any family of extended reals. -/
theorem one_hot_sum_right {ι : Type*} [Fintype ι] [DecidableEq ι] (x : ι → EReal) (d : ι) :
    (∑ k, x k * (if k = d then (1 : EReal) else 0)) = x d := by
  rw [Finset.sum_eq_single d]
  · rw [if_pos rfl, mul_one]
  · intro b _ hb; rw [if_neg hb, mul_zero]
  · intro h; exact absurd (Finset.mem_univ d) h

/-- ∑ k, [k = d] * x k = x d, for any family of extended reals. -/
theorem one_hot_sum_left {ι : Type*} [Fintype ι] [DecidableEq ι] (x : ι → EReal) (d : ι) :
    (∑ k, (if k = d then (1 : EReal) else 0) * x k) = x d := by
  rw [Finset.sum_eq_single d]
  · rw [if_pos rfl, one_mul]
  · intro b _ hb; rw [if_neg hb, zero_mul]
  · intro h; exact absurd (Finset.mem_univ d) h

/-- ∑ k, x k * [d = k] = x d (the one-hot written with the sides of the equation swapped). -/
theorem one_hot_sum_right' {ι : Type*} [Fintype ι] [DecidableEq ι] (x : ι → EReal) (d : ι) :
    (∑ k, x k * (if d = k then (1 : EReal) else 0)) = x d := by
  rw [Finset.sum_eq_single d]
  · rw [if_pos rfl, mul_one]
  · intro b _ hb; rw [if_neg (Ne.symm hb), mul_zero]
  · intro h; exact absurd (Finset.mem_univ d) h

/-- ∑ k, [d = k] * x k = x d (the one-hot written with the sides of the equation swapped). -/
theorem one_hot_sum_left' {ι : Type*} [Fintype ι] [DecidableEq ι] (x : ι → EReal) (d : ι) :
    (∑ k, (if d = k then (1 : EReal) else 0) * x k) = x d := by
  rw [Finset.sum_eq_single d]
  · rw [if_pos rfl, one_mul]
  · intro b _ hb; rw [if_neg (Ne.symm hb), zero_mul]
  · intro h; exact absurd (Finset.mem_univ d) h

/-- 0 + ∑ k, x k * [k = d] = x d: the one-hot sum read as "initial value 0 plus the sum". -/
theorem zero_add_one_hot_sum_right {ι : Type*} [Fintype ι] [DecidableEq ι] (x : ι → EReal) (d : ι) :
    (0 : EReal) + (∑ k, x k * (if k = d then (1 : EReal) else 0)) = x d := by
  rw [zero_add, one_hot_sum_right]

/-- 0 + ∑ k, [k = d] * x k = x d: the one-hot sum read as "initial value 0 plus the sum". -/
theorem zero_add_one_hot_sum_left {ι : Type*} [Fintype ι] [DecidableEq ι] (x : ι → EReal) (d : ι) :
    (0 : EReal) + (∑ k, (if k = d then (1 : EReal) else 0) * x k) = x d := by
  rw [zero_add, one_hot_sum_left]

/-- 0 + ∑ k, x k * [d = k] = x d. -/
theorem zero_add_one_hot_sum_right' {ι : Type*} [Fintype ι] [DecidableEq ι] (x : ι → EReal) (d : ι) :
    (0 : EReal) + (∑ k, x k * (if d = k then (1 : EReal) else 0)) = x d := by
  rw [zero_add, one_hot_sum_right']

/-- 0 + ∑ k, [d = k] * x k = x d. -/
theorem zero_add_one_hot_sum_left' {ι : Type*} [Fintype ι] [DecidableEq ι] (x : ι → EReal) (d : ι) :
    (0 : EReal) + (∑ k, (if d = k then (1 : EReal) else 0) * x k) = x d := by
  rw [zero_add, one_hot_sum_left']

/-- The one-hot sums over Fin n, the form a contraction over a tensor axis takes: both orders of the
    product, each with and without a leading 0 +. -/
theorem one_hot_sum {n : ℕ} (x : Fin n → EReal) (d : Fin n) :
    (∑ k, x k * (if k = d then (1 : EReal) else 0)) = x d
      ∧ (∑ k, (if k = d then (1 : EReal) else 0) * x k) = x d
      ∧ (0 : EReal) + (∑ k, x k * (if k = d then (1 : EReal) else 0)) = x d
      ∧ (0 : EReal) + (∑ k, (if k = d then (1 : EReal) else 0) * x k) = x d :=
  ⟨one_hot_sum_right x d, one_hot_sum_left x d, zero_add_one_hot_sum_right x d,
    zero_add_one_hot_sum_left x d⟩

/-! ### A non-negative finite scalar distributes over a finite sum

Multiplication by an extended real does not distribute over addition in general (⊤ + ⊥), but it
does for a factor c with 0 ≤ c and c ≠ ⊤, whatever the summands are. -/

/-- c * ∑ k ∈ s, f k = ∑ k ∈ s, c * f k for 0 ≤ c, c ≠ ⊤ and any extended reals f k. -/
theorem mul_finset_sum {ι : Type*} (s : Finset ι) {c : EReal} (h0 : 0 ≤ c) (ht : c ≠ ⊤)
    (f : ι → EReal) : c * ∑ k ∈ s, f k = ∑ k ∈ s, c * f k := by
  classical
  induction s using Finset.induction_on with
  | empty => rw [Finset.sum_empty, Finset.sum_empty, mul_zero]
  | insert a s ha ih =>
    rw [Finset.sum_insert ha, Finset.sum_insert ha,
      EReal.left_distrib_of_nonneg_of_ne_top h0 ht, ih]

/-- c * ∑ k, f k = ∑ k, c * f k over a finite type, for 0 ≤ c, c ≠ ⊤. -/
theorem mul_sum {ι : Type*} [Fintype ι] {c : EReal} (h0 : 0 ≤ c) (ht : c ≠ ⊤) (f : ι → EReal) :
    c * ∑ k, f k = ∑ k, c * f k :=
  mul_finset_sum Finset.univ h0 ht f

/-- c * ∑ k, a k * b k = ∑ k, (c * a k) * b k over a finite type, for 0 ≤ c, c ≠ ⊤. -/
theorem mul_sum_mul {ι : Type*} [Fintype ι] {c : EReal} (h0 : 0 ≤ c) (ht : c ≠ ⊤)
    (a b : ι → EReal) : c * ∑ k, a k * b k = ∑ k, (c * a k) * b k := by
  rw [mul_sum h0 ht]
  exact Finset.sum_congr rfl fun k _ => (mul_assoc c (a k) (b k)).symm

/-- 0 ≤ 2 in the extended reals. -/
theorem two_nonneg : (0 : EReal) ≤ 2 := by
  have h : ((0 : ℝ) : EReal) ≤ ((2 : ℝ) : EReal) := EReal.coe_le_coe_iff.2 (by norm_num)
  exact_mod_cast h

/-- 2 ≠ ⊤ in the extended reals. -/
theorem two_ne_top : (2 : EReal) ≠ ⊤ := by
  have h : ((2 : ℝ) : EReal) ≠ ⊤ := EReal.coe_ne_top 2
  exact_mod_cast h

/-- 2 * ∑ k, f k = ∑ k, 2 * f k for any extended reals f k. -/
theorem two_mul_sum {n : ℕ} (f : Fin n → EReal) : (2 : EReal) * ∑ k, f k = ∑ k, 2 * f k :=
  mul_sum two_nonneg two_ne_top f

/-- 2 * ∑ k, a k * b k = ∑ k, (2 * a k) * b k for any extended reals a k, b k. -/
theorem two_mul_sum_mul {n : ℕ} (a b : Fin n → EReal) :
    (2 : EReal) * ∑ k, a k * b k = ∑ k, (2 * a k) * b k :=
  mul_sum_mul two_nonneg two_ne_top a b

/-- A real coefficient c ≥ 0 coerced: ↑c * ∑ k, f k = ∑ k, ↑c * f k. -/
theorem coe_mul_sum {ι : Type*} [Fintype ι] {c : ℝ} (h0 : 0 ≤ c) (f : ι → EReal) :
    (c : EReal) * ∑ k, f k = ∑ k, (c : EReal) * f k :=
  mul_sum (EReal.coe_nonneg.2 h0) (EReal.coe_ne_top c) f

/-! ### Division by a positive real

Ideal.div x y is x * y⁻¹ off y = 0; for y a positive real it is multiplication by the real
y⁻¹, at the infinities too, and so commutes with the other factors of a product. -/

/-- x / L = x * L⁻¹ for a real L > 0 and every extended real x. -/
theorem div_pos_real {L : ℝ} (hL : 0 < L) (x : EReal) :
    Ideal.div x (L : EReal) = x * ((L⁻¹ : ℝ) : EReal) := by
  rw [Ideal.div_coe hL.ne', one_div]

/-- (c / L) * x = c * (x / L) for a real L > 0 and all extended reals c, x. -/
theorem div_mul_eq_mul_div {L : ℝ} (hL : 0 < L) (c x : EReal) :
    Ideal.div c (L : EReal) * x = c * Ideal.div x (L : EReal) := by
  rw [div_pos_real hL, div_pos_real hL, mul_assoc, mul_comm ((L⁻¹ : ℝ) : EReal) x]

/-- x * (1 / L) = x / L for a real L > 0 and every extended real x. -/
theorem mul_one_div {L : ℝ} (hL : 0 < L) (x : EReal) :
    x * Ideal.div 1 (L : EReal) = Ideal.div x (L : EReal) := by
  rw [div_pos_real hL, div_pos_real hL, one_mul]

/-- (1 / L) * x = x / L for a real L > 0 and every extended real x. -/
theorem one_div_mul {L : ℝ} (hL : 0 < L) (x : EReal) :
    Ideal.div 1 (L : EReal) * x = Ideal.div x (L : EReal) := by
  rw [mul_comm, mul_one_div hL]

/-- (x / L) * y = (x * y) / L for a real L > 0. -/
theorem div_mul {L : ℝ} (hL : 0 < L) (x y : EReal) :
    Ideal.div x (L : EReal) * y = Ideal.div (x * y) (L : EReal) := by
  rw [div_pos_real hL, div_pos_real hL, mul_assoc, mul_comm ((L⁻¹ : ℝ) : EReal) y, mul_assoc]

/-- x * (y / L) = (x * y) / L for a real L > 0. -/
theorem mul_div {L : ℝ} (hL : 0 < L) (x y : EReal) :
    x * Ideal.div y (L : EReal) = Ideal.div (x * y) (L : EReal) := by
  rw [div_pos_real hL, div_pos_real hL, mul_assoc]

/-- A quotient of a real by a positive real is the real quotient. -/
theorem div_coe_coe {L : ℝ} (hL : 0 < L) (r : ℝ) :
    Ideal.div (r : EReal) (L : EReal) = ((r / L : ℝ) : EReal) := by
  rw [div_pos_real hL, ← EReal.coe_mul, div_eq_mul_inv]

/-! ### Products of positive reals -/

/-- The square of a real, coerced: ↑a * ↑a = ↑(a * a). -/
theorem coe_mul_self (a : ℝ) : ((a : ℝ) : EReal) * (a : EReal) = ((a * a : ℝ) : EReal) :=
  (EReal.coe_mul a a).symm

/-- The square of a positive real is a positive real: ↑a * ↑a = ↑(a * a) with 0 < a * a. -/
theorem coe_mul_self_pos {a : ℝ} (ha : 0 < a) :
    ((a : ℝ) : EReal) * (a : EReal) = ((a * a : ℝ) : EReal) ∧ 0 < a * a :=
  ⟨coe_mul_self a, mul_pos ha ha⟩

/-- The product of two positive reals, coerced, is a positive real. -/
theorem coe_mul_pos {a b : ℝ} (ha : 0 < a) (hb : 0 < b) :
    ((a : ℝ) : EReal) * (b : EReal) = ((a * b : ℝ) : EReal) ∧ 0 < a * b :=
  ⟨(EReal.coe_mul a b).symm, mul_pos ha hb⟩

end Cert.LibERealLaws
-- ==== Proof.RefJoin.lean ====
/- The reference's three results are the closed forms of the kernel matrix, its gradient and its Hessian, entry by
   entry, at the ideal values. The length scales and the variance are the softplus chain of the unconstrained
   values; the two sides then differ only by where a constant factor stands: the two of the cross term inside or
   outside the contraction's sum (a non-negative finite factor distributes over any sum of extended reals), and a
   quotient by the squared length scale taken before or after a product (equal because the squared length scale is a
   positive real whenever the unconstrained value is a real). -/
import proofs.«151589_j19816979103948_1_alg».proof.Proof.RefValue
import proofs.«151589_j19816979103948_1_alg».proof.Proof.ClosedForms
import proofs.«151589_j19816979103948_1_alg».proof.Proof.LibERealLaws
import proofs.«151589_j19816979103948_1_alg».proof.Proof.LibSoftplus

noncomputable section

namespace Cert.ReferenceIdeal.RefJoin

open Cert.ReferenceIdeal Cert.ReferenceIdeal.Gen Cert.ReferenceIdeal.RefRun Cert.ReferenceIdeal.RefValue
  Idealize.ShloMosaic Idealize.ShloMosaic.ValueIdx
open scoped BigOperators

/-! ## The length scales and the variance as the softplus chain -/

/-- Each length scale is the softplus chain of its unconstrained value. -/
theorem ls_apply (uls : Arr Ideal S16) (k : Fin 16) : ls uls (ix1 k) = Cert.LibSoftplus.chain (uls (ix1 k)) := rfl

/-- The variance is the softplus chain of the one unconstrained value. -/
theorem var_chain (uvar : Arr Ideal S1) : var uvar ix0 = Cert.LibSoftplus.chain (uvar (ix1 (0 : Fin 1))) := by
  rw [var_apply]; rfl

/-- The binary word `0x40000000` is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- The word two moves out of the contraction: `Σ (2 · a) · b = 2 · Σ a · b` (two is non-negative and finite, so this
    holds for any extended reals). -/
theorem sum_two_mul (a b : Fin 16 → EReal) :
    (∑ k : Fin 16, (two * a k) * b k) = Cert.ClosedForms.c2 * ∑ k : Fin 16, a k * b k := by
  show (∑ k : Fin 16, (Ideal.ofBits .f32 0x40000000#32 * a k) * b k) = Ideal.ofBits .f32 0x40000000#32 * _
  rw [ofBits_two_f32]
  exact (Cert.LibERealLaws.two_mul_sum_mul a b).symm

/-! ## The three results are the closed forms -/

/-- Entry `(n, m)` of the first result is the closed form of the kernel matrix: the two spellings differ only in
    where the factor two stands in the cross term. -/
theorem join_K (X X2 : Arr Ideal S512x16) (uls : Arr Ideal S16) (uvar : Arr Ideal S1) (n m : Fin 512) :
    resK X X2 uls uvar (ix2 n m)
      = Cert.ClosedForms.kerK X X2 (fun k => Cert.LibSoftplus.chain (uls (ix1 k)))
          (Cert.LibSoftplus.chain (uvar (ix1 (0 : Fin 1)))) n m := by
  rw [resK_apply, var_chain]
  simp only [ls_apply]
  unfold Cert.ClosedForms.kerK Cert.ClosedForms.sc
  rw [sum_two_mul (fun k => Ideal.div (X (ix2 n k)) (Cert.LibSoftplus.chain (uls (ix1 k))))
    (fun k => Ideal.div (X2 (ix2 m k)) (Cert.LibSoftplus.chain (uls (ix1 k))))]

/-- Entry `(d * 512 + n, m)` of the second result is the closed form of the gradient: with the length scale a
    positive real, `(c / L) · x = c · (x / L)`. -/
theorem join_G (X X2 : Arr Ideal S512x16) (uls : Arr Ideal S16) (uvar : Arr Ideal S1)
    (hreal : ∀ k : Fin 16, ∃ r : ℝ, uls (ix1 k) = (r : EReal)) (d : Fin 16) (n m : Fin 512) :
    resG X X2 uls uvar (ix2 (rowG d n) m)
      = Cert.ClosedForms.kerG X X2 (fun k => Cert.LibSoftplus.chain (uls (ix1 k)))
          (Cert.LibSoftplus.chain (uvar (ix1 (0 : Fin 1)))) d n m := by
  obtain ⟨s, hs, hd⟩ := Cert.LibSoftplus.chain_pos_real_of_real (hreal d)
  rw [resG_apply, join_K, ls_apply]
  unfold Cert.ClosedForms.kerG
  dsimp only
  rw [hd, Cert.LibERealLaws.coe_mul_self, Cert.LibERealLaws.div_mul_eq_mul_div (mul_pos hs hs)]

/-- Entry `(a * 512 + i, b * 512 + j)` of the third result is the closed form of the Hessian: with the length
    scales positive reals, `x · (1 / L) = x / L`; the word `0x3F800000` is one and the zero word is zero. -/
theorem join_H (X X2 : Arr Ideal S512x16) (uls : Arr Ideal S16) (uvar : Arr Ideal S1)
    (hreal : ∀ k : Fin 16, ∃ r : ℝ, uls (ix1 k) = (r : EReal)) (a : Fin 16) (i : Fin 512) (b : Fin 16) (j : Fin 512) :
    resH X X2 uls uvar (ix2 (rowG a i) (rowG b j))
      = Cert.ClosedForms.kerH X (fun k => Cert.LibSoftplus.chain (uls (ix1 k)))
          (Cert.LibSoftplus.chain (uvar (ix1 (0 : Fin 1)))) a i b j := by
  obtain ⟨sa, hsa, ha⟩ := Cert.LibSoftplus.chain_pos_real_of_real (hreal a)
  obtain ⟨sb, hsb, hb⟩ := Cert.LibSoftplus.chain_pos_real_of_real (hreal b)
  rw [resH_apply, join_K]
  simp only [ls_apply]
  unfold Cert.ClosedForms.kerH
  dsimp only
  rw [ha, hb, Cert.LibERealLaws.coe_mul_self, Cert.LibERealLaws.coe_mul_self]
  simp only [Cert.ClosedForms.c1, Cert.ClosedForms.cz, Ideal.ofBits_one_f32, Ideal.ofBits_zero_f32,
    Cert.LibERealLaws.mul_one_div (mul_pos hsa hsa), Cert.LibERealLaws.mul_one_div (mul_pos hsb hsb)]

end Cert.ReferenceIdeal.RefJoin

end
-- ==== Proof.RefAll.lean ====
/- The reference's three results are, as whole arrays, the closed forms of the kernel matrix, its gradient and its
   Hessian — every index of a result array is a pair of coordinates, a row or column below 8192 being its quotient
   and remainder by 512 — and the reference's run restated with them: every weakly fair execution terminates with
   the three result buffers at the closed-form arrays of the argument arrays and the arguments unchanged, provided
   the sixteen unconstrained length scales are real numbers. -/
import proofs.«151589_j19816979103948_1_alg».proof.Proof.RefJoin
import proofs.«151589_j19816979103948_1_alg».proof.Proof.ClosedArrays

noncomputable section

namespace Cert.ReferenceIdeal.RefAll

open Cert.ReferenceIdeal Cert.ReferenceIdeal.Gen Cert.ReferenceIdeal.RefRun Cert.ReferenceIdeal.RefValue
  Cert.ReferenceIdeal.RefJoin Idealize.ShloMosaic Idealize.ShloMosaic.TcCoe Idealize.SL.Sem Idealize.ShloMosaic.ValueIdx

/-- A row below 8192 is row `n` of block `d`, for its quotient `d` and remainder `n` by 512. -/
theorem rowG_row (r : Fin 8192) : rowG (Cert.ClosedForms.rowD r) (Cert.ClosedForms.rowN r) = r :=
  (Cert.ClosedForms.row_eq r).symm

/-- The first result is the closed-form kernel matrix. -/
theorem all_K (X X2 : Arr Ideal S512x16) (uls : Arr Ideal S16) (uvar : Arr Ideal S1) :
    resK X X2 uls uvar
      = Cert.ClosedForms.arrK X X2 (fun k => Cert.LibSoftplus.chain (uls (ix1 k)))
          (Cert.LibSoftplus.chain (uvar (ix1 (0 : Fin 1)))) := by
  funext i
  obtain ⟨n, m, rfl⟩ : ∃ (n m : Fin 512), i = ix2 n m := ⟨i 0, i 1, eq_ix2 i⟩
  exact join_K X X2 uls uvar n m

/-- The second result is the closed-form gradient, the length scales being positive reals. -/
theorem all_G (X X2 : Arr Ideal S512x16) (uls : Arr Ideal S16) (uvar : Arr Ideal S1)
    (hreal : ∀ k : Fin 16, ∃ r : ℝ, uls (ix1 k) = (r : EReal)) :
    resG X X2 uls uvar
      = Cert.ClosedForms.arrG X X2 (fun k => Cert.LibSoftplus.chain (uls (ix1 k)))
          (Cert.LibSoftplus.chain (uvar (ix1 (0 : Fin 1)))) := by
  funext i
  obtain ⟨r, m, rfl⟩ : ∃ (r : Fin 8192) (m : Fin 512), i = ix2 r m := ⟨i 0, i 1, eq_ix2 i⟩
  have h := join_G X X2 uls uvar hreal (Cert.ClosedForms.rowD r) (Cert.ClosedForms.rowN r) m
  rw [rowG_row] at h
  exact h

/-- The third result is the closed-form Hessian, the length scales being positive reals. -/
theorem all_H (X X2 : Arr Ideal S512x16) (uls : Arr Ideal S16) (uvar : Arr Ideal S1)
    (hreal : ∀ k : Fin 16, ∃ r : ℝ, uls (ix1 k) = (r : EReal)) :
    resH X X2 uls uvar
      = Cert.ClosedForms.arrH X (fun k => Cert.LibSoftplus.chain (uls (ix1 k)))
          (Cert.LibSoftplus.chain (uvar (ix1 (0 : Fin 1)))) := by
  funext i
  obtain ⟨r, q, rfl⟩ : ∃ (r q : Fin 8192), i = ix2 r q := ⟨i 0, i 1, eq_ix2 i⟩
  have h := join_H X X2 uls uvar hreal (Cert.ClosedForms.rowD r) (Cert.ClosedForms.rowN r)
    (Cert.ClosedForms.rowD q) (Cert.ClosedForms.rowN q)
  rw [rowG_row, rowG_row] at h
  exact h

/-- The reference's run at the closed forms: from any memory with zero counters whose sixteen unconstrained length
    scales are real numbers on every device, every weakly fair execution of @main terminates with the three results
    at the closed-form arrays of the arguments' launch contents, and the four arguments unchanged. -/
theorem run_closed (m : (ℓ : Loc nD τ sig) → Buf (Elt Ideal) ℓ) (ρ : Dev nD → PrngReg)
    (hreal : ∀ c : Dev nD, ∀ k : Fin 16, ∃ r : ℝ, (m ((c.tc : Thread nD τ).loc main_arg2) : Arr Ideal S16) (ix1 k) = (r : EReal)) :
    θ_run (defs (F := Ideal)) (onTc (τ := τ) (main (F := Ideal))) ⟨m, fun _ => 0, ρ⟩ fun r => ∀ c : Dev nD,
      r.2.mem ((c.tc : Thread nD τ).loc main_v27) = Cert.ClosedForms.arrK (m ((c.tc : Thread nD τ).loc main_arg0) : Arr Ideal S512x16) (m ((c.tc : Thread nD τ).loc main_arg1) : Arr Ideal S512x16)
          (fun k => Cert.LibSoftplus.chain ((m ((c.tc : Thread nD τ).loc main_arg2) : Arr Ideal S16) (ix1 k))) (Cert.LibSoftplus.chain ((m ((c.tc : Thread nD τ).loc main_arg3) : Arr Ideal S1) (ix1 (0 : Fin 1))))
      ∧ r.2.mem ((c.tc : Thread nD τ).loc main_v43) = Cert.ClosedForms.arrG (m ((c.tc : Thread nD τ).loc main_arg0) : Arr Ideal S512x16) (m ((c.tc : Thread nD τ).loc main_arg1) : Arr Ideal S512x16)
          (fun k => Cert.LibSoftplus.chain ((m ((c.tc : Thread nD τ).loc main_arg2) : Arr Ideal S16) (ix1 k))) (Cert.LibSoftplus.chain ((m ((c.tc : Thread nD τ).loc main_arg3) : Arr Ideal S1) (ix1 (0 : Fin 1))))
      ∧ r.2.mem ((c.tc : Thread nD τ).loc main_v90) = Cert.ClosedForms.arrH (m ((c.tc : Thread nD τ).loc main_arg0) : Arr Ideal S512x16)
          (fun k => Cert.LibSoftplus.chain ((m ((c.tc : Thread nD τ).loc main_arg2) : Arr Ideal S16) (ix1 k))) (Cert.LibSoftplus.chain ((m ((c.tc : Thread nD τ).loc main_arg3) : Arr Ideal S1) (ix1 (0 : Fin 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => by
      obtain ⟨h1, h2, h3, h4⟩ := h c
      exact ⟨h1.trans (all_K _ _ _ _), h2.trans (all_G _ _ _ _ (hreal c)), h3.trans (all_H _ _ _ _ (hreal c)), h4⟩)
    (RefRun.run (F := Ideal) m ρ)

end Cert.ReferenceIdeal.RefAll

end
-- ==== Proof.FiniteInputs.lean ====
/-
  The precondition read back: when the predicate that every entry of the four input arrays has
  an absolute value below +∞ is all ones, every entry of each array is a real number (neither infinity).
-/
import proofs.«151589_j19816979103948_1_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Cert.Pre_finite_inputs

/-- The rank-0 shape has one index. -/
instance subsingleton_scalar_idx : Subsingleton S_.Idx := ⟨fun a b => funext fun d => d.elim0⟩

/-- The pattern 0x7F800000 (sign 0, exponent all ones, significand 0) denotes +∞. -/
theorem ofBits_inf : Ideal.ofBits .f32 0x7F800000#32 = (⊤ : EReal) := by
  simp [Ideal.ofBits, Ideal.ieee]

/-- An extended real whose absolute value max x (-x) is below +∞ is a real number: at x = ⊤ the maximum
    is ⊤, and at x = ⊥ it is -⊥ = ⊤. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The compare "less than" answering 1 says the order relation holds. -/
theorem lt_of_cmp_olt (a b : EReal) (h : Ideal.cmp .olt a b = 1#1) : a < b := by
  unfold Ideal.cmp at h
  by_contra hn
  simp [hn] at h

/-- The elementwise test of one entry: |x| < 0x7F800000 answering 1 makes x a real. -/
theorem real_of_test (x : EReal)
    (h : Ideal.cmp .olt (max x (-x)) (Ideal.ofBits .f32 0x7F800000#32) = 1#1) : ∃ r : ℝ, x = (r : EReal) := by
  rw [ofBits_inf] at h
  exact real_of_abs_lt_top x (lt_of_cmp_olt _ _ h)

variable [Facts]

/-- The precondition decoded: if the predicate is all ones, every entry of X, of X2, of the
    length-scale parameters and of the variance parameter is a real number. -/
theorem real_of_pre (X X2 : FVec Ideal S512x16 .f32) (uls : FVec Ideal S16 .f32) (uvar : FVec Ideal S1 .f32)
    (h : fn (F := Ideal) X X2 uls uvar = (fun _ => 1#1)) :
    (∀ i, ∃ r : ℝ, X i = (r : EReal)) ∧ (∀ i, ∃ r : ℝ, X2 i = (r : EReal))
      ∧ (∀ i, ∃ r : ℝ, uls i = (r : EReal)) ∧ (∀ i, ∃ r : ℝ, uvar i = (r : EReal)) := by
  have e := congrFun h ValueIdx.ix0
  dsimp only [fn, fn_part1, andi] at e
  rw [IntOp.andi_eq_one, IntOp.andi_eq_one, IntOp.andi_eq_one] at e
  obtain ⟨⟨⟨h0, h1⟩, h2⟩, h3⟩ := e
  refine ⟨fun i => ?_, fun i => ?_, fun i => ?_, fun i => ?_⟩
  · exact real_of_test (X i) (Host.reduce_andi_all _ _ _ _ _ h0 i)
  · exact real_of_test (X2 i) (Host.reduce_andi_all _ _ _ _ _ h1 i)
  · exact real_of_test (uls i) (Host.reduce_andi_all _ _ _ _ _ h2 i)
  · exact real_of_test (uvar i) (Host.reduce_andi_all _ _ _ _ _ h3 i)

end Cert.FiniteInputs

end
-- ==== Proof.lean ====
/-
  The certificate: a Gaussian-process kernel matrix K (512×512), its gradient (8192×512) and its negated Hessian
  (8192×8192), computed by four pipelined kernel regions after two softplus chains on the host, against the plain array
  program that computes the same three arrays with broadcasts, one matrix product and two transposes.

  At the exact instance both programs compute, entry by entry,
      K[n,m] = v · exp(-¼ · ((Σₖ Aₙₖ² − 2 Σₖ Aₙₖ Bₘₖ) + Σₖ Bₘₖ²)),  A = X / l,  B = X2 / l,
      grad[d·512+n, m] = ((-½) / l_d²) · (X[n,d] − X2[m,d]) · K[n,m],
      hess[a·512+i, b·512+j] = K(X,X)[i,j] · (δ_ab · ½ / l_a² − (¼ · s_a) · s_b),  s_d = (X[i,d] − X[j,d]) / l_d²,
  with l = softplus(uls) and v = softplus(uvar). The two differ in where a factor stands: the kernel doubles the matrix
  product where the reference doubles one operand (a positive finite factor distributes over any sum of extended reals);
  the kernel multiplies by the quotient -½ / l_d² (or by 1 / l_d²) where the reference divides the difference by l_d² —
  equal because l_d², the square of a softplus of a real number, is a positive real (at a zero divisor the quotient's
  conventions would tell the two apart: this is where the inputs' finiteness is used); and the kernel picks a coordinate
  by a product with a one-hot vector, which picks one term of the sum whatever the other terms are.

  The frames of the two kernel programs come from the run of their seven items (three host stretches, four regions);
  the reference's from its run of 140 host operations. Nothing was rewritten by the ideal pass: the fourth conjunct is trivial.
-/
import proofs.«151589_j19816979103948_1_alg».proof.Defs
import proofs.«151589_j19816979103948_1_alg».proof.Proof.Gen.Kernel
import proofs.«151589_j19816979103948_1_alg».proof.Proof.Gen.KernelIdeal
import proofs.«151589_j19816979103948_1_alg».proof.Proof.Gen.ReferenceIdeal
import proofs.«151589_j19816979103948_1_alg».proof.Proof.Gen.Pre_finite_inputs
import proofs.«151589_j19816979103948_1_alg».proof.Proof.KernelRun
import proofs.«151589_j19816979103948_1_alg».proof.Proof.KernelIdealRun
import proofs.«151589_j19816979103948_1_alg».proof.Proof.KernelIdealValueAll
import proofs.«151589_j19816979103948_1_alg».proof.Proof.RefAll
import proofs.«151589_j19816979103948_1_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and leaves its arguments unchanged. -/
theorem frame_k : Cert.frame_Kernel := fun m ρ _ => Cert.Kernel.Run.frame (F := Bits) m ρ

/-- So does the idealized one. -/
theorem frame_ki : Cert.frame_KernelIdeal := fun m ρ _ => Cert.KernelIdeal.Run.frame (F := Ideal) m ρ

/-- The reference's run, its results dropped. -/
theorem frame_ri : Cert.frame_ReferenceIdeal := fun m ρ _ =>
  (θ_run Cert.ReferenceIdeal.defs _ _).mono (fun _ h c => (h c).2.2.2) (Cert.ReferenceIdeal.RefRun.run (F := Ideal) m ρ)

/-- The ideal pass rewrote nothing. -/
theorem preserves : Cert.preserves_Kernel_KernelIdeal := trivial

/-- Both programs end with the three closed-form arrays of the arguments. -/
theorem algebraic : Cert.algebraic_KernelIdeal_ReferenceIdeal := by
  intro m ρ m' ρ' hpre hagree
  -- every length-scale parameter is a real number
  have hreal : ∀ c : Dev Cert.KernelIdeal.nD, ∀ k : Fin 16,
      ∃ r : ℝ, m ((c.tc : Thread Cert.KernelIdeal.nD Cert.KernelIdeal.τ).loc Cert.KernelIdeal.main_arg2) (ix1 k) = (r : EReal) :=
    fun c k => (Cert.FiniteInputs.real_of_pre _ _ _ _ (hpre c)).2.2.1 (ix1 k)
  have hreal' : ∀ c : Dev Cert.ReferenceIdeal.nD, ∀ k : Fin 16,
      ∃ r : ℝ, m' ((c.tc : Thread Cert.ReferenceIdeal.nD Cert.ReferenceIdeal.τ).loc Cert.ReferenceIdeal.main_arg2) (ix1 k) = (r : EReal) :=
    fun c k => by rw [(hagree c).2.2.1]; exact hreal c k
  refine ⟨fun c => Cert.KernelIdeal.Run.o0 m c, fun c => Cert.KernelIdeal.Run.o2 m c, fun c => Cert.KernelIdeal.Run.o3 m c,
    Cert.KernelIdeal.Run.run (F := Ideal) m ρ, ?_⟩
  refine (θ_run Cert.ReferenceIdeal.defs _ _).mono (fun r h c => ?_) (Cert.ReferenceIdeal.RefAll.run_closed m' ρ' hreal')
  obtain ⟨h1, h2, h3, h4⟩ := h c
  refine ⟨?_, ?_, ?_, h4⟩
  · show _ = Cert.KernelIdeal.Run.o0 m c
    rw [h1, Cert.KernelIdeal.Value.o0_eq m c, (hagree c).1, (hagree c).2.1, (hagree c).2.2.1, (hagree c).2.2.2]
  · show _ = Cert.KernelIdeal.Run.o2 m c
    rw [h2, Cert.KernelIdeal.Value.o2_eq m c, (hagree c).1, (hagree c).2.1, (hagree c).2.2.1, (hagree c).2.2.2]
  · show _ = Cert.KernelIdeal.Run.o3 m c
    rw [h3, Cert.KernelIdeal.Value.o3_eq m c, (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
